-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2x524288 : Shape := ⟨3, ![8, 2, 524288]⟩
abbrev S4096 : Shape := ⟨1, ![4096]⟩
abbrev S2049x4096 : Shape := ⟨2, ![2049, 4096]⟩
abbrev S_ : Shape := ⟨0, ![]⟩

class Facts : Prop where
  bcast_S_S8x2x524288 : S_.BroadcastsInDim S8x2x524288 (![] : Fin 0 → Fin S8x2x524288.rank)
  reducesTo_S8x2x524288_S_d0_1_2 : S8x2x524288.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S2049x4096 : S_.BroadcastsInDim S2049x4096 (![] : Fin 0 → Fin S2049x4096.rank)
  reducesTo_S2049x4096_S_d0_1 : S2049x4096.ReducesTo [0, 1] S_

variable [Facts]

def fn_part1 {F : FTy → Type} [FloatOps F] (main_v13 : IVec S_ 1) (main_v16 : IVec S2049x4096 1) : IVec S_ 1 :=
  let main_c_5 : IVec S_ 1 := constantI S_ 1 1#1
  let main_v17 : IVec S_ 1 := (fun x v => Host.reduce IntOp.andi x v reducesTo_S2049x4096_S_d0_1 h_S_) main_v16 main_c_5
  let main_v18 : IVec S_ 1 := andi main_v13 main_v17
  main_v18

def fn {F : FTy → Type} [FloatOps F] (main_arg0 : FVec F S8x2x524288 .f32) (main_arg1 : FVec F S4096 .f32) (main_arg2 : FVec F S2049x4096 .f32) (main_arg3 : FVec F S2049x4096 .f32) : IVec S_ 1 :=
  let main_v0 : FVec F S8x2x524288 .f32 := Host.absf main_arg0
  let main_cst : FVec F S_ .f32 := constant S_ .f32 0x7F800000#32
  let main_v1 : FVec F S8x2x524288 .f32 := broadcastInDim S8x2x524288 ![] bcast_S_S8x2x524288 main_cst
  let main_v2 : IVec S8x2x524288 1 := cmpf .olt main_v0 main_v1
  let main_c : IVec S_ 1 := constantI S_ 1 1#1
  let main_v3 : IVec S_ 1 := (fun x v => Host.reduce IntOp.andi x v reducesTo_S8x2x524288_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S2049x4096 .f32 := Host.absf main_arg2
  let main_cst_2 : FVec F S_ .f32 := constant S_ .f32 0x7F800000#32
  let main_v10 : FVec F S2049x4096 .f32 := broadcastInDim S2049x4096 ![] bcast_S_S2049x4096 main_cst_2
  let main_v11 : IVec S2049x4096 1 := cmpf .olt main_v9 main_v10
  let main_c_3 : IVec S_ 1 := constantI S_ 1 1#1
  let main_v12 : IVec S_ 1 := (fun x v => Host.reduce IntOp.andi x v reducesTo_S2049x4096_S_d0_1 h_S_) main_v11 main_c_3
  let main_v13 : IVec S_ 1 := andi main_v8 main_v12
  let main_v14 : FVec F S2049x4096 .f32 := Host.absf main_arg3
  let main_cst_4 : FVec F S_ .f32 := constant S_ .f32 0x7F800000#32
  let main_v15 : FVec F S2049x4096 .f32 := broadcastInDim S2049x4096 ![] bcast_S_S2049x4096 main_cst_4
  let main_v16 : IVec S2049x4096 1 := cmpf .olt main_v14 main_v15
  fn_part1 (F := F) main_v13 main_v16
-- ==== Kernel.lean ====
abbrev S8x2x524288 : Shape := ⟨3, ![8, 2, 524288]⟩
abbrev S4096 : Shape := ⟨1, ![4096]⟩
abbrev S2049x4096 : Shape := ⟨2, ![2049, 4096]⟩
abbrev S_ : Shape := ⟨0, ![]⟩
abbrev S8x2x1 : Shape := ⟨3, ![8, 2, 1]⟩
abbrev S8x2x2048 : Shape := ⟨3, ![8, 2, 2048]⟩
abbrev S8x2x526336 : Shape := ⟨3, ![8, 2, 526336]⟩
abbrev S8x2x528384 : Shape := ⟨3, ![8, 2, 528384]⟩
abbrev S8x2x516x1024 : Shape := ⟨4, ![8, 2, 516, 1024]⟩
abbrev S8x2x513x1024 : Shape := ⟨4, ![8, 2, 513, 1024]⟩
abbrev S8x2x513x1x1024 : Shape := ⟨5, ![8, 2, 513, 1, 1024]⟩
abbrev S8x2x513x4x1024 : Shape := ⟨5, ![8, 2, 513, 4, 1024]⟩
abbrev S8x2x513x4096 : Shape := ⟨4, ![8, 2, 513, 4096]⟩
abbrev S1x1x1x4096 : Shape := ⟨4, ![1, 1, 1, 4096]⟩
abbrev S16x513x4096 : Shape := ⟨3, ![16, 513, 4096]⟩
abbrev S16x2049x513 : Shape := ⟨3, ![16, 2049, 513]⟩
abbrev S1x513x256 : Shape := ⟨3, ![1, 513, 256]⟩
abbrev S2049x256 : Shape := ⟨2, ![2049, 256]⟩
abbrev S1x2049x513 : Shape := ⟨3, ![1, 2049, 513]⟩
abbrev S2049x513 : Shape := ⟨2, ![2049, 513]⟩
abbrev S513x256 : Shape := ⟨2, ![513, 256]⟩
abbrev S8x2x2049x513 : Shape := ⟨4, ![8, 2, 2049, 513]⟩

abbrev nBuf : Space → Nat
  | .hbm => 35
  | .vmem => 12
  | .smem => 0
  | _ => 0

abbrev bufTy : (tb : Table) → Fin (tcTables nBuf tb) → BufTy
  | .hbm, ⟨0, _⟩ => ⟨S8x2x524288, .f32⟩
  | .hbm, ⟨1, _⟩ => ⟨S4096, .f32⟩
  | .hbm, ⟨2, _⟩ => ⟨S2049x4096, .f32⟩
  | .hbm, ⟨3, _⟩ => ⟨S2049x4096, .f32⟩
  | .hbm, ⟨4, _⟩ => ⟨S_, .i32⟩
  | .hbm, ⟨5, _⟩ => ⟨S8x2x1, .f32⟩
  | .hbm, ⟨6, _⟩ => ⟨S8x2x2048, .f32⟩
  | .hbm, ⟨7, _⟩ => ⟨S8x2x2048, .f32⟩
  | .hbm, ⟨8, _⟩ => ⟨S8x2x526336, .f32⟩
  | .hbm, ⟨9, _⟩ => ⟨S8x2x1, .f32⟩
  | .hbm, ⟨10, _⟩ => ⟨S8x2x2048, .f32⟩
  | .hbm, ⟨11, _⟩ => ⟨S8x2x2048, .f32⟩
  | .hbm, ⟨12, _⟩ => ⟨S8x2x528384, .f32⟩
  | .hbm, ⟨13, _⟩ => ⟨S8x2x516x1024, .f32⟩
  | .hbm, ⟨14, _⟩ => ⟨S8x2x513x1024, .f32⟩
  | .hbm, ⟨15, _⟩ => ⟨S8x2x513x1024, .f32⟩
  | .hbm, ⟨16, _⟩ => ⟨S8x2x513x1024, .f32⟩
  | .hbm, ⟨17, _⟩ => ⟨S8x2x513x1024, .f32⟩
  | .hbm, ⟨18, _⟩ => ⟨S8x2x513x1x1024, .f32⟩
  | .hbm, ⟨19, _⟩ => ⟨S8x2x513x1x1024, .f32⟩
  | .hbm, ⟨20, _⟩ => ⟨S8x2x513x1x1024, .f32⟩
  | .hbm, ⟨21, _⟩ => ⟨S8x2x513x1x1024, .f32⟩
  | .hbm, ⟨22, _⟩ => ⟨S8x2x513x4x1024, .f32⟩
  | .hbm, ⟨23, _⟩ => ⟨S8x2x513x4096, .f32⟩
  | .hbm, ⟨24, _⟩ => ⟨S1x1x1x4096, .f32⟩
  | .hbm, ⟨25, _⟩ => ⟨S8x2x513x4096, .f32⟩
  | .hbm, ⟨26, _⟩ => ⟨S8x2x513x4096, .f32⟩
  | .hbm, ⟨27, _⟩ => ⟨S8x2x513x4096, .bf16⟩
  | .hbm, ⟨28, _⟩ => ⟨S16x513x4096, .bf16⟩
  | .hbm, ⟨29, _⟩ => ⟨S2049x4096, .bf16⟩
  | .hbm, ⟨30, _⟩ => ⟨S2049x4096, .bf16⟩
  | .hbm, ⟨31, _⟩ => ⟨S16x2049x513, .f32⟩
  | .hbm, ⟨32, _⟩ => ⟨S16x2049x513, .f32⟩
  | .hbm, ⟨33, _⟩ => ⟨S8x2x2049x513, .f32⟩
  | .hbm, ⟨34, _⟩ => ⟨S8x2x2049x513, .f32⟩
  | .local _ .vmem, ⟨0, _⟩ => ⟨S1x513x256, .bf16⟩
  | .local _ .vmem, ⟨1, _⟩ => ⟨S1x513x256, .bf16⟩
  | .local _ .vmem, ⟨2, _⟩ => ⟨S2049x256, .bf16⟩
  | .local _ .vmem, ⟨3, _⟩ => ⟨S2049x256, .bf16⟩
  | .local _ .vmem, ⟨4, _⟩ => ⟨S2049x256, .bf16⟩
  | .local _ .vmem, ⟨5, _⟩ => ⟨S2049x256, .bf16⟩
  | .local _ .vmem, ⟨6, _⟩ => ⟨S1x2049x513, .f32⟩
  | .local _ .vmem, ⟨7, _⟩ => ⟨S1x2049x513, .f32⟩
  | .local _ .vmem, ⟨8, _⟩ => ⟨S1x2049x513, .f32⟩
  | .local _ .vmem, ⟨9, _⟩ => ⟨S1x2049x513, .f32⟩
  | .local _ .vmem, ⟨10, _⟩ => ⟨S2049x513, .f32⟩
  | .local _ .vmem, ⟨11, _⟩ => ⟨S2049x513, .f32⟩
  | _, _ => ⟨S8x2x524288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_16 : BitVec 32 := 0#32
  let v23 : BitVec 1 := Scalar.cmpi .ne v22 c0_i32_16
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x513x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2049x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2049x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2049x513 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2049x513 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S8x2x524288_S8x2x1_0_0_0 : S8x2x524288.Slices ![0, 0, 0] S8x2x1
  slices_S8x2x524288_S8x2x2048_0_0_1 : S8x2x524288.Slices ![0, 0, 1] S8x2x2048
  concatenates_S8x2x2048_S8x2x524288_S8x2x526336_d2 : Shape.Concatenates [S8x2x2048, S8x2x524288] S8x2x526336 2
  slices_S8x2x526336_S8x2x1_0_0_526335 : S8x2x526336.Slices ![0, 0, 526335] S8x2x1
  slices_S8x2x526336_S8x2x2048_0_0_524287 : S8x2x526336.Slices ![0, 0, 524287] S8x2x2048
  concatenates_S8x2x526336_S8x2x2048_S8x2x528384_d2 : Shape.Concatenates [S8x2x526336, S8x2x2048] S8x2x528384 2
  shapeCasts_S8x2x528384_S8x2x516x1024 : S8x2x528384.ShapeCasts S8x2x516x1024
  slices_S8x2x516x1024_S8x2x513x1024_0_0_0_0 : S8x2x516x1024.Slices ![0, 0, 0, 0] S8x2x513x1024
  slices_S8x2x516x1024_S8x2x513x1024_0_0_1_0 : S8x2x516x1024.Slices ![0, 0, 1, 0] S8x2x513x1024
  slices_S8x2x516x1024_S8x2x513x1024_0_0_2_0 : S8x2x516x1024.Slices ![0, 0, 2, 0] S8x2x513x1024
  slices_S8x2x516x1024_S8x2x513x1024_0_0_3_0 : S8x2x516x1024.Slices ![0, 0, 3, 0] S8x2x513x1024
  bcast_S8x2x513x1024_S8x2x513x1x1024_0_1_2_4 : S8x2x513x1024.BroadcastsInDim S8x2x513x1x1024 (![0, 1, 2, 4] : Fin 4 → Fin S8x2x513x1x1024.rank)
  concatenates_S8x2x513x1x1024_S8x2x513x1x1024_S8x2x513x1x1024_S8x2x513x1x1024_S8x2x513x4x1024_d3 : Shape.Concatenates [S8x2x513x1x1024, S8x2x513x1x1024, S8x2x513x1x1024, S8x2x513x1x1024] S8x2x513x4x1024 3
  shapeCasts_S8x2x513x4x1024_S8x2x513x4096 : S8x2x513x4x1024.ShapeCasts S8x2x513x4096
  bcast_S4096_S1x1x1x4096_3 : S4096.BroadcastsInDim S1x1x1x4096 (![3] : Fin 1 → Fin S1x1x1x4096.rank)
  bcast_S1x1x1x4096_S8x2x513x4096_0_1_2_3 : S1x1x1x4096.BroadcastsInDim S8x2x513x4096 (![0, 1, 2, 3] : Fin 4 → Fin S8x2x513x4096.rank)
  bitsLt_bf16_f32 : FTy.bits .bf16 < FTy.bits .f32
  shapeCasts_S8x2x513x4096_S16x513x4096 : S8x2x513x4096.ShapeCasts S16x513x4096
  inb_S2049x513_S2049x513_0_0 : ∀ a, (![0, 0] : Fin 2 → Nat) a + S2049x513.size a ≤ S2049x513.size a
  h_S2049x513 : 0 < S2049x513.numel
  shapeCasts_S2049x513_S2049x513 : S2049x513.ShapeCasts S2049x513
  inb_S1x513x256_S1x513x256_0_0_0 : ∀ a, (![0, 0, 0] : Fin 3 → Nat) a + S1x513x256.size a ≤ S1x513x256.size a
  h_S1x513x256 : 0 < S1x513x256.numel
  shapeCasts_S1x513x256_S513x256 : S1x513x256.ShapeCasts S513x256
  inb_S2049x256_S2049x256_0_0 : ∀ a, (![0, 0] : Fin 2 → Nat) a + S2049x256.size a ≤ S2049x256.size a
  h_S2049x256 : 0 < S2049x256.numel
  shapeCasts_S2049x256_S2049x256 : S2049x256.ShapeCasts S2049x256
  inb_S1x2049x513_S1x2049x513_0_0_0 : ∀ a, (![0, 0, 0] : Fin 3 → Nat) a + S1x2049x513.size a ≤ S1x2049x513.size a
  h_S1x2049x513 : 0 < S1x2049x513.numel
  shapeCasts_S1x2049x513_S2049x513 : S1x2049x513.ShapeCasts S2049x513
  shapeCasts_S2049x513_S1x2049x513 : S2049x513.ShapeCasts S1x2049x513
  shapeCasts_S16x2049x513_S8x2x2049x513 : S16x2049x513.ShapeCasts S8x2x2049x513
  dot_S2049x256_S513x256_S2049x513_1_1_0_0_n_n_wf : DotDims.WF S2049x256 S513x256 S2049x513 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x513x256.size a ≤ S16x513x4096.size a
  hwx0_0 : ∀ i : grid0.Coords, EltTy.bits .bf16 = 32 ∨ (Rect.block (s := S16x513x4096) S1x513x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2049x256.size a ≤ S2049x4096.size a
  hwx0_1 : ∀ i : grid0.Coords, EltTy.bits .bf16 = 32 ∨ (Rect.block (s := S2049x4096) S2049x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2049x256.size a ≤ S2049x4096.size a
  hwx0_2 : ∀ i : grid0.Coords, EltTy.bits .bf16 = 32 ∨ (Rect.block (s := S2049x4096) S2049x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2049x513.size a ≤ S16x2049x513.size a
  hwx0_3 : ∀ i : grid0.Coords, EltTy.bits .f32 = 32 ∨ (Rect.block (s := S16x2049x513) S1x2049x513.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2049x513.size a ≤ S16x2049x513.size a
  hwx0_4 : ∀ i : grid0.Coords, EltTy.bits .f32 = 32 ∨ (Rect.block (s := S16x2049x513) S1x2049x513.size (cc0_transform_4 i) (hinb0_4 i)).WholeWords (EltTy.packing .f32)

variable [Facts₀]

def dot_S2049x256_S513x256_S2049x513_1_1_0_0_n_n : DotDims S2049x256 S513x256 S2049x513 where
  lhsContracting := [1]
  rhsContracting := [1]
  lhsNonContracting := [0]
  rhsNonContracting := [0]
  lhsBatch := []
  rhsBatch := []
  wf := dot_S2049x256_S513x256_S2049x513_1_1_0_0_n_n_wf

abbrev win0_0 : Pipeline.Window sig grid0 :=
  Pipeline.Window.ofSpec (Memref.whole main_v16) S1x513x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2049x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2049x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S1x2049x513.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S1x2049x513.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2x524288 : Shape := ⟨3, ![8, 2, 524288]⟩
abbrev S4096 : Shape := ⟨1, ![4096]⟩
abbrev S2049x4096 : Shape := ⟨2, ![2049, 4096]⟩
abbrev S_ : Shape := ⟨0, ![]⟩
abbrev S8x2x1 : Shape := ⟨3, ![8, 2, 1]⟩
abbrev S8x2x2048 : Shape := ⟨3, ![8, 2, 2048]⟩
abbrev S8x2x526336 : Shape := ⟨3, ![8, 2, 526336]⟩
abbrev S8x2x528384 : Shape := ⟨3, ![8, 2, 528384]⟩
abbrev S513 : Shape := ⟨1, ![513]⟩
abbrev S513x1 : Shape := ⟨2, ![513, 1]⟩
abbrev S1x4096 : Shape := ⟨2, ![1, 4096]⟩
abbrev S513x4096 : Shape := ⟨2, ![513, 4096]⟩
abbrev S513x4096x1 : Shape := ⟨3, ![513, 4096, 1]⟩
abbrev S8x2x513x4096 : Shape := ⟨4, ![8, 2, 513, 4096]⟩
abbrev S1x1x1x4096 : Shape := ⟨4, ![1, 1, 1, 4096]⟩
abbrev S2049x8x2x513 : Shape := ⟨4, ![2049, 8, 2, 513]⟩
abbrev S8x2x2049x513 : Shape := ⟨4, ![8, 2, 2049, 513]⟩

abbrev nBuf : Space → Nat
  | .hbm => 39
  | .vmem => 0
  | .smem => 0
  | _ => 0

abbrev bufTy : (tb : Table) → Fin (tcTables nBuf tb) → BufTy
  | .hbm, ⟨0, _⟩ => ⟨S8x2x524288, .f32⟩
  | .hbm, ⟨1, _⟩ => ⟨S4096, .f32⟩
  | .hbm, ⟨2, _⟩ => ⟨S2049x4096, .f32⟩
  | .hbm, ⟨3, _⟩ => ⟨S2049x4096, .f32⟩
  | .hbm, ⟨4, _⟩ => ⟨S_, .i32⟩
  | .hbm, ⟨5, _⟩ => ⟨S8x2x1, .f32⟩
  | .hbm, ⟨6, _⟩ => ⟨S8x2x2048, .f32⟩
  | .hbm, ⟨7, _⟩ => ⟨S8x2x2048, .f32⟩
  | .hbm, ⟨8, _⟩ => ⟨S8x2x526336, .f32⟩
  | .hbm, ⟨9, _⟩ => ⟨S8x2x1, .f32⟩
  | .hbm, ⟨10, _⟩ => ⟨S8x2x2048, .f32⟩
  | .hbm, ⟨11, _⟩ => ⟨S8x2x2048, .f32⟩
  | .hbm, ⟨12, _⟩ => ⟨S8x2x528384, .f32⟩
  | .hbm, ⟨13, _⟩ => ⟨S513, .i32⟩
  | .hbm, ⟨14, _⟩ => ⟨S513x1, .i32⟩
  | .hbm, ⟨15, _⟩ => ⟨S_, .i32⟩
  | .hbm, ⟨16, _⟩ => ⟨S513x1, .i32⟩
  | .hbm, ⟨17, _⟩ => ⟨S513x1, .i32⟩
  | .hbm, ⟨18, _⟩ => ⟨S4096, .i32⟩
  | .hbm, ⟨19, _⟩ => ⟨S1x4096, .i32⟩
  | .hbm, ⟨20, _⟩ => ⟨S513x4096, .i32⟩
  | .hbm, ⟨21, _⟩ => ⟨S513x4096, .i32⟩
  | .hbm, ⟨22, _⟩ => ⟨S513x4096, .i32⟩
  | .hbm, ⟨23, _⟩ => ⟨S_, .i32⟩
  | .hbm, ⟨24, _⟩ => ⟨S513x4096, .i32⟩
  | .hbm, ⟨25, _⟩ => ⟨S513x4096, .i1⟩
  | .hbm, ⟨26, _⟩ => ⟨S_, .i32⟩
  | .hbm, ⟨27, _⟩ => ⟨S513x4096, .i32⟩
  | .hbm, ⟨28, _⟩ => ⟨S513x4096, .i32⟩
  | .hbm, ⟨29, _⟩ => ⟨S513x4096, .i32⟩
  | .hbm, ⟨30, _⟩ => ⟨S513x4096x1, .i32⟩
  | .hbm, ⟨31, _⟩ => ⟨S8x2x513x4096, .f32⟩
  | .hbm, ⟨32, _⟩ => ⟨S1x1x1x4096, .f32⟩
  | .hbm, ⟨33, _⟩ => ⟨S8x2x513x4096, .f32⟩
  | .hbm, ⟨34, _⟩ => ⟨S8x2x513x4096, .f32⟩
  | .hbm, ⟨35, _⟩ => ⟨S2049x8x2x513, .f32⟩
  | .hbm, ⟨36, _⟩ => ⟨S8x2x2049x513, .f32⟩
  | .hbm, ⟨37, _⟩ => ⟨S2049x8x2x513, .f32⟩
  | .hbm, ⟨38, _⟩ => ⟨S8x2x2049x513, .f32⟩
  | _, _ => ⟨S8x2x524288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  slices_S8x2x524288_S8x2x1_0_0_0 : S8x2x524288.Slices ![0, 0, 0] S8x2x1
  slices_S8x2x524288_S8x2x2048_0_0_1 : S8x2x524288.Slices ![0, 0, 1] S8x2x2048
  concatenates_S8x2x2048_S8x2x524288_S8x2x526336_d2 : Shape.Concatenates [S8x2x2048, S8x2x524288] S8x2x526336 2
  slices_S8x2x526336_S8x2x1_0_0_526335 : S8x2x526336.Slices ![0, 0, 526335] S8x2x1
  slices_S8x2x526336_S8x2x2048_0_0_524287 : S8x2x526336.Slices ![0, 0, 524287] S8x2x2048
  concatenates_S8x2x526336_S8x2x2048_S8x2x528384_d2 : Shape.Concatenates [S8x2x526336, S8x2x2048] S8x2x528384 2
  bcast_S513_S513x1_0 : S513.BroadcastsInDim S513x1 (![0] : Fin 1 → Fin S513x1.rank)
  bcast_S_S513x1 : S_.BroadcastsInDim S513x1 (![] : Fin 0 → Fin S513x1.rank)
  bcast_S4096_S1x4096_1 : S4096.BroadcastsInDim S1x4096 (![1] : Fin 1 → Fin S1x4096.rank)
  bcast_S513x1_S513x4096_0_1 : S513x1.BroadcastsInDim S513x4096 (![0, 1] : Fin 2 → Fin S513x4096.rank)
  bcast_S1x4096_S513x4096_0_1 : S1x4096.BroadcastsInDim S513x4096 (![0, 1] : Fin 2 → Fin S513x4096.rank)
  bcast_S_S513x4096 : S_.BroadcastsInDim S513x4096 (![] : Fin 0 → Fin S513x4096.rank)
  bcast_S513x4096_S513x4096x1_0_1 : S513x4096.BroadcastsInDim S513x4096x1 (![0, 1] : Fin 2 → Fin S513x4096x1.rank)
  bcast_S4096_S1x1x1x4096_3 : S4096.BroadcastsInDim S1x1x1x4096 (![3] : Fin 1 → Fin S1x1x1x4096.rank)
  bcast_S1x1x1x4096_S8x2x513x4096_0_1_2_3 : S1x1x1x4096.BroadcastsInDim S8x2x513x4096 (![0, 1, 2, 3] : Fin 4 → Fin S8x2x513x4096.rank)
  transposes_S2049x8x2x513_S8x2x2049x513_1_2_0_3 : S2049x8x2x513.Transposes [1, 2, 0, 3] S8x2x2049x513
  gather_S8x2x528384_S513x4096x1_S8x2x513x4096_01_2_n_n_2_2_821_wf : GatherDims.WF S8x2x528384 S513x4096x1 S8x2x513x4096 [0, 1] [2] [] [2] [] 2 ![8, 2, 1]
  dot_S2049x4096_S8x2x513x4096_S2049x8x2x513_1_3_0_012_n_n_wf : DotDims.WF S2049x4096 S8x2x513x4096 S2049x8x2x513 [1] [3] [0] [0, 1, 2] [] []

variable [Facts₀]

def gather_S8x2x528384_S513x4096x1_S8x2x513x4096_01_2_n_n_2_2_821 : GatherDims S8x2x528384 S513x4096x1 S8x2x513x4096 where
  offsetDims := [0, 1]
  collapsedSliceDims := [2]
  operandBatchingDims := []
  startIndicesBatchingDims := []
  startIndexMap := [2]
  indexVectorDim := 2
  sliceSizes := ![8, 2, 1]
  wf := gather_S8x2x528384_S513x4096x1_S8x2x513x4096_01_2_n_n_2_2_821_wf
def dot_S2049x4096_S8x2x513x4096_S2049x8x2x513_1_3_0_012_n_n : DotDims S2049x4096 S8x2x513x4096 S2049x8x2x513 where
  lhsContracting := [1]
  rhsContracting := [3]
  lhsNonContracting := [0]
  rhsNonContracting := [0, 1, 2]
  lhsBatch := []
  rhsBatch := []
  wf := dot_S2049x4096_S8x2x513x4096_S2049x8x2x513_1_3_0_012_n_n_wf

class Facts : Prop extends Facts₀ where

variable [Facts]
-- ==== Proof.Kernel.Kit.lean ====
/-
  What the three cases of the kernel body share. The grid is 16 × 16: point t = 16·s + k is tile k of the 4096 samples
  for batch-channel pair s. The body zeroes its two accumulators when k = 0, adds one tile's partial products at every k,
  and copies the accumulators into the two output blocks when k = 15; the output blocks are written back only there.
  Here: the arrays as the region finds them (after the host lines that pad, frame and window the signal), the host lines
  around the region, the blocks of the three input windows, the two conditions in closed form, and where the two output
  windows are idle.
-/
import proofs.«152170_j48576080118713_1_alg».proof.Proof.Gen.Kernel.Launch
import proofs.«152170_j48576080118713_1_alg».proof.Proof.Gen.Kernel.Skeleton
import proofs.«152170_j48576080118713_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: after the host lines before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the two reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each reshape writes only its own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.reshape_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and no window stages it: after the whole program it is as launched. -/
theorem tail_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  refine (StableHlo.after_of_forall_not_mem (b := Proc.devRef .tc main_arg0) _ _ (List.forall_iff_forall_mem.mp (by
    simp only [hostOps1, List.flatten_cons, List.flatten_nil, List.append_nil, List.cons_append, List.nil_append, List.Forall,
      StableHlo.reshape_writes, Finset.mem_singleton]
    repeat' apply And.intro
    all_goals exact StableHlo.devRef_ne_of_ne (by decide)))).trans ?_
  exact (Pipeline.withArrays_of_ne (cfgs 0).spec c (V0 m c) _ main_arg0 (by decide)).trans (V_main_arg0 m c)

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and no window stages it: after the whole program it is as launched. -/
theorem tail_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  refine (StableHlo.after_of_forall_not_mem (b := Proc.devRef .tc main_arg1) _ _ (List.forall_iff_forall_mem.mp (by
    simp only [hostOps1, List.flatten_cons, List.flatten_nil, List.append_nil, List.cons_append, List.nil_append, List.Forall,
      StableHlo.reshape_writes, Finset.mem_singleton]
    repeat' apply And.intro
    all_goals exact StableHlo.devRef_ne_of_ne (by decide)))).trans ?_
  exact (Pipeline.withArrays_of_ne (cfgs 0).spec c (V0 m c) _ main_arg1 (by decide)).trans (V_main_arg1 m c)

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and no window stages it: after the whole program it is as launched. -/
theorem tail_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  refine (StableHlo.after_of_forall_not_mem (b := Proc.devRef .tc main_arg2) _ _ (List.forall_iff_forall_mem.mp (by
    simp only [hostOps1, List.flatten_cons, List.flatten_nil, List.append_nil, List.cons_append, List.nil_append, List.Forall,
      StableHlo.reshape_writes, Finset.mem_singleton]
    repeat' apply And.intro
    all_goals exact StableHlo.devRef_ne_of_ne (by decide)))).trans ?_
  exact (Pipeline.withArrays_of_ne (cfgs 0).spec c (V0 m c) _ main_arg2 (by decide)).trans (V_main_arg2 m c)

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and no window stages it: after the whole program it is as launched. -/
theorem tail_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  refine (StableHlo.after_of_forall_not_mem (b := Proc.devRef .tc main_arg3) _ _ (List.forall_iff_forall_mem.mp (by
    simp only [hostOps1, List.flatten_cons, List.flatten_nil, List.append_nil, List.cons_append, List.nil_append, List.Forall,
      StableHlo.reshape_writes, Finset.mem_singleton]
    repeat' apply And.intro
    all_goals exact StableHlo.devRef_ne_of_ne (by decide)))).trans ?_
  exact (Pipeline.withArrays_of_ne (cfgs 0).spec c (V0 m c) _ main_arg3 (by decide)).trans (V_main_arg3 m c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data, a run whose post has every buffer no window stages at what the lines after the region leave
    ends with the four argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (tail_main_arg0 m dats c),
      ((h c).2 main_arg1 (Pipeline.mem_restRefs_of main_arg1 (by decide) (by decide))).trans (tail_main_arg1 m dats c),
      ((h c).2 main_arg2 (Pipeline.mem_restRefs_of main_arg2 (by decide) (by decide))).trans (tail_main_arg2 m dats c),
      ((h c).2 main_arg3 (Pipeline.mem_restRefs_of main_arg3 (by decide) (by decide))).trans (tail_main_arg3 m dats c)⟩) h

/-! ## The body's two conditions -/

/-- "This is the first tile" (k = 0), as the body computes it from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last tile" (k = 15). -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last tile the body stores nothing into the output blocks, and they are not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last tile it stores both. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The memrefs the body is called with -/

/-- One staging buffer of each output window, through which its contents are stated (the choice does not matter). -/
abbrev VO0_3 : View sig .tc .vmem S1x2049x513 .f32 := (Memref.whole cc0_stg3_0 : Memref sig .tc .vmem S1x2049x513 .f32).view
abbrev VO0_4 : View sig .tc .vmem S1x2049x513 .f32 := (Memref.whole cc0_stg4_0 : Memref sig .tc .vmem S1x2049x513 .f32).view
/-- Each window's current staging memref at point `t`, spelled as the pipeline passes it, and its wholeness. -/
abbrev ms0_0 (t : Fin cfg0.N) : Memref sig .tc .vmem S1x513x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2049x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2049x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2049x513 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2049x513 .f32 := win0_4.stage (cfg0.slots t 4)
abbrev hs0_4 (t : Fin cfg0.N) : (ms0_4 t).IsWhole := hstage0_4 ((cfg0.slots t 4).cast nbuf0_4)
/-- The two accumulators: whole scoped buffers of the kernel's own, carried from point to point. -/
abbrev scM0_0 : Memref sig .tc .vmem S2049x513 .f32 := Memref.whole cc0_scratch0
abbrev scM0_1 : Memref sig .tc .vmem S2049x513 .f32 := Memref.whole cc0_scratch1
abbrev VS0_0 : View sig .tc .vmem S2049x513 .f32 := scM0_0.view
abbrev VS0_1 : View sig .tc .vmem S2049x513 .f32 := scM0_1.view

/-- What the launch hands the region: the two accumulators at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.Kernel.RunA.lean ====
/-
  The kernel body run once, at the first tile (the accumulators are zeroed, then one tile is added; the output blocks are not touched): on whole staging memrefs, the three input blocks at their contents,
  it runs to its end without a fault, leaves the inputs as they were, and leaves each buffer it stored into with its stores
  written, as a list of pieces (last store first) that the symbolic run of the body finds.
-/
import proofs.«152170_j48576080118713_1_alg».proof.Proof.Kernel.Kit

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- The pieces the body's stores leave, with the proof that the body runs to the continuation holding them. -/
noncomputable def kernelRun0_A (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : cond0_0 i) (hc1 : ¬cond0_1 i)
    (x0 : Vec F S1x513x256 .bf16) (x1 : Vec F S2049x256 .bf16) (x2 : Vec F S2049x256 .bf16) :
    Σ' (LS0 : List (View.Piece (Elt F) S2049x513 .f32)), { LS1 : List (View.Piece (Elt F) S2049x513 .f32) //
      ∀ (xi3 xi4 : Vec F S1x2049x513 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__dft_kernel i arg2 harg2 arg3 harg3 arg4 harg4 arg5 harg5 arg6 harg6 arg7 harg7 arg8 harg8) K } := by
  refine ⟨?_, ?_, fun xi3 xi4 E K => ?run⟩
  case run =>
    simp only [cc0__dft_kernel_eq_skeleton]; unfold cc0__dft_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Fr

end
-- ==== Proof.Kernel.RunB.lean ====
/-
  The kernel body run once, at a middle tile (one tile is added to the accumulators; the output blocks are not touched): on whole staging memrefs, the three input blocks at their contents,
  it runs to its end without a fault, leaves the inputs as they were, and leaves each buffer it stored into with its stores
  written, as a list of pieces (last store first) that the symbolic run of the body finds.
-/
import proofs.«152170_j48576080118713_1_alg».proof.Proof.Kernel.RunA

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- The pieces the body's stores leave, with the proof that the body runs to the continuation holding them. -/
noncomputable def kernelRun0_B (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : ¬cond0_0 i) (hc1 : ¬cond0_1 i)
    (x0 : Vec F S1x513x256 .bf16) (x1 : Vec F S2049x256 .bf16) (x2 : Vec F S2049x256 .bf16) (xs0 : Vec F S2049x513 .f32) (xs1 : Vec F S2049x513 .f32) :
    Σ' (LS0 : List (View.Piece (Elt F) S2049x513 .f32)), { LS1 : List (View.Piece (Elt F) S2049x513 .f32) //
      ∀ (xi3 xi4 : Vec F S1x2049x513 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__dft_kernel i arg2 harg2 arg3 harg3 arg4 harg4 arg5 harg5 arg6 harg6 arg7 harg7 arg8 harg8) K } := by
  refine ⟨?_, ?_, fun xi3 xi4 E K => ?run⟩
  case run =>
    simp only [cc0__dft_kernel_eq_skeleton]; unfold cc0__dft_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Fr

end
-- ==== Proof.Kernel.RunC.lean ====
/-
  The kernel body run once, at the last tile (one tile is added, then the accumulators are copied into the two output blocks): on whole staging memrefs, the three input blocks at their contents,
  it runs to its end without a fault, leaves the inputs as they were, and leaves each buffer it stored into with its stores
  written, as a list of pieces (last store first) that the symbolic run of the body finds.
-/
import proofs.«152170_j48576080118713_1_alg».proof.Proof.Kernel.RunB

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- The pieces the body's stores leave, with the proof that the body runs to the continuation holding them. -/
noncomputable def kernelRun0_C (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : ¬cond0_0 i) (hc1 : cond0_1 i)
    (x0 : Vec F S1x513x256 .bf16) (x1 : Vec F S2049x256 .bf16) (x2 : Vec F S2049x256 .bf16) (xs0 : Vec F S2049x513 .f32) (xs1 : Vec F S2049x513 .f32) :
    Σ' (L3 : List (View.Piece (Elt F) S1x2049x513 .f32)) (L4 : List (View.Piece (Elt F) S1x2049x513 .f32)) (LS0 : List (View.Piece (Elt F) S2049x513 .f32)), { LS1 : List (View.Piece (Elt F) S2049x513 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__dft_kernel i arg2 harg2 arg3 harg3 arg4 harg4 arg5 harg5 arg6 harg6 arg7 harg7 arg8 harg8) K } := by
  refine ⟨?_, ?_, ?_, ?_, fun E K => ?run⟩
  case run =>
    simp only [cc0__dft_kernel_eq_skeleton]; unfold cc0__dft_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Fr

end
-- ==== Proof.Kernel.Frame.lean ====
/-
  The frame of the kernel: it runs to its end at every grid point, faults nowhere, and leaves its four arguments as they
  were. Point by point: what the two accumulators and the two output blocks hold after the body at point n is defined by
  recursion on n (the first tile of a batch-channel pair starts the accumulators afresh, every later tile adds to what
  the point before left, and the last tile also copies them out); the region's invariant carries the two accumulators at
  exactly those contents from one point to the next; and the body, run in the case the point is in, re-establishes it.
-/
import proofs.«152170_j48576080118713_1_alg».proof.Proof.Kernel.RunC

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: its stores cover the buffers they go to -/

theorem scover0_A_0 (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : cond0_0 i) (hc1 : ¬cond0_1 i) (x0 : Vec F S1x513x256 .bf16) (x1 : Vec F S2049x256 .bf16) (x2 : Vec F S2049x256 .bf16) (y : S2049x513.Idx) :
    ∃ pc ∈ (kernelRun0_A (F := F) c i arg2 harg2 arg3 harg3 arg4 harg4 arg5 harg5 arg6 harg6 arg7 harg7 arg8 harg8 hc0 hc1 x0 x1 x2).1, y ∈ pc.1.set :=
  View.cover_of_tiledL (kernelRun0_A (F := F) c i arg2 harg2 arg3 harg3 arg4 harg4 arg5 harg5 arg6 harg6 arg7 harg7 arg8 harg8 hc0 hc1 x0 x1 x2).1 S2049x513.size (by sl_kernel_rfl) y
theorem scover0_A_1 (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : cond0_0 i) (hc1 : ¬cond0_1 i) (x0 : Vec F S1x513x256 .bf16) (x1 : Vec F S2049x256 .bf16) (x2 : Vec F S2049x256 .bf16) (y : S2049x513.Idx) :
    ∃ pc ∈ (kernelRun0_A (F := F) c i arg2 harg2 arg3 harg3 arg4 harg4 arg5 harg5 arg6 harg6 arg7 harg7 arg8 harg8 hc0 hc1 x0 x1 x2).2.1, y ∈ pc.1.set :=
  View.cover_of_tiledL (kernelRun0_A (F := F) c i arg2 harg2 arg3 harg3 arg4 harg4 arg5 harg5 arg6 harg6 arg7 harg7 arg8 harg8 hc0 hc1 x0 x1 x2).2.1 S2049x513.size (by sl_kernel_rfl) y

theorem scover0_B_0 (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : ¬cond0_0 i) (hc1 : ¬cond0_1 i) (x0 : Vec F S1x513x256 .bf16) (x1 : Vec F S2049x256 .bf16) (x2 : Vec F S2049x256 .bf16) (xs0 xs1 : Vec F S2049x513 .f32) (y : S2049x513.Idx) :
    ∃ pc ∈ (kernelRun0_B (F := F) c i arg2 harg2 arg3 harg3 arg4 harg4 arg5 harg5 arg6 harg6 arg7 harg7 arg8 harg8 hc0 hc1 x0 x1 x2 xs0 xs1).1, y ∈ pc.1.set :=
  View.cover_of_tiledL (kernelRun0_B (F := F) c i arg2 harg2 arg3 harg3 arg4 harg4 arg5 harg5 arg6 harg6 arg7 harg7 arg8 harg8 hc0 hc1 x0 x1 x2 xs0 xs1).1 S2049x513.size (by sl_kernel_rfl) y
theorem scover0_B_1 (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : ¬cond0_0 i) (hc1 : ¬cond0_1 i) (x0 : Vec F S1x513x256 .bf16) (x1 : Vec F S2049x256 .bf16) (x2 : Vec F S2049x256 .bf16) (xs0 xs1 : Vec F S2049x513 .f32) (y : S2049x513.Idx) :
    ∃ pc ∈ (kernelRun0_B (F := F) c i arg2 harg2 arg3 harg3 arg4 harg4 arg5 harg5 arg6 harg6 arg7 harg7 arg8 harg8 hc0 hc1 x0 x1 x2 xs0 xs1).2.1, y ∈ pc.1.set :=
  View.cover_of_tiledL (kernelRun0_B (F := F) c i arg2 harg2 arg3 harg3 arg4 harg4 arg5 harg5 arg6 harg6 arg7 harg7 arg8 harg8 hc0 hc1 x0 x1 x2 xs0 xs1).2.1 S2049x513.size (by sl_kernel_rfl) y

theorem scover0_C_0 (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : ¬cond0_0 i) (hc1 : cond0_1 i) (x0 : Vec F S1x513x256 .bf16) (x1 : Vec F S2049x256 .bf16) (x2 : Vec F S2049x256 .bf16) (xs0 xs1 : Vec F S2049x513 .f32) (y : S2049x513.Idx) :
    ∃ pc ∈ (kernelRun0_C (F := F) c i arg2 harg2 arg3 harg3 arg4 harg4 arg5 harg5 arg6 harg6 arg7 harg7 arg8 harg8 hc0 hc1 x0 x1 x2 xs0 xs1).2.2.1, y ∈ pc.1.set :=
  View.cover_of_tiledL (kernelRun0_C (F := F) c i arg2 harg2 arg3 harg3 arg4 harg4 arg5 harg5 arg6 harg6 arg7 harg7 arg8 harg8 hc0 hc1 x0 x1 x2 xs0 xs1).2.2.1 S2049x513.size (by sl_kernel_rfl) y
theorem scover0_C_1 (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : ¬cond0_0 i) (hc1 : cond0_1 i) (x0 : Vec F S1x513x256 .bf16) (x1 : Vec F S2049x256 .bf16) (x2 : Vec F S2049x256 .bf16) (xs0 xs1 : Vec F S2049x513 .f32) (y : S2049x513.Idx) :
    ∃ pc ∈ (kernelRun0_C (F := F) c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C (F := F) c i arg2 harg2 arg3 harg3 arg4 harg4 arg5 harg5 arg6 harg6 arg7 harg7 arg8 harg8 hc0 hc1 x0 x1 x2 xs0 xs1).2.2.2.1 S2049x513.size (by sl_kernel_rfl) y
theorem cover0_C_3 (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : ¬cond0_0 i) (hc1 : cond0_1 i) (x0 : Vec F S1x513x256 .bf16) (x1 : Vec F S2049x256 .bf16) (x2 : Vec F S2049x256 .bf16) (xs0 xs1 : Vec F S2049x513 .f32) (y : S1x2049x513.Idx) :
    ∃ pc ∈ (kernelRun0_C (F := F) c i arg2 harg2 arg3 harg3 arg4 harg4 arg5 harg5 arg6 harg6 arg7 harg7 arg8 harg8 hc0 hc1 x0 x1 x2 xs0 xs1).1, y ∈ pc.1.set :=
  View.cover_of_tiledL (kernelRun0_C (F := F) c i arg2 harg2 arg3 harg3 arg4 harg4 arg5 harg5 arg6 harg6 arg7 harg7 arg8 harg8 hc0 hc1 x0 x1 x2 xs0 xs1).1 S1x2049x513.size (by sl_kernel_rfl) y
theorem cover0_C_4 (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : ¬cond0_0 i) (hc1 : cond0_1 i) (x0 : Vec F S1x513x256 .bf16) (x1 : Vec F S2049x256 .bf16) (x2 : Vec F S2049x256 .bf16) (xs0 xs1 : Vec F S2049x513 .f32) (y : S1x2049x513.Idx) :
    ∃ pc ∈ (kernelRun0_C (F := F) c i arg2 harg2 arg3 harg3 arg4 harg4 arg5 harg5 arg6 harg6 arg7 harg7 arg8 harg8 hc0 hc1 x0 x1 x2 xs0 xs1).2.1, y ∈ pc.1.set :=
  View.cover_of_tiledL (kernelRun0_C (F := F) c i arg2 harg2 arg3 harg3 arg4 harg4 arg5 harg5 arg6 harg6 arg7 harg7 arg8 harg8 hc0 hc1 x0 x1 x2 xs0 xs1).2.1 S1x2049x513.size (by sl_kernel_rfl) y

/-- After a first-tile point: the accumulators hold what the zeroing and the one addition wrote; the output blocks are untouched (a placeholder nothing consults: they are neither written back nor read next). -/
def stateA (c : Dev nD) (t : Fin cfg0.N) (h0 : t.val % 16 = 0) (h1 : ¬t.val % 16 = 15) : Vec F S1x2049x513 .f32 × Vec F S1x2049x513 .f32 × Vec F S2049x513 .f32 × Vec F S2049x513 .f32 :=
  (VO0_3.read (Elt F) VO0_3.junk, VO0_4.read (Elt F) VO0_4.junk,
   VS0_0.read (Elt F) (VS0_0.writes (Elt F) VS0_0.junk (kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)).1),
   VS0_1.read (Elt F) (VS0_1.writes (Elt F) VS0_1.junk (kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)).2.1))

/-- After a middle-tile point: the accumulators hold the addition over what the point before left; the output blocks are untouched. -/
def stateB (c : Dev nD) (t : Fin cfg0.N) (h0 : ¬t.val % 16 = 0) (h1 : ¬t.val % 16 = 15) (xs0 xs1 : Vec F S2049x513 .f32) : Vec F S1x2049x513 .f32 × Vec F S1x2049x513 .f32 × Vec F S2049x513 .f32 × Vec F S2049x513 .f32 :=
  (VO0_3.read (Elt F) VO0_3.junk, VO0_4.read (Elt F) VO0_4.junk,
   VS0_0.read (Elt F) (VS0_0.writes (Elt F) VS0_0.junk (kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) xs0 xs1).1),
   VS0_1.read (Elt F) (VS0_1.writes (Elt F) VS0_1.junk (kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) xs0 xs1).2.1))

/-- After a last-tile point: the accumulators hold the last addition, and the output blocks hold the copies of them. -/
def stateC (c : Dev nD) (t : Fin cfg0.N) (h0 : ¬t.val % 16 = 0) (h1 : t.val % 16 = 15) (xs0 xs1 : Vec F S2049x513 .f32) : Vec F S1x2049x513 .f32 × Vec F S1x2049x513 .f32 × Vec F S2049x513 .f32 × Vec F S2049x513 .f32 :=
  (VO0_3.read (Elt F) (VO0_3.writes (Elt F) VO0_3.junk (kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) xs0 xs1).1), VO0_4.read (Elt F) (VO0_4.writes (Elt F) VO0_4.junk (kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) xs0 xs1).2.1),
   VS0_0.read (Elt F) (VS0_0.writes (Elt F) VS0_0.junk (kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) xs0 xs1).2.2.1),
   VS0_1.read (Elt F) (VS0_1.writes (Elt F) VS0_1.junk (kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) xs0 xs1).2.2.2.1))

/-! ## What the buffers hold after each point -/

/-- After the body at position `n`: the two output blocks, then the two accumulators. The case is the one the point's
    tile number selects; a later tile runs over the accumulators the point before left. -/
def outsAt0 (c : Dev nD) : (n : ℕ) → n < cfg0.N → Vec F S1x2049x513 .f32 × Vec F S1x2049x513 .f32 × Vec F S2049x513 .f32 × Vec F S2049x513 .f32
  | 0, hn => stateA m c ⟨0, hn⟩ (Nat.zero_mod _) (by show ¬ (0 : ℕ) % 16 = 15; decide)
  | n + 1, hn =>
    if h0 : (n + 1) % 16 = 0 then
      if h1 : (n + 1) % 16 = 15 then
        False.elim (by omega)
      else
        stateA m c ⟨n + 1, hn⟩ h0 h1
    else
      if h1 : (n + 1) % 16 = 15 then
        stateC m c ⟨n + 1, hn⟩ h0 h1 (outsAt0 c n (Nat.lt_of_succ_lt hn)).2.2.1 (outsAt0 c n (Nat.lt_of_succ_lt hn)).2.2.2
      else
        stateB m c ⟨n + 1, hn⟩ h0 h1 (outsAt0 c n (Nat.lt_of_succ_lt hn)).2.2.1 (outsAt0 c n (Nat.lt_of_succ_lt hn)).2.2.2

theorem outsAt0_A (c : Dev nD) (t : Fin cfg0.N) (h0 : t.val % 16 = 0) (h1 : ¬t.val % 16 = 15) :
    outsAt0 m c t.val t.isLt = stateA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = stateB m c t h0 h1 (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = stateC m c t h0 h1 (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over (the accumulators at
    anything); afterwards the two accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The arrays as the region finds them; after the body at point `t` each input's buffer at its block and the outputs'
    at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the tile number says which case the point is in; the
    invariant hands the body the accumulators (at anything at a pair's first tile, at what the point before left
    otherwise) and takes them back at this point's contents, which the case's stores cover. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · by_cases h1 : t.val % 16 = 15
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold stateA; (try dsimp only)
      by_cases hz : t.val = 0
      ·
        rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)).2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold stateC; (try dsimp only)
      by_cases hz : t.val = 0
      · exfalso; omega
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) _ _).2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        iintro ⟨H0, H1, H2, ⟨%e3, H3⟩, ⟨%e4, H4⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold stateB; (try dsimp only)
      by_cases hz : t.val = 0
      · exfalso; omega
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) _ _).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the launch handed over: the accumulators' named
    contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of the program terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame, at any instance of the floats: the program runs and its four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Fr

end
-- ==== Proof.KernelIdeal.Kit.lean ====
/-
  What the three cases of the kernel body share. The grid is 16 × 16: point t = 16·s + k is tile k of the 4096 samples
  for batch-channel pair s. The body zeroes its two accumulators when k = 0, adds one tile's partial products at every k,
  and copies the accumulators into the two output blocks when k = 15; the output blocks are written back only there.
  Here: the arrays as the region finds them (after the host lines that pad, frame and window the signal), the host lines
  around the region, the blocks of the three input windows, the two conditions in closed form, and where the two output
  windows are idle.
-/
import proofs.«152170_j48576080118713_1_alg».proof.Proof.Gen.KernelIdeal.Launch
import proofs.«152170_j48576080118713_1_alg».proof.Proof.Gen.KernelIdeal.Skeleton
import proofs.«152170_j48576080118713_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: after the host lines before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the two reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each reshape writes only its own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.reshape_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and no window stages it: after the whole program it is as launched. -/
theorem tail_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  refine (StableHlo.after_of_forall_not_mem (b := Proc.devRef .tc main_arg0) _ _ (List.forall_iff_forall_mem.mp (by
    simp only [hostOps1, List.flatten_cons, List.flatten_nil, List.append_nil, List.cons_append, List.nil_append, List.Forall,
      StableHlo.reshape_writes, Finset.mem_singleton]
    repeat' apply And.intro
    all_goals exact StableHlo.devRef_ne_of_ne (by decide)))).trans ?_
  exact (Pipeline.withArrays_of_ne (cfgs 0).spec c (V0 m c) _ main_arg0 (by decide)).trans (V_main_arg0 m c)

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and no window stages it: after the whole program it is as launched. -/
theorem tail_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  refine (StableHlo.after_of_forall_not_mem (b := Proc.devRef .tc main_arg1) _ _ (List.forall_iff_forall_mem.mp (by
    simp only [hostOps1, List.flatten_cons, List.flatten_nil, List.append_nil, List.cons_append, List.nil_append, List.Forall,
      StableHlo.reshape_writes, Finset.mem_singleton]
    repeat' apply And.intro
    all_goals exact StableHlo.devRef_ne_of_ne (by decide)))).trans ?_
  exact (Pipeline.withArrays_of_ne (cfgs 0).spec c (V0 m c) _ main_arg1 (by decide)).trans (V_main_arg1 m c)

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and no window stages it: after the whole program it is as launched. -/
theorem tail_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  refine (StableHlo.after_of_forall_not_mem (b := Proc.devRef .tc main_arg2) _ _ (List.forall_iff_forall_mem.mp (by
    simp only [hostOps1, List.flatten_cons, List.flatten_nil, List.append_nil, List.cons_append, List.nil_append, List.Forall,
      StableHlo.reshape_writes, Finset.mem_singleton]
    repeat' apply And.intro
    all_goals exact StableHlo.devRef_ne_of_ne (by decide)))).trans ?_
  exact (Pipeline.withArrays_of_ne (cfgs 0).spec c (V0 m c) _ main_arg2 (by decide)).trans (V_main_arg2 m c)

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and no window stages it: after the whole program it is as launched. -/
theorem tail_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  refine (StableHlo.after_of_forall_not_mem (b := Proc.devRef .tc main_arg3) _ _ (List.forall_iff_forall_mem.mp (by
    simp only [hostOps1, List.flatten_cons, List.flatten_nil, List.append_nil, List.cons_append, List.nil_append, List.Forall,
      StableHlo.reshape_writes, Finset.mem_singleton]
    repeat' apply And.intro
    all_goals exact StableHlo.devRef_ne_of_ne (by decide)))).trans ?_
  exact (Pipeline.withArrays_of_ne (cfgs 0).spec c (V0 m c) _ main_arg3 (by decide)).trans (V_main_arg3 m c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data, a run whose post has every buffer no window stages at what the lines after the region leave
    ends with the four argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (tail_main_arg0 m dats c),
      ((h c).2 main_arg1 (Pipeline.mem_restRefs_of main_arg1 (by decide) (by decide))).trans (tail_main_arg1 m dats c),
      ((h c).2 main_arg2 (Pipeline.mem_restRefs_of main_arg2 (by decide) (by decide))).trans (tail_main_arg2 m dats c),
      ((h c).2 main_arg3 (Pipeline.mem_restRefs_of main_arg3 (by decide) (by decide))).trans (tail_main_arg3 m dats c)⟩) h

/-! ## The body's two conditions -/

/-- "This is the first tile" (k = 0), as the body computes it from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last tile" (k = 15). -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last tile the body stores nothing into the output blocks, and they are not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last tile it stores both. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The memrefs the body is called with -/

/-- One staging buffer of each output window, through which its contents are stated (the choice does not matter). -/
abbrev VO0_3 : View sig .tc .vmem S1x2049x513 .f32 := (Memref.whole cc0_stg3_0 : Memref sig .tc .vmem S1x2049x513 .f32).view
abbrev VO0_4 : View sig .tc .vmem S1x2049x513 .f32 := (Memref.whole cc0_stg4_0 : Memref sig .tc .vmem S1x2049x513 .f32).view
/-- Each window's current staging memref at point `t`, spelled as the pipeline passes it, and its wholeness. -/
abbrev ms0_0 (t : Fin cfg0.N) : Memref sig .tc .vmem S1x513x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2049x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2049x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2049x513 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2049x513 .f32 := win0_4.stage (cfg0.slots t 4)
abbrev hs0_4 (t : Fin cfg0.N) : (ms0_4 t).IsWhole := hstage0_4 ((cfg0.slots t 4).cast nbuf0_4)
/-- The two accumulators: whole scoped buffers of the kernel's own, carried from point to point. -/
abbrev scM0_0 : Memref sig .tc .vmem S2049x513 .f32 := Memref.whole cc0_scratch0
abbrev scM0_1 : Memref sig .tc .vmem S2049x513 .f32 := Memref.whole cc0_scratch1
abbrev VS0_0 : View sig .tc .vmem S2049x513 .f32 := scM0_0.view
abbrev VS0_1 : View sig .tc .vmem S2049x513 .f32 := scM0_1.view

/-- What the launch hands the region: the two accumulators at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fr

end
-- ==== Proof.KernelIdeal.RunA.lean ====
/-
  The kernel body run once, at the first tile (the accumulators are zeroed, then one tile is added; the output blocks are not touched): on whole staging memrefs, the three input blocks at their contents,
  it runs to its end without a fault, leaves the inputs as they were, and leaves each buffer it stored into with its stores
  written, as a list of pieces (last store first) that the symbolic run of the body finds.
-/
import proofs.«152170_j48576080118713_1_alg».proof.Proof.KernelIdeal.Kit

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- The pieces the body's stores leave, with the proof that the body runs to the continuation holding them. -/
noncomputable def kernelRun0_A (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : cond0_0 i) (hc1 : ¬cond0_1 i)
    (x0 : Vec F S1x513x256 .bf16) (x1 : Vec F S2049x256 .bf16) (x2 : Vec F S2049x256 .bf16) :
    Σ' (LS0 : List (View.Piece (Elt F) S2049x513 .f32)), { LS1 : List (View.Piece (Elt F) S2049x513 .f32) //
      ∀ (xi3 xi4 : Vec F S1x2049x513 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__dft_kernel i arg2 harg2 arg3 harg3 arg4 harg4 arg5 harg5 arg6 harg6 arg7 harg7 arg8 harg8) K } := by
  refine ⟨?_, ?_, fun xi3 xi4 E K => ?run⟩
  case run =>
    simp only [cc0__dft_kernel_eq_skeleton]; unfold cc0__dft_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Fr

end
-- ==== Proof.KernelIdeal.RunB.lean ====
/-
  The kernel body run once, at a middle tile (one tile is added to the accumulators; the output blocks are not touched): on whole staging memrefs, the three input blocks at their contents,
  it runs to its end without a fault, leaves the inputs as they were, and leaves each buffer it stored into with its stores
  written, as a list of pieces (last store first) that the symbolic run of the body finds.
-/
import proofs.«152170_j48576080118713_1_alg».proof.Proof.KernelIdeal.RunA

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- The pieces the body's stores leave, with the proof that the body runs to the continuation holding them. -/
noncomputable def kernelRun0_B (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : ¬cond0_0 i) (hc1 : ¬cond0_1 i)
    (x0 : Vec F S1x513x256 .bf16) (x1 : Vec F S2049x256 .bf16) (x2 : Vec F S2049x256 .bf16) (xs0 : Vec F S2049x513 .f32) (xs1 : Vec F S2049x513 .f32) :
    Σ' (LS0 : List (View.Piece (Elt F) S2049x513 .f32)), { LS1 : List (View.Piece (Elt F) S2049x513 .f32) //
      ∀ (xi3 xi4 : Vec F S1x2049x513 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__dft_kernel i arg2 harg2 arg3 harg3 arg4 harg4 arg5 harg5 arg6 harg6 arg7 harg7 arg8 harg8) K } := by
  refine ⟨?_, ?_, fun xi3 xi4 E K => ?run⟩
  case run =>
    simp only [cc0__dft_kernel_eq_skeleton]; unfold cc0__dft_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Fr

end
-- ==== Proof.KernelIdeal.RunC.lean ====
/-
  The kernel body run once, at the last tile (one tile is added, then the accumulators are copied into the two output blocks): on whole staging memrefs, the three input blocks at their contents,
  it runs to its end without a fault, leaves the inputs as they were, and leaves each buffer it stored into with its stores
  written, as a list of pieces (last store first) that the symbolic run of the body finds.
-/
import proofs.«152170_j48576080118713_1_alg».proof.Proof.KernelIdeal.RunB

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- The pieces the body's stores leave, with the proof that the body runs to the continuation holding them. -/
noncomputable def kernelRun0_C (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : ¬cond0_0 i) (hc1 : cond0_1 i)
    (x0 : Vec F S1x513x256 .bf16) (x1 : Vec F S2049x256 .bf16) (x2 : Vec F S2049x256 .bf16) (xs0 : Vec F S2049x513 .f32) (xs1 : Vec F S2049x513 .f32) :
    Σ' (L3 : List (View.Piece (Elt F) S1x2049x513 .f32)) (L4 : List (View.Piece (Elt F) S1x2049x513 .f32)) (LS0 : List (View.Piece (Elt F) S2049x513 .f32)), { LS1 : List (View.Piece (Elt F) S2049x513 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__dft_kernel i arg2 harg2 arg3 harg3 arg4 harg4 arg5 harg5 arg6 harg6 arg7 harg7 arg8 harg8) K } := by
  refine ⟨?_, ?_, ?_, ?_, fun E K => ?run⟩
  case run =>
    simp only [cc0__dft_kernel_eq_skeleton]; unfold cc0__dft_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Fr

end
-- ==== Proof.KernelIdeal.Frame.lean ====
/-
  The frame of the kernel: it runs to its end at every grid point, faults nowhere, and leaves its four arguments as they
  were. Point by point: what the two accumulators and the two output blocks hold after the body at point n is defined by
  recursion on n (the first tile of a batch-channel pair starts the accumulators afresh, every later tile adds to what
  the point before left, and the last tile also copies them out); the region's invariant carries the two accumulators at
  exactly those contents from one point to the next; and the body, run in the case the point is in, re-establishes it.
-/
import proofs.«152170_j48576080118713_1_alg».proof.Proof.KernelIdeal.RunC

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: its stores cover the buffers they go to -/

theorem scover0_A_0 (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : cond0_0 i) (hc1 : ¬cond0_1 i) (x0 : Vec F S1x513x256 .bf16) (x1 : Vec F S2049x256 .bf16) (x2 : Vec F S2049x256 .bf16) (y : S2049x513.Idx) :
    ∃ pc ∈ (kernelRun0_A (F := F) c i arg2 harg2 arg3 harg3 arg4 harg4 arg5 harg5 arg6 harg6 arg7 harg7 arg8 harg8 hc0 hc1 x0 x1 x2).1, y ∈ pc.1.set :=
  View.cover_of_tiledL (kernelRun0_A (F := F) c i arg2 harg2 arg3 harg3 arg4 harg4 arg5 harg5 arg6 harg6 arg7 harg7 arg8 harg8 hc0 hc1 x0 x1 x2).1 S2049x513.size (by sl_kernel_rfl) y
theorem scover0_A_1 (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : cond0_0 i) (hc1 : ¬cond0_1 i) (x0 : Vec F S1x513x256 .bf16) (x1 : Vec F S2049x256 .bf16) (x2 : Vec F S2049x256 .bf16) (y : S2049x513.Idx) :
    ∃ pc ∈ (kernelRun0_A (F := F) c i arg2 harg2 arg3 harg3 arg4 harg4 arg5 harg5 arg6 harg6 arg7 harg7 arg8 harg8 hc0 hc1 x0 x1 x2).2.1, y ∈ pc.1.set :=
  View.cover_of_tiledL (kernelRun0_A (F := F) c i arg2 harg2 arg3 harg3 arg4 harg4 arg5 harg5 arg6 harg6 arg7 harg7 arg8 harg8 hc0 hc1 x0 x1 x2).2.1 S2049x513.size (by sl_kernel_rfl) y

theorem scover0_B_0 (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : ¬cond0_0 i) (hc1 : ¬cond0_1 i) (x0 : Vec F S1x513x256 .bf16) (x1 : Vec F S2049x256 .bf16) (x2 : Vec F S2049x256 .bf16) (xs0 xs1 : Vec F S2049x513 .f32) (y : S2049x513.Idx) :
    ∃ pc ∈ (kernelRun0_B (F := F) c i arg2 harg2 arg3 harg3 arg4 harg4 arg5 harg5 arg6 harg6 arg7 harg7 arg8 harg8 hc0 hc1 x0 x1 x2 xs0 xs1).1, y ∈ pc.1.set :=
  View.cover_of_tiledL (kernelRun0_B (F := F) c i arg2 harg2 arg3 harg3 arg4 harg4 arg5 harg5 arg6 harg6 arg7 harg7 arg8 harg8 hc0 hc1 x0 x1 x2 xs0 xs1).1 S2049x513.size (by sl_kernel_rfl) y
theorem scover0_B_1 (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : ¬cond0_0 i) (hc1 : ¬cond0_1 i) (x0 : Vec F S1x513x256 .bf16) (x1 : Vec F S2049x256 .bf16) (x2 : Vec F S2049x256 .bf16) (xs0 xs1 : Vec F S2049x513 .f32) (y : S2049x513.Idx) :
    ∃ pc ∈ (kernelRun0_B (F := F) c i arg2 harg2 arg3 harg3 arg4 harg4 arg5 harg5 arg6 harg6 arg7 harg7 arg8 harg8 hc0 hc1 x0 x1 x2 xs0 xs1).2.1, y ∈ pc.1.set :=
  View.cover_of_tiledL (kernelRun0_B (F := F) c i arg2 harg2 arg3 harg3 arg4 harg4 arg5 harg5 arg6 harg6 arg7 harg7 arg8 harg8 hc0 hc1 x0 x1 x2 xs0 xs1).2.1 S2049x513.size (by sl_kernel_rfl) y

theorem scover0_C_0 (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : ¬cond0_0 i) (hc1 : cond0_1 i) (x0 : Vec F S1x513x256 .bf16) (x1 : Vec F S2049x256 .bf16) (x2 : Vec F S2049x256 .bf16) (xs0 xs1 : Vec F S2049x513 .f32) (y : S2049x513.Idx) :
    ∃ pc ∈ (kernelRun0_C (F := F) c i arg2 harg2 arg3 harg3 arg4 harg4 arg5 harg5 arg6 harg6 arg7 harg7 arg8 harg8 hc0 hc1 x0 x1 x2 xs0 xs1).2.2.1, y ∈ pc.1.set :=
  View.cover_of_tiledL (kernelRun0_C (F := F) c i arg2 harg2 arg3 harg3 arg4 harg4 arg5 harg5 arg6 harg6 arg7 harg7 arg8 harg8 hc0 hc1 x0 x1 x2 xs0 xs1).2.2.1 S2049x513.size (by sl_kernel_rfl) y
theorem scover0_C_1 (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : ¬cond0_0 i) (hc1 : cond0_1 i) (x0 : Vec F S1x513x256 .bf16) (x1 : Vec F S2049x256 .bf16) (x2 : Vec F S2049x256 .bf16) (xs0 xs1 : Vec F S2049x513 .f32) (y : S2049x513.Idx) :
    ∃ pc ∈ (kernelRun0_C (F := F) c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C (F := F) c i arg2 harg2 arg3 harg3 arg4 harg4 arg5 harg5 arg6 harg6 arg7 harg7 arg8 harg8 hc0 hc1 x0 x1 x2 xs0 xs1).2.2.2.1 S2049x513.size (by sl_kernel_rfl) y
theorem cover0_C_3 (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : ¬cond0_0 i) (hc1 : cond0_1 i) (x0 : Vec F S1x513x256 .bf16) (x1 : Vec F S2049x256 .bf16) (x2 : Vec F S2049x256 .bf16) (xs0 xs1 : Vec F S2049x513 .f32) (y : S1x2049x513.Idx) :
    ∃ pc ∈ (kernelRun0_C (F := F) c i arg2 harg2 arg3 harg3 arg4 harg4 arg5 harg5 arg6 harg6 arg7 harg7 arg8 harg8 hc0 hc1 x0 x1 x2 xs0 xs1).1, y ∈ pc.1.set :=
  View.cover_of_tiledL (kernelRun0_C (F := F) c i arg2 harg2 arg3 harg3 arg4 harg4 arg5 harg5 arg6 harg6 arg7 harg7 arg8 harg8 hc0 hc1 x0 x1 x2 xs0 xs1).1 S1x2049x513.size (by sl_kernel_rfl) y
theorem cover0_C_4 (c : Dev nD) (i : grid0.Coords) (arg2 : Memref sig .tc .vmem S1x513x256 .bf16) (harg2 : arg2.IsWhole) (arg3 : Memref sig .tc .vmem S2049x256 .bf16) (harg3 : arg3.IsWhole) (arg4 : Memref sig .tc .vmem S2049x256 .bf16) (harg4 : arg4.IsWhole) (arg5 : Memref sig .tc .vmem S1x2049x513 .f32) (harg5 : arg5.IsWhole) (arg6 : Memref sig .tc .vmem S1x2049x513 .f32) (harg6 : arg6.IsWhole) (arg7 : Memref sig .tc .vmem S2049x513 .f32) (harg7 : arg7.IsWhole) (arg8 : Memref sig .tc .vmem S2049x513 .f32) (harg8 : arg8.IsWhole) (hc0 : ¬cond0_0 i) (hc1 : cond0_1 i) (x0 : Vec F S1x513x256 .bf16) (x1 : Vec F S2049x256 .bf16) (x2 : Vec F S2049x256 .bf16) (xs0 xs1 : Vec F S2049x513 .f32) (y : S1x2049x513.Idx) :
    ∃ pc ∈ (kernelRun0_C (F := F) c i arg2 harg2 arg3 harg3 arg4 harg4 arg5 harg5 arg6 harg6 arg7 harg7 arg8 harg8 hc0 hc1 x0 x1 x2 xs0 xs1).2.1, y ∈ pc.1.set :=
  View.cover_of_tiledL (kernelRun0_C (F := F) c i arg2 harg2 arg3 harg3 arg4 harg4 arg5 harg5 arg6 harg6 arg7 harg7 arg8 harg8 hc0 hc1 x0 x1 x2 xs0 xs1).2.1 S1x2049x513.size (by sl_kernel_rfl) y

/-- After a first-tile point: the accumulators hold what the zeroing and the one addition wrote; the output blocks are untouched (a placeholder nothing consults: they are neither written back nor read next). -/
def stateA (c : Dev nD) (t : Fin cfg0.N) (h0 : t.val % 16 = 0) (h1 : ¬t.val % 16 = 15) : Vec F S1x2049x513 .f32 × Vec F S1x2049x513 .f32 × Vec F S2049x513 .f32 × Vec F S2049x513 .f32 :=
  (VO0_3.read (Elt F) VO0_3.junk, VO0_4.read (Elt F) VO0_4.junk,
   VS0_0.read (Elt F) (VS0_0.writes (Elt F) VS0_0.junk (kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)).1),
   VS0_1.read (Elt F) (VS0_1.writes (Elt F) VS0_1.junk (kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)).2.1))

/-- After a middle-tile point: the accumulators hold the addition over what the point before left; the output blocks are untouched. -/
def stateB (c : Dev nD) (t : Fin cfg0.N) (h0 : ¬t.val % 16 = 0) (h1 : ¬t.val % 16 = 15) (xs0 xs1 : Vec F S2049x513 .f32) : Vec F S1x2049x513 .f32 × Vec F S1x2049x513 .f32 × Vec F S2049x513 .f32 × Vec F S2049x513 .f32 :=
  (VO0_3.read (Elt F) VO0_3.junk, VO0_4.read (Elt F) VO0_4.junk,
   VS0_0.read (Elt F) (VS0_0.writes (Elt F) VS0_0.junk (kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) xs0 xs1).1),
   VS0_1.read (Elt F) (VS0_1.writes (Elt F) VS0_1.junk (kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) xs0 xs1).2.1))

/-- After a last-tile point: the accumulators hold the last addition, and the output blocks hold the copies of them. -/
def stateC (c : Dev nD) (t : Fin cfg0.N) (h0 : ¬t.val % 16 = 0) (h1 : t.val % 16 = 15) (xs0 xs1 : Vec F S2049x513 .f32) : Vec F S1x2049x513 .f32 × Vec F S1x2049x513 .f32 × Vec F S2049x513 .f32 × Vec F S2049x513 .f32 :=
  (VO0_3.read (Elt F) (VO0_3.writes (Elt F) VO0_3.junk (kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) xs0 xs1).1), VO0_4.read (Elt F) (VO0_4.writes (Elt F) VO0_4.junk (kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) xs0 xs1).2.1),
   VS0_0.read (Elt F) (VS0_0.writes (Elt F) VS0_0.junk (kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) xs0 xs1).2.2.1),
   VS0_1.read (Elt F) (VS0_1.writes (Elt F) VS0_1.junk (kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) xs0 xs1).2.2.2.1))

/-! ## What the buffers hold after each point -/

/-- After the body at position `n`: the two output blocks, then the two accumulators. The case is the one the point's
    tile number selects; a later tile runs over the accumulators the point before left. -/
def outsAt0 (c : Dev nD) : (n : ℕ) → n < cfg0.N → Vec F S1x2049x513 .f32 × Vec F S1x2049x513 .f32 × Vec F S2049x513 .f32 × Vec F S2049x513 .f32
  | 0, hn => stateA m c ⟨0, hn⟩ (Nat.zero_mod _) (by show ¬ (0 : ℕ) % 16 = 15; decide)
  | n + 1, hn =>
    if h0 : (n + 1) % 16 = 0 then
      if h1 : (n + 1) % 16 = 15 then
        False.elim (by omega)
      else
        stateA m c ⟨n + 1, hn⟩ h0 h1
    else
      if h1 : (n + 1) % 16 = 15 then
        stateC m c ⟨n + 1, hn⟩ h0 h1 (outsAt0 c n (Nat.lt_of_succ_lt hn)).2.2.1 (outsAt0 c n (Nat.lt_of_succ_lt hn)).2.2.2
      else
        stateB m c ⟨n + 1, hn⟩ h0 h1 (outsAt0 c n (Nat.lt_of_succ_lt hn)).2.2.1 (outsAt0 c n (Nat.lt_of_succ_lt hn)).2.2.2

theorem outsAt0_A (c : Dev nD) (t : Fin cfg0.N) (h0 : t.val % 16 = 0) (h1 : ¬t.val % 16 = 15) :
    outsAt0 m c t.val t.isLt = stateA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = stateB m c t h0 h1 (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = stateC m c t h0 h1 (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over (the accumulators at
    anything); afterwards the two accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The arrays as the region finds them; after the body at point `t` each input's buffer at its block and the outputs'
    at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the tile number says which case the point is in; the
    invariant hands the body the accumulators (at anything at a pair's first tile, at what the point before left
    otherwise) and takes them back at this point's contents, which the case's stores cover. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · by_cases h1 : t.val % 16 = 15
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold stateA; (try dsimp only)
      by_cases hz : t.val = 0
      ·
        rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)).2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold stateC; (try dsimp only)
      by_cases hz : t.val = 0
      · exfalso; omega
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) _ _).2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        iintro ⟨H0, H1, H2, ⟨%e3, H3⟩, ⟨%e4, H4⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold stateB; (try dsimp only)
      by_cases hz : t.val = 0
      · exfalso; omega
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) _ _).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the launch handed over: the accumulators' named
    contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of the program terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame, at any instance of the floats: the program runs and its four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Fr

end
-- ==== Proof.KernelIdeal.Pieces.lean ====
/-
  The buffers after one point, as values. What the symbolic run of the body found in each buffer is a list of
  whole-buffer stores; read back, the last store's payload is what the buffer holds. At a pair's first tile an
  accumulator holds "zero plus this tile's products"; at every later tile "what it held plus this tile's products"; and
  at the last tile each output block holds its accumulator, re-laid with a leading unit axis.
-/
import proofs.«152170_j48576080118713_1_alg».proof.Proof.KernelIdeal.Frame
import Idealize.ShloMosaic.Lib.Pipeline.Value

-- membership in a rectangle of these extents recurses once per coordinate of the long axes
set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## A pair's first tile -/

theorem first_acc0 (c : Dev nD) (t : Fin cfg0.N) (h0 : t.val % 16 = 0) (h1 : ¬t.val % 16 = 15) :
    (stateA (F := F) m c t h0 h1).2.2.1 = k0_pay4 (iblk m c 0 t) (iblk m c 1 t) (k0_pay1 (F := F)) := by
  unfold stateA; dsimp only
  rw [View.read_writes_eq_canon _ _ _ (scover0_A_0 c _ _ _ _ _ _ _ _ _ _ _ _ _ _ _ _ _ _ _ _)]
  unfold kernelRun0_A; dsimp only; sl_unfold_words
  simp only [View.canon_cons_unit_zero (S := S2049x513) hz2, View.canon_unit_zero (S := S2049x513) hz2, View.canon_unit_zero (S := S1x2049x513) hz3,
    View.readCov_unit_zero (S := S2049x513) _ hz2, View.readAt_eq_ld, (hs0_0 t).read_unread, (hs0_1 t).read_unread, (hs0_2 t).read_unread,
    (Memref.isWhole_whole cc0_scratch0).read_unread, (Memref.isWhole_whole cc0_scratch1).read_unread,
    View.ld_unit_zero (S := S1x513x256) hz3, View.ld_unit_zero (S := S2049x256) hz2, View.ld_unit_zero (S := S2049x513) hz2]

theorem first_acc1 (c : Dev nD) (t : Fin cfg0.N) (h0 : t.val % 16 = 0) (h1 : ¬t.val % 16 = 15) :
    (stateA (F := F) m c t h0 h1).2.2.2 = k0_pay5 (iblk m c 0 t) (iblk m c 2 t) (k0_pay2 (F := F)) := by
  unfold stateA; dsimp only
  rw [View.read_writes_eq_canon _ _ _ (scover0_A_1 c _ _ _ _ _ _ _ _ _ _ _ _ _ _ _ _ _ _ _ _)]
  unfold kernelRun0_A; dsimp only; sl_unfold_words
  simp only [View.canon_cons_unit_zero (S := S2049x513) hz2, View.canon_unit_zero (S := S2049x513) hz2, View.canon_unit_zero (S := S1x2049x513) hz3,
    View.readCov_unit_zero (S := S2049x513) _ hz2, View.readAt_eq_ld, (hs0_0 t).read_unread, (hs0_1 t).read_unread, (hs0_2 t).read_unread,
    (Memref.isWhole_whole cc0_scratch0).read_unread, (Memref.isWhole_whole cc0_scratch1).read_unread,
    View.ld_unit_zero (S := S1x513x256) hz3, View.ld_unit_zero (S := S2049x256) hz2, View.ld_unit_zero (S := S2049x513) hz2]

/-! ## A middle tile -/

theorem mid_acc0 (c : Dev nD) (t : Fin cfg0.N) (h0 : ¬t.val % 16 = 0) (h1 : ¬t.val % 16 = 15) (xs0 xs1 : Vec F S2049x513 .f32) :
    (stateB (F := F) m c t h0 h1 xs0 xs1).2.2.1 = k0_pay4 (iblk m c 0 t) (iblk m c 1 t) xs0 := by
  unfold stateB; dsimp only
  rw [View.read_writes_eq_canon _ _ _ (scover0_B_0 c _ _ _ _ _ _ _ _ _ _ _ _ _ _ _ _ _ _ _ _ _ _)]
  unfold kernelRun0_B; dsimp only; sl_unfold_words
  simp only [View.canon_cons_unit_zero (S := S2049x513) hz2, View.canon_unit_zero (S := S2049x513) hz2, View.canon_unit_zero (S := S1x2049x513) hz3,
    View.readCov_unit_zero (S := S2049x513) _ hz2, View.readAt_eq_ld, (hs0_0 t).read_unread, (hs0_1 t).read_unread, (hs0_2 t).read_unread,
    (Memref.isWhole_whole cc0_scratch0).read_unread, (Memref.isWhole_whole cc0_scratch1).read_unread,
    View.ld_unit_zero (S := S1x513x256) hz3, View.ld_unit_zero (S := S2049x256) hz2, View.ld_unit_zero (S := S2049x513) hz2]

theorem mid_acc1 (c : Dev nD) (t : Fin cfg0.N) (h0 : ¬t.val % 16 = 0) (h1 : ¬t.val % 16 = 15) (xs0 xs1 : Vec F S2049x513 .f32) :
    (stateB (F := F) m c t h0 h1 xs0 xs1).2.2.2 = k0_pay5 (iblk m c 0 t) (iblk m c 2 t) xs1 := by
  unfold stateB; dsimp only
  rw [View.read_writes_eq_canon _ _ _ (scover0_B_1 c _ _ _ _ _ _ _ _ _ _ _ _ _ _ _ _ _ _ _ _ _ _)]
  unfold kernelRun0_B; dsimp only; sl_unfold_words
  simp only [View.canon_cons_unit_zero (S := S2049x513) hz2, View.canon_unit_zero (S := S2049x513) hz2, View.canon_unit_zero (S := S1x2049x513) hz3,
    View.readCov_unit_zero (S := S2049x513) _ hz2, View.readAt_eq_ld, (hs0_0 t).read_unread, (hs0_1 t).read_unread, (hs0_2 t).read_unread,
    (Memref.isWhole_whole cc0_scratch0).read_unread, (Memref.isWhole_whole cc0_scratch1).read_unread,
    View.ld_unit_zero (S := S1x513x256) hz3, View.ld_unit_zero (S := S2049x256) hz2, View.ld_unit_zero (S := S2049x513) hz2]

/-! ## The last tile -/

theorem last_acc0 (c : Dev nD) (t : Fin cfg0.N) (h0 : ¬t.val % 16 = 0) (h1 : t.val % 16 = 15) (xs0 xs1 : Vec F S2049x513 .f32) :
    (stateC (F := F) m c t h0 h1 xs0 xs1).2.2.1 = k0_pay4 (iblk m c 0 t) (iblk m c 1 t) xs0 := by
  unfold stateC; dsimp only
  rw [View.read_writes_eq_canon _ _ _ (scover0_C_0 c _ _ _ _ _ _ _ _ _ _ _ _ _ _ _ _ _ _ _ _ _ _)]
  unfold kernelRun0_C; dsimp only; sl_unfold_words
  simp only [View.canon_cons_unit_zero (S := S2049x513) hz2, View.canon_unit_zero (S := S2049x513) hz2, View.canon_unit_zero (S := S1x2049x513) hz3,
    View.readCov_unit_zero (S := S2049x513) _ hz2, View.readAt_eq_ld, (hs0_0 t).read_unread, (hs0_1 t).read_unread, (hs0_2 t).read_unread,
    (Memref.isWhole_whole cc0_scratch0).read_unread, (Memref.isWhole_whole cc0_scratch1).read_unread,
    View.ld_unit_zero (S := S1x513x256) hz3, View.ld_unit_zero (S := S2049x256) hz2, View.ld_unit_zero (S := S2049x513) hz2]

theorem last_acc1 (c : Dev nD) (t : Fin cfg0.N) (h0 : ¬t.val % 16 = 0) (h1 : t.val % 16 = 15) (xs0 xs1 : Vec F S2049x513 .f32) :
    (stateC (F := F) m c t h0 h1 xs0 xs1).2.2.2 = k0_pay5 (iblk m c 0 t) (iblk m c 2 t) xs1 := by
  unfold stateC; dsimp only
  rw [View.read_writes_eq_canon _ _ _ (scover0_C_1 c _ _ _ _ _ _ _ _ _ _ _ _ _ _ _ _ _ _ _ _ _ _)]
  unfold kernelRun0_C; dsimp only; sl_unfold_words
  simp only [View.canon_cons_unit_zero (S := S2049x513) hz2, View.canon_unit_zero (S := S2049x513) hz2, View.canon_unit_zero (S := S1x2049x513) hz3,
    View.readCov_unit_zero (S := S2049x513) _ hz2, View.readAt_eq_ld, (hs0_0 t).read_unread, (hs0_1 t).read_unread, (hs0_2 t).read_unread,
    (Memref.isWhole_whole cc0_scratch0).read_unread, (Memref.isWhole_whole cc0_scratch1).read_unread,
    View.ld_unit_zero (S := S1x513x256) hz3, View.ld_unit_zero (S := S2049x256) hz2, View.ld_unit_zero (S := S2049x513) hz2]

theorem last_out3 (c : Dev nD) (t : Fin cfg0.N) (h0 : ¬t.val % 16 = 0) (h1 : t.val % 16 = 15) (xs0 xs1 : Vec F S2049x513 .f32) :
    (stateC (F := F) m c t h0 h1 xs0 xs1).1 = k0_pay6 (k0_pay4 (iblk m c 0 t) (iblk m c 1 t) xs0) := by
  unfold stateC; dsimp only
  rw [View.read_writes_eq_canon _ _ _ (cover0_C_3 c _ _ _ _ _ _ _ _ _ _ _ _ _ _ _ _ _ _ _ _ _ _)]
  unfold kernelRun0_C; dsimp only; sl_unfold_words
  simp only [View.canon_cons_unit_zero (S := S2049x513) hz2, View.canon_unit_zero (S := S2049x513) hz2, View.canon_unit_zero (S := S1x2049x513) hz3,
    View.readCov_unit_zero (S := S2049x513) _ hz2, View.readAt_eq_ld, (hs0_0 t).read_unread, (hs0_1 t).read_unread, (hs0_2 t).read_unread,
    (Memref.isWhole_whole cc0_scratch0).read_unread, (Memref.isWhole_whole cc0_scratch1).read_unread,
    View.ld_unit_zero (S := S1x513x256) hz3, View.ld_unit_zero (S := S2049x256) hz2, View.ld_unit_zero (S := S2049x513) hz2]

theorem last_out4 (c : Dev nD) (t : Fin cfg0.N) (h0 : ¬t.val % 16 = 0) (h1 : t.val % 16 = 15) (xs0 xs1 : Vec F S2049x513 .f32) :
    (stateC (F := F) m c t h0 h1 xs0 xs1).2.1 = k0_pay7 (k0_pay5 (iblk m c 0 t) (iblk m c 2 t) xs1) := by
  unfold stateC; dsimp only
  rw [View.read_writes_eq_canon _ _ _ (cover0_C_4 c _ _ _ _ _ _ _ _ _ _ _ _ _ _ _ _ _ _ _ _ _ _)]
  unfold kernelRun0_C; dsimp only; sl_unfold_words
  simp only [View.canon_cons_unit_zero (S := S2049x513) hz2, View.canon_unit_zero (S := S2049x513) hz2, View.canon_unit_zero (S := S1x2049x513) hz3,
    View.readCov_unit_zero (S := S2049x513) _ hz2, View.readAt_eq_ld, (hs0_0 t).read_unread, (hs0_1 t).read_unread, (hs0_2 t).read_unread,
    (Memref.isWhole_whole cc0_scratch0).read_unread, (Memref.isWhole_whole cc0_scratch1).read_unread,
    View.ld_unit_zero (S := S1x513x256) hz3, View.ld_unit_zero (S := S2049x256) hz2, View.ld_unit_zero (S := S2049x513) hz2]

end Cert.KernelIdeal.Val

end
-- ==== Proof.LibMatmulNT.lean ====
/-
  The product of an M×K matrix with the transpose of an N×K matrix on the extended reals, and the hardware matrix
  product with the dimension numbers "contract axis 1 of both operands" read at one entry: into a zero accumulator it
  is the plain sum over the K contracted positions of the products of the two rows' entries.
-/
import Idealize.ShloMosaic.Lib.ValueIdx
import Idealize.ShloMosaic.PureOps.Ideal.Laws

noncomputable section

open scoped BigOperators

namespace Cert.Lib.MatmulNT

open Idealize.ShloMosaic Idealize.ShloMosaic.ValueIdx

/-- `x · wᵀ`: entry (r, n) is the sum over k of `x (r, k) * w (n, k)`. -/
def mulNT {M N K : Nat} (x : (⟨2, ![M, K]⟩ : Shape).Idx → EReal) (w : (⟨2, ![N, K]⟩ : Shape).Idx → EReal) :
    (⟨2, ![M, N]⟩ : Shape).Idx → EReal :=
  fun i => ∑ c : Fin K, x (ix2 (i 0 : Fin M) c) * w (ix2 (i 1 : Fin N) c)

theorem mulNT_apply {M N K : Nat} (x : (⟨2, ![M, K]⟩ : Shape).Idx → EReal) (w : (⟨2, ![N, K]⟩ : Shape).Idx → EReal)
    (a : Fin M) (b : Fin N) : mulNT x w (ix2 a b) = ∑ c : Fin K, x (ix2 a c) * w (ix2 b c) := rfl

/-- A matrix product contracting axis 1 of an M×K operand with axis 1 of an N×K operand, accumulated into the zero
    splat, read at entry (a, b) at the ideal values: the contraction index has one axis of extent K, and at position c
    the left operand is read at (a, c), the right one at (b, c). -/
theorem matmul_zero_nt_apply {M N K : Nat} {φ₁ φ₂ : FTy}
    (wf : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    FloatOps.matmul (⟨[1], [1], [0], [0], [], [], wf⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [Ideal.matmul_constant_zero_apply,
    ← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun c _ => ?_
  have hc := contrEquiv1_symm_val
    (⟨[1], [1], [0], [0], [], [], wf⟩ : DotDims ⟨2, ![M, K]⟩ ⟨2, ![N, K]⟩ ⟨2, ![M, N]⟩) K rfl rfl c
  have hl : (⟨[1], [1], [0], [0], [], [], wf⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], wf⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.Lib.MatmulNT

end
-- ==== Proof.KernelIdeal.Payloads.lean ====
/-
  The values the kernel body stores, read entry by entry at the ideal values.

  The body keeps two accumulators of shape [2049, 513] (frequencies × frames). It stores zeros into them at the first
  tile; at every tile it adds to each the product of a [2049, 256] block of a basis with the transpose of the
  [513, 256] block of windowed frames (the block arrives with a leading unit axis, dropped by a shape cast); and at the
  last tile it stores each accumulator, with a leading unit axis added, into an output block. Shape casts between equal
  shapes are the identity, a cast that drops or adds a leading unit axis re-reads the same entry, a sum of vectors is
  the sum of the entries, and the matrix product into a zero accumulator is the sum over the 256 contracted positions.
-/
import proofs.«152170_j48576080118713_1_alg».proof.Proof.Gen.KernelIdeal.Skeleton
import proofs.«152170_j48576080118713_1_alg».proof.Proof.LibMatmulNT
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

/-! ## The zero stores -/

/-- The value stored into the first accumulator at the first tile is zero everywhere. -/
theorem pay1_apply (f : Fin 2049) (r : Fin 513) : k0_pay1 (F := Ideal) (ix2 f r) = 0 := by
  show shapeCast S2049x513 (broadcast S2049x513 (Scalar.ofBits (F := Ideal) .f32 0x00000000#32))
      shapeCasts_S2049x513_S2049x513 (ix2 f r) = 0
  rw [shapeCast_self]
  exact Ideal.ofBits_zero_f32

/-- The value stored into the second accumulator at the first tile is zero everywhere. -/
theorem pay2_apply (f : Fin 2049) (r : Fin 513) : k0_pay2 (F := Ideal) (ix2 f r) = 0 := by
  show shapeCast S2049x513 (broadcast S2049x513 (Scalar.ofBits (F := Ideal) .f32 0x00000000#32))
      shapeCasts_S2049x513_S2049x513 (ix2 f r) = 0
  rw [shapeCast_self]
  exact Ideal.ofBits_zero_f32

/-! ## One tile's update -/

/-- The frames block with its leading unit axis dropped: entry (r, q) is entry (0, r, q). -/
theorem pay3_apply (v3 : Vec Ideal S1x513x256 .bf16) (r : Fin 513) (q : Fin 256) :
    k0_pay3 (F := Ideal) v3 (ix2 r q) = v3 (ix3 (0 : Fin 1) r q) :=
  shapeCast_1ab_ab_apply v3 shapeCasts_S1x513x256_S513x256 r q

/-- The first accumulator's new value at (f, r): the old value plus the sum over the tile's 256 samples q of
    basis(f, q) · frames(0, r, q). -/
theorem pay4_apply (v3 : Vec Ideal S1x513x256 .bf16) (v5 : Vec Ideal S2049x256 .bf16) (v11 : Vec Ideal S2049x513 .f32)
    (f : Fin 2049) (r : Fin 513) :
    k0_pay4 (F := Ideal) v3 v5 v11 (ix2 f r) = v11 (ix2 f r) + ∑ q : Fin 256, v5 (ix2 f q) * v3 (ix3 (0 : Fin 1) r q) := by
  show shapeCast S2049x513 (addf v11 (matmul dot_S2049x256_S513x256_S2049x513_1_1_0_0_n_n none
      (shapeCast S2049x256 v5 shapeCasts_S2049x256_S2049x256) (k0_pay3 (F := Ideal) v3) (constant S2049x513 .f32 0x00000000#32)))
      shapeCasts_S2049x513_S2049x513 (ix2 f r) = _
  rw [shapeCast_self, shapeCast_self]
  show v11 (ix2 f r) + FloatOps.matmul (⟨[1], [1], [0], [0], [], [], dot_S2049x256_S513x256_S2049x513_1_1_0_0_n_n_wf⟩ :
      DotDims ⟨2, ![2049, 256]⟩ ⟨2, ![513, 256]⟩ ⟨2, ![2049, 513]⟩) none v5 (k0_pay3 (F := Ideal) v3)
      (constant ⟨2, ![2049, 513]⟩ .f32 0x00000000#32) (ix2 f r) = _
  rw [Cert.Lib.MatmulNT.matmul_zero_nt_apply]
  exact congrArg (v11 (ix2 f r) + ·) (Finset.sum_congr rfl fun q _ => by rw [pay3_apply])

/-- The second accumulator's new value at (f, r): the same with the second basis block. -/
theorem pay5_apply (v3 : Vec Ideal S1x513x256 .bf16) (v7 : Vec Ideal S2049x256 .bf16) (v16 : Vec Ideal S2049x513 .f32)
    (f : Fin 2049) (r : Fin 513) :
    k0_pay5 (F := Ideal) v3 v7 v16 (ix2 f r) = v16 (ix2 f r) + ∑ q : Fin 256, v7 (ix2 f q) * v3 (ix3 (0 : Fin 1) r q) := by
  show shapeCast S2049x513 (addf v16 (matmul dot_S2049x256_S513x256_S2049x513_1_1_0_0_n_n none
      (shapeCast S2049x256 v7 shapeCasts_S2049x256_S2049x256) (k0_pay3 (F := Ideal) v3) (constant S2049x513 .f32 0x00000000#32)))
      shapeCasts_S2049x513_S2049x513 (ix2 f r) = _
  rw [shapeCast_self, shapeCast_self]
  show v16 (ix2 f r) + FloatOps.matmul (⟨[1], [1], [0], [0], [], [], dot_S2049x256_S513x256_S2049x513_1_1_0_0_n_n_wf⟩ :
      DotDims ⟨2, ![2049, 256]⟩ ⟨2, ![513, 256]⟩ ⟨2, ![2049, 513]⟩) none v7 (k0_pay3 (F := Ideal) v3)
      (constant ⟨2, ![2049, 513]⟩ .f32 0x00000000#32) (ix2 f r) = _
  rw [Cert.Lib.MatmulNT.matmul_zero_nt_apply]
  exact congrArg (v16 (ix2 f r) + ·) (Finset.sum_congr rfl fun q _ => by rw [pay3_apply])

/-! ## The copy out -/

/-- The first output block's value: the accumulator with a leading unit axis, entry (0, f, r) is entry (f, r). -/
theorem pay6_apply (v24 : Vec Ideal S2049x513 .f32) (f : Fin 2049) (r : Fin 513) :
    k0_pay6 (F := Ideal) v24 (ix3 (0 : Fin 1) f r) = v24 (ix2 f r) :=
  shapeCast_ab_1ab_apply v24 shapeCasts_S2049x513_S1x2049x513 0 f r

/-- The second output block's value, likewise. -/
theorem pay7_apply (v28 : Vec Ideal S2049x513 .f32) (f : Fin 2049) (r : Fin 513) :
    k0_pay7 (F := Ideal) v28 (ix3 (0 : Fin 1) f r) = v28 (ix2 f r) :=
  shapeCast_ab_1ab_apply v28 shapeCasts_S2049x513_S1x2049x513 0 f r

end Cert.KernelIdeal.Val

end
-- ==== Proof.KernelIdeal.Blocks.lean ====
/-
  Where the blocks of the five windows sit in their arrays.

  The grid is 16 × 16: point t is batch-channel pair s = t / 16 and tile k = t mod 16 of the 4096 samples. The frames
  array [16, 513, 4096] is staged in blocks [1, 513, 256] at block index (s, 0, k): entry (0, r, q) of the block at t is
  entry (s, r, 256·k + q) of the array. Each basis array [2049, 4096] is staged in blocks [2049, 256] at block index
  (0, k): entry (f, q) of the block is entry (f, 256·k + q). Each output array [16, 2049, 513] is written in blocks
  [1, 2049, 513] at block index (s, 0, 0): entry (0, f, r) of the block is entry (s, f, r), and every entry of the
  array whose leading coordinate is s lies in the block of every point of pair s. A block's coordinate in its array
  is always the block index times the block size plus the coordinate inside the block.
-/
import proofs.«152170_j48576080118713_1_alg».proof.Proof.KernelIdeal.Kit
import Idealize.ShloMosaic.Lib.Pipeline.Value
import Idealize.ShloMosaic.Lib.ValueIdx

-- membership in a rectangle of these extents recurses once per coordinate of the long axes
set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The block indices, decided once over the 256 points -/

/-- The frames window's block index at point t: (t / 16, 0, t mod 16). -/
theorem idx0 : ∀ t : Fin cfg0.N, win0_0.index t 0 = t.val / 16 ∧ win0_0.index t 1 = 0 ∧ win0_0.index t 2 = t.val % 16 :=
  (by decide +kernel : ∀ t : Fin grid0.N, win0_0.index t 0 = t.val / 16 ∧ win0_0.index t 1 = 0 ∧ win0_0.index t 2 = t.val % 16)
/-- The first basis window's block index at point t: (0, t mod 16). -/
theorem idx1 : ∀ t : Fin cfg0.N, win0_1.index t 0 = 0 ∧ win0_1.index t 1 = t.val % 16 :=
  (by decide +kernel : ∀ t : Fin grid0.N, win0_1.index t 0 = 0 ∧ win0_1.index t 1 = t.val % 16)
/-- The second basis window's block index at point t: (0, t mod 16). -/
theorem idx2 : ∀ t : Fin cfg0.N, win0_2.index t 0 = 0 ∧ win0_2.index t 1 = t.val % 16 :=
  (by decide +kernel : ∀ t : Fin grid0.N, win0_2.index t 0 = 0 ∧ win0_2.index t 1 = t.val % 16)
/-- The first output window's block index at point t: (t / 16, 0, 0). -/
theorem idx3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)
/-- The second output window's block index at point t: (t / 16, 0, 0). -/
theorem idx4 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)

/-! ## The input blocks read at an entry -/

/-- The frames block at point t, entry (0, r, q): the frames array at (s, r, n) for s = t / 16, n = 256·(t mod 16) + q. -/
theorem iblk0_apply (c : Dev nD) (t : Fin cfg0.N) (r : Fin 513) (q : Fin 256) (s : Fin 16) (n : Fin 4096)
    (hs : s.val = t.val / 16) (hn : n.val = 256 * (t.val % 16) + q.val) :
    (iblk m c 0 t : Vec F S1x513x256 .bf16) (ix3 (0 : Fin 1) r q) = V m c main_v16 (ix3 s r n) := by
  have hi := idx0 t
  unfold iblk
  rw [View.read_apply]
  show V m c main_v16 _ = V m c main_v16 _
  congr 1
  funext a
  apply Fin.ext
  match a with
  | ⟨0, _⟩ => show win0_0.index t 0 * 1 + 1 * (0 : Fin 1).val = s.val; rw [hi.1]; omega
  | ⟨1, _⟩ => show win0_0.index t 1 * 513 + 1 * r.val = r.val; rw [hi.2.1]; omega
  | ⟨2, _⟩ => show win0_0.index t 2 * 256 + 1 * q.val = n.val; rw [hi.2.2]; omega

/-- The first basis block at point t, entry (f, q): the basis array at (f, n) for n = 256·(t mod 16) + q. -/
theorem iblk1_apply (c : Dev nD) (t : Fin cfg0.N) (f : Fin 2049) (q : Fin 256) (n : Fin 4096)
    (hn : n.val = 256 * (t.val % 16) + q.val) :
    (iblk m c 1 t : Vec F S2049x256 .bf16) (ix2 f q) = V m c main_v17 (ix2 f n) := by
  have hi := idx1 t
  unfold iblk
  rw [View.read_apply]
  show V m c main_v17 _ = V m c main_v17 _
  congr 1
  funext a
  apply Fin.ext
  match a with
  | ⟨0, _⟩ => show win0_1.index t 0 * 2049 + 1 * f.val = f.val; rw [hi.1]; omega
  | ⟨1, _⟩ => show win0_1.index t 1 * 256 + 1 * q.val = n.val; rw [hi.2]; omega

/-- The second basis block at point t, entry (f, q): the basis array at (f, n) for n = 256·(t mod 16) + q. -/
theorem iblk2_apply (c : Dev nD) (t : Fin cfg0.N) (f : Fin 2049) (q : Fin 256) (n : Fin 4096)
    (hn : n.val = 256 * (t.val % 16) + q.val) :
    (iblk m c 2 t : Vec F S2049x256 .bf16) (ix2 f q) = V m c main_v18 (ix2 f n) := by
  have hi := idx2 t
  unfold iblk
  rw [View.read_apply]
  show V m c main_v18 _ = V m c main_v18 _
  congr 1
  funext a
  apply Fin.ext
  match a with
  | ⟨0, _⟩ => show win0_2.index t 0 * 2049 + 1 * f.val = f.val; rw [hi.1]; omega
  | ⟨1, _⟩ => show win0_2.index t 1 * 256 + 1 * q.val = n.val; rw [hi.2]; omega

/-! ## The output blocks read at an entry, and which entries they hold -/

/-- The first output window's block at point t, read off any contents G of its array, entry (0, f, r): G at (s, f, r)
    for s = t / 16. -/
theorem oblk3_apply (c : Dev nD) (t : Fin cfg0.N) (G : Buf (Elt F) ((c : Thread nD τ).loc main_v19_0))
    (f : Fin 2049) (r : Fin 513) (s : Fin 16) (hs : s.val = t.val / 16) :
    (((cfg0.win 3).blk t).view.read (Elt F) G : Vec F S1x2049x513 .f32) (ix3 (0 : Fin 1) f r) = G (ix3 s f r) := by
  have hi := idx3 t
  rw [View.read_apply]
  have key : ((cfg0.win 3).blk t).view.emb (ix3 (0 : Fin 1) f r) = ix3 s f r := by
    funext a
    apply Fin.ext
    match a with
    | ⟨0, _⟩ => show win0_3.index t 0 * 1 + 1 * (0 : Fin 1).val = s.val; rw [hi.1]; omega
    | ⟨1, _⟩ => show win0_3.index t 1 * 2049 + 1 * f.val = f.val; rw [hi.2.1]; omega
    | ⟨2, _⟩ => show win0_3.index t 2 * 513 + 1 * r.val = r.val; rw [hi.2.2]; omega
  exact congrArg G key

/-- The second output window's block at point t, likewise. -/
theorem oblk4_apply (c : Dev nD) (t : Fin cfg0.N) (G : Buf (Elt F) ((c : Thread nD τ).loc main_v19_1))
    (f : Fin 2049) (r : Fin 513) (s : Fin 16) (hs : s.val = t.val / 16) :
    (((cfg0.win 4).blk t).view.read (Elt F) G : Vec F S1x2049x513 .f32) (ix3 (0 : Fin 1) f r) = G (ix3 s f r) := by
  have hi := idx4 t
  rw [View.read_apply]
  have key : ((cfg0.win 4).blk t).view.emb (ix3 (0 : Fin 1) f r) = ix3 s f r := by
    funext a
    apply Fin.ext
    match a with
    | ⟨0, _⟩ => show win0_4.index t 0 * 1 + 1 * (0 : Fin 1).val = s.val; rw [hi.1]; omega
    | ⟨1, _⟩ => show win0_4.index t 1 * 2049 + 1 * f.val = f.val; rw [hi.2.1]; omega
    | ⟨2, _⟩ => show win0_4.index t 2 * 513 + 1 * r.val = r.val; rw [hi.2.2]; omega
  exact congrArg G key

/-- An entry of the first output array whose leading coordinate is t / 16 lies in the block of point t. -/
theorem mem_blk3 (c : Dev nD) (t : Fin cfg0.N) (i : S16x2049x513.Idx) (hs : (i 0).val = t.val / 16) :
    i ∈ ((cfg0.win 3).blk t).view.set := by
  have hi := idx3 t
  show i ∈ ((View.whole main_v19_0).slice (win0_3.rect t)).set
  rw [View.set_slice_whole, Rect.mem_set_unit]
  intro a
  have h1 : (i 1 : Nat) < 2049 := (i 1).isLt
  have h2 : (i 2 : Nat) < 513 := (i 2).isLt
  match a with
  | ⟨0, _⟩ => show win0_3.index t 0 * 1 ≤ (i 0 : Nat) ∧ (i 0 : Nat) < win0_3.index t 0 * 1 + 1
              rw [hi.1]; omega
  | ⟨1, _⟩ => show win0_3.index t 1 * 2049 ≤ (i 1 : Nat) ∧ (i 1 : Nat) < win0_3.index t 1 * 2049 + 2049
              rw [hi.2.1]; omega
  | ⟨2, _⟩ => show win0_3.index t 2 * 513 ≤ (i 2 : Nat) ∧ (i 2 : Nat) < win0_3.index t 2 * 513 + 513
              rw [hi.2.2]; omega

/-- An entry of the second output array whose leading coordinate is t / 16 lies in the block of point t. -/
theorem mem_blk4 (c : Dev nD) (t : Fin cfg0.N) (i : S16x2049x513.Idx) (hs : (i 0).val = t.val / 16) :
    i ∈ ((cfg0.win 4).blk t).view.set := by
  have hi := idx4 t
  show i ∈ ((View.whole main_v19_1).slice (win0_4.rect t)).set
  rw [View.set_slice_whole, Rect.mem_set_unit]
  intro a
  have h1 : (i 1 : Nat) < 2049 := (i 1).isLt
  have h2 : (i 2 : Nat) < 513 := (i 2).isLt
  match a with
  | ⟨0, _⟩ => show win0_4.index t 0 * 1 ≤ (i 0 : Nat) ∧ (i 0 : Nat) < win0_4.index t 0 * 1 + 1
              rw [hi.1]; omega
  | ⟨1, _⟩ => show win0_4.index t 1 * 2049 ≤ (i 1 : Nat) ∧ (i 1 : Nat) < win0_4.index t 1 * 2049 + 2049
              rw [hi.2.1]; omega
  | ⟨2, _⟩ => show win0_4.index t 2 * 513 ≤ (i 2 : Nat) ∧ (i 2 : Nat) < win0_4.index t 2 * 513 + 513
              rw [hi.2.2]; omega

end Cert.KernelIdeal.Val

end
-- ==== Proof.Spec.lean ====
/-
  The specification both programs are measured against: the short-time Fourier sum of a padded signal.
  A signal `P` of 528384 samples per (batch, channel) is cut into 513 frames of 4096 samples, frame `t` starting
  at sample `1024·t` (so the last frame ends exactly at the last sample). Each frame is multiplied sample by
  sample with a window `w`, and entry (b, c, f, t) of the result is the sum over the 4096 samples `n` of
  `B(f, n) · (P(b, c, 1024·t + n) · w(n))` for a basis `B` of 2049 rows (the cosines for the real part, the
  negated sines for the imaginary part). On the extended reals the sum is a sum in a commutative monoid: it may
  be cut into tiles and regrouped freely, which is all the two programs differ by.
-/
import Idealize.ShloMosaic.PureOps.Ideal
import Idealize.ShloMosaic.Lib.ValueIdx

noncomputable section

namespace Cert.Stft

open Idealize.ShloMosaic Idealize.ShloMosaic.ValueIdx

/-- Sample `n` of frame `t` sits at position `1024·t + n` of the padded axis (at most 1024·512 + 4095). -/
def pos (t : Fin 513) (n : Fin 4096) : Fin 528384 := ⟨1024 * t.val + n.val, by omega⟩

@[simp] theorem pos_val (t : Fin 513) (n : Fin 4096) : (pos t n).val = 1024 * t.val + n.val := rfl

/-- One entry of the transform: the sum over the frame's samples of basis × (sample × window). -/
def spectrumAt (P : (⟨3, ![8, 2, 528384]⟩ : Shape).Idx → EReal) (w : (⟨1, ![4096]⟩ : Shape).Idx → EReal)
    (B : (⟨2, ![2049, 4096]⟩ : Shape).Idx → EReal) (b : Fin 8) (c : Fin 2) (f : Fin 2049) (t : Fin 513) : EReal :=
  ∑ n : Fin 4096, B (ix2 f n) * (P (ix3 b c (pos t n)) * w (ix1 n))

/-- The whole transform, laid out [batch, channel, frequency, frame]. -/
def spectrum (P : (⟨3, ![8, 2, 528384]⟩ : Shape).Idx → EReal) (w : (⟨1, ![4096]⟩ : Shape).Idx → EReal)
    (B : (⟨2, ![2049, 4096]⟩ : Shape).Idx → EReal) : (⟨4, ![8, 2, 2049, 513]⟩ : Shape).Idx → EReal :=
  fun i => spectrumAt P w B (i 0) (i 1) (i 2) (i 3)

theorem spectrum_apply (P : (⟨3, ![8, 2, 528384]⟩ : Shape).Idx → EReal) (w : (⟨1, ![4096]⟩ : Shape).Idx → EReal)
    (B : (⟨2, ![2049, 4096]⟩ : Shape).Idx → EReal) (b : Fin 8) (c : Fin 2) (f : Fin 2049) (t : Fin 513) :
    spectrum P w B (ix4 b c f t) = spectrumAt P w B b c f t := rfl

end Cert.Stft

end
-- ==== Proof.LibMergeLead.lean ====
/-
  A reshape that merges the two leading axes of a rank-4 array, read at an entry — for any extents and element type.

  An array of extents [n0, n1, n2, n3] viewed with its first two axes merged into one of extent N = n0·n1 holds, at
  (s, r, k) with s = b·n1 + h, the entry (b, h, r, k) of the original: both positions are the same place in row-major
  order. The same equation read the other way is the view of a rank-3 array with its leading axis split in two.
-/
import Idealize.ShloMosaic.Lib.ValueIdx
import Idealize.ShloMosaic.Lib.Pipeline.Value

noncomputable section

namespace Cert.Lib.MergeLead

open Idealize.ShloMosaic Idealize.ShloMosaic.ValueIdx

variable {α : Type}

/-- Merging the two leading axes: the merged array at `(s, r, k)` is the original at `(b, h, r, k)` when `s = b·n1 + h`. -/
theorem merge_apply {n0 n1 n2 n3 N : Nat} (x : (⟨4, ![n0, n1, n2, n3]⟩ : Shape).Idx → α)
    (hc : (⟨4, ![n0, n1, n2, n3]⟩ : Shape).ShapeCasts ⟨3, ![N, n2, n3]⟩)
    (s : Fin N) (b : Fin n0) (h : Fin n1) (r : Fin n2) (k : Fin n3) (hs : s.val = b.val * n1 + h.val) :
    shapeCast ⟨3, ![N, n2, n3]⟩ x hc (ix3 s r k) = x (ix4 b h r k) :=
  shapeCast_apply x hc (ix3 s r k) (ix4 b h r k) (by
    rw [Shape.rowMajor_val_four, Shape.rowMajor_val_three]
    show ((b.val * n1 + h.val) * n2 + r.val) * n3 + k.val = (s.val * n2 + r.val) * n3 + k.val
    rw [hs])

/-- Splitting the leading axis in two: the split array at `(b, h, r, k)` is the original at `(s, r, k)` when `s = b·n1 + h`. -/
theorem split_apply {n0 n1 n2 n3 N : Nat} (x : (⟨3, ![N, n2, n3]⟩ : Shape).Idx → α)
    (hc : (⟨3, ![N, n2, n3]⟩ : Shape).ShapeCasts ⟨4, ![n0, n1, n2, n3]⟩)
    (s : Fin N) (b : Fin n0) (h : Fin n1) (r : Fin n2) (k : Fin n3) (hs : s.val = b.val * n1 + h.val) :
    shapeCast ⟨4, ![n0, n1, n2, n3]⟩ x hc (ix4 b h r k) = x (ix3 s r k) :=
  shapeCast_apply x hc (ix4 b h r k) (ix3 s r k) (by
    rw [Shape.rowMajor_val_four, Shape.rowMajor_val_three]
    show (s.val * n2 + r.val) * n3 + k.val = ((b.val * n1 + h.val) * n2 + r.val) * n3 + k.val
    rw [hs])

end Cert.Lib.MergeLead

end
-- ==== Proof.LibScaledTiles.lean ====
/-
  Two facts about finite sums on the extended reals, for a contraction axis cut into equal tiles.

  * A sum over an axis of n·K positions is the sum over the n tiles of the sums inside each tile, position
    K·s + q of the axis being position q of tile s.
  * For real numbers a, b and a real scale σ, read as extended reals, multiplying the total of the tiles'
    sums of products a·b by σ gives the sum of the products a·(b·σ): on the reals this is distributivity, and a
    finite sum or product of reals read as extended reals is the extended real of the real sum or product.
    (On the extended reals alone the law fails: with an infinite total and σ = 0 the two sides differ.)
-/
import Idealize.ShloMosaic.PureOps.Ideal.Laws

noncomputable section

open scoped BigOperators

namespace Cert.Lib.ScaledTiles

/-- A finite sum of reals, read as an extended real, is the sum of the terms read as extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Position q of tile s, on an axis of n·K positions. -/
def tilePos {n K : Nat} (s : Fin n) (q : Fin K) : Fin (n * K) :=
  ⟨K * s.val + q.val, by
    have hs := s.isLt; have hq := q.isLt
    calc K * s.val + q.val < K * s.val + K := by omega
      _ = K * (s.val + 1) := by ring
      _ ≤ K * n := Nat.mul_le_mul_left K hs
      _ = n * K := Nat.mul_comm K n⟩

theorem tilePos_val {n K : Nat} (s : Fin n) (q : Fin K) : (tilePos s q).val = K * s.val + q.val := rfl

/-- A sum over n·K positions, tile by tile. -/
theorem sum_tiles {β : Type*} [AddCommMonoid β] {n K : Nat} (f : Fin (n * K) → β) :
    ∑ k : Fin (n * K), f k = ∑ s : Fin n, ∑ q : Fin K, f (tilePos s q) := by
  rw [← Equiv.sum_comp finProdFinEquiv f, Fintype.sum_prod_type]
  refine Finset.sum_congr rfl fun s _ => Finset.sum_congr rfl fun q _ => ?_
  congr 1
  apply Fin.ext
  show q.val + K * s.val = K * s.val + q.val
  omega

/-- The total over tiles of the sums of products a·b, started from zero and then multiplied by σ, is the sum of the
    products a·(b·σ), for real a, b, σ read as extended reals. -/
theorem scaled_total_eq {κ ι : Type*} [Fintype κ] [Fintype ι] (a b : κ → ι → ℝ) (σ : ℝ) :
    (0 + ∑ s : κ, ∑ q : ι, ((a s q : ℝ) : EReal) * ((b s q : ℝ) : EReal)) * (σ : EReal)
      = ∑ s : κ, ∑ q : ι, ((a s q : ℝ) : EReal) * (((b s q : ℝ) : EReal) * (σ : EReal)) := by
  simp only [← EReal.coe_mul, ← coe_sum, zero_add]
  congr 1
  rw [Finset.sum_mul]
  refine Finset.sum_congr rfl fun s _ => ?_
  rw [Finset.sum_mul]
  refine Finset.sum_congr rfl fun q _ => ?_
  ring

end Cert.Lib.ScaledTiles

end
-- ==== Proof.Frames.lean ====
/-
  The layout mathematics of the host side of the short-time Fourier transform by tiles.

  * The framing: the padded signal of 528384 samples is viewed as 516 rows of 1024 samples; four copies of the rows,
    shifted by 0, 1, 2 and 3 rows and 513 rows long each, are stacked along a new axis and the stack is read as 513
    frames of 4096 samples. Sample n = 1024·o + h of frame t is row o + t, column h, that is position
    1024·(o + t) + h = 1024·t + n of the padded signal. The frames are multiplied by the window sample by sample and
    the batch and channel axes are merged into one axis of 16.
  * A change of float format is the identity on the extended reals.
  * The result's leading axis of 16 split back into batch and channel.
  * A sum over 4096 samples accumulated tile by tile, 16 tiles of 256 samples.
-/
import proofs.«152170_j48576080118713_1_alg».proof.KernelIdeal
import proofs.«152170_j48576080118713_1_alg».proof.Proof.Spec
import proofs.«152170_j48576080118713_1_alg».proof.Proof.LibMergeLead
import proofs.«152170_j48576080118713_1_alg».proof.Proof.LibScaledTiles
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Stft.Frames

open Idealize.ShloMosaic Idealize.ShloMosaic.ValueIdx
open Cert.KernelIdeal

/-! ## The sum over a frame, accumulated tile by tile -/

section TiledSum

/-- The sum of the first `k` tiles of 256 samples (tiles past the sixteenth are empty). -/
def partialSum (g : Fin 4096 → EReal) : ℕ → EReal
  | 0 => 0
  | k + 1 => partialSum g k + (if h : k < 16 then ∑ q : Fin 256, g ⟨256 * k + q.val, by omega⟩ else 0)

/-- One more tile: the running sum plus the tile's own sum. -/
theorem partialSum_succ (g : Fin 4096 → EReal) (k : ℕ) (hk : k < 16) :
    partialSum g (k + 1) = partialSum g k + ∑ q : Fin 256, g ⟨256 * k + q.val, by omega⟩ := by
  show partialSum g k + (if h : k < 16 then ∑ q : Fin 256, g ⟨256 * k + q.val, by omega⟩ else 0) = _
  rw [dif_pos hk]

/-- The running sum after `k` tiles is the sum over the tile numbers below `k` of the tiles' sums. -/
theorem partialSum_eq_sum_range (g : Fin 4096 → EReal) (k : ℕ) :
    partialSum g k = ∑ s ∈ Finset.range k,
      (if h : s < 16 then ∑ q : Fin 256, g ⟨256 * s + q.val, by omega⟩ else 0) := by
  induction k with
  | zero => rfl
  | succ k ih => rw [Finset.sum_range_succ, ← ih]; rfl

/-- All sixteen tiles: the sum over the 4096 samples. -/
theorem partialSum_all (g : Fin 4096 → EReal) : partialSum g 16 = ∑ n : Fin 4096, g n := by
  rw [partialSum_eq_sum_range,
    ← Fin.sum_univ_eq_sum_range
      (fun s => if h : s < 16 then ∑ q : Fin 256, g ⟨256 * s + q.val, by omega⟩ else 0) 16]
  refine Eq.trans ?_ (Cert.Lib.ScaledTiles.sum_tiles (n := 16) (K := 256) g).symm
  refine Finset.sum_congr rfl fun s _ => ?_
  rw [dif_pos s.isLt]
  rfl

end TiledSum

variable [Cert.KernelIdeal.Facts]
open Cert.KernelIdeal.Facts₀ Cert.KernelIdeal.Facts

/-! ## The basis in the narrower format -/

/-- Rounding the basis to the narrower float format changes nothing on the extended reals. -/
theorem basis_apply (B : FVec Ideal S2049x4096 .f32) :
    (truncf .bf16 B bitsLt_bf16_f32 : FVec Ideal S2049x4096 .bf16) = B := by
  funext i
  exact Ideal.truncf_def (B i) .bf16 bitsLt_bf16_f32

/-! ## The result's leading axis split into batch and channel -/

/-- The result laid out [16, 2049, 513], viewed as [8, 2, 2049, 513]: entry (b, c, f, t) is entry (2·b + c, f, t). -/
theorem unmerged_apply (R : FVec Ideal S16x2049x513 .f32) (s : Fin 16) (b : Fin 8) (c : Fin 2) (f : Fin 2049)
    (t : Fin 513) (hs : s.val = b.val * 2 + c.val) :
    shapeCast S8x2x2049x513 R shapeCasts_S16x2049x513_S8x2x2049x513 (ix4 b c f t) = R (ix3 s f t) :=
  Cert.Lib.MergeLead.split_apply R shapeCasts_S16x2049x513_S8x2x2049x513 s b c f t hs

/-! ## The framing -/

/-- The padded signal as 516 rows of 1024 samples. -/
def rows (P : FVec Ideal S8x2x528384 .f32) : FVec Ideal S8x2x516x1024 .f32 :=
  shapeCast S8x2x516x1024 P shapeCasts_S8x2x528384_S8x2x516x1024

/-- 513 consecutive rows starting at row 0, with a unit axis before the samples. -/
def piece0 (P : FVec Ideal S8x2x528384 .f32) : FVec Ideal S8x2x513x1x1024 .f32 :=
  broadcastInDim S8x2x513x1x1024 ![0, 1, 2, 4] bcast_S8x2x513x1024_S8x2x513x1x1024_0_1_2_4
    (extractStridedSlice S8x2x513x1024 ![0, 0, 0, 0] (rows P) slices_S8x2x516x1024_S8x2x513x1024_0_0_0_0)

/-- 513 consecutive rows starting at row 1, with a unit axis before the samples. -/
def piece1 (P : FVec Ideal S8x2x528384 .f32) : FVec Ideal S8x2x513x1x1024 .f32 :=
  broadcastInDim S8x2x513x1x1024 ![0, 1, 2, 4] bcast_S8x2x513x1024_S8x2x513x1x1024_0_1_2_4
    (extractStridedSlice S8x2x513x1024 ![0, 0, 1, 0] (rows P) slices_S8x2x516x1024_S8x2x513x1024_0_0_1_0)

/-- 513 consecutive rows starting at row 2, with a unit axis before the samples. -/
def piece2 (P : FVec Ideal S8x2x528384 .f32) : FVec Ideal S8x2x513x1x1024 .f32 :=
  broadcastInDim S8x2x513x1x1024 ![0, 1, 2, 4] bcast_S8x2x513x1024_S8x2x513x1x1024_0_1_2_4
    (extractStridedSlice S8x2x513x1024 ![0, 0, 2, 0] (rows P) slices_S8x2x516x1024_S8x2x513x1024_0_0_2_0)

/-- 513 consecutive rows starting at row 3, with a unit axis before the samples. -/
def piece3 (P : FVec Ideal S8x2x528384 .f32) : FVec Ideal S8x2x513x1x1024 .f32 :=
  broadcastInDim S8x2x513x1x1024 ![0, 1, 2, 4] bcast_S8x2x513x1024_S8x2x513x1x1024_0_1_2_4
    (extractStridedSlice S8x2x513x1024 ![0, 0, 3, 0] (rows P) slices_S8x2x516x1024_S8x2x513x1024_0_0_3_0)

/-- The four shifted copies stacked along the unit axis. -/
def stacked (P : FVec Ideal S8x2x528384 .f32) : FVec Ideal S8x2x513x4x1024 .f32 :=
  concatenate S8x2x513x4x1024 3
    [⟨S8x2x513x1x1024, piece0 P⟩, ⟨S8x2x513x1x1024, piece1 P⟩, ⟨S8x2x513x1x1024, piece2 P⟩, ⟨S8x2x513x1x1024, piece3 P⟩]
    concatenates_S8x2x513x1x1024_S8x2x513x1x1024_S8x2x513x1x1024_S8x2x513x1x1024_S8x2x513x4x1024_d3

/-- The 513 frames of 4096 samples. -/
def frames (P : FVec Ideal S8x2x528384 .f32) : FVec Ideal S8x2x513x4096 .f32 :=
  shapeCast S8x2x513x4096 (stacked P) shapeCasts_S8x2x513x4x1024_S8x2x513x4096

/-- The window repeated over every batch, channel and frame. -/
def windowAll (w : FVec Ideal S4096 .f32) : FVec Ideal S8x2x513x4096 .f32 :=
  broadcastInDim S8x2x513x4096 ![0, 1, 2, 3] bcast_S1x1x1x4096_S8x2x513x4096_0_1_2_3
    (broadcastInDim S1x1x1x4096 ![3] bcast_S4096_S1x1x1x4096_3 w)

/-- The frames times the window, sample by sample, in the narrower format. -/
def product (P : FVec Ideal S8x2x528384 .f32) (w : FVec Ideal S4096 .f32) : FVec Ideal S8x2x513x4096 .bf16 :=
  truncf (F := Ideal) (s := S8x2x513x4096) (φ := .f32) .bf16
    (mulf (F := Ideal) (s := S8x2x513x4096) (φ := .f32) (frames P) (windowAll w)) bitsLt_bf16_f32

/-- The windowed frames in the narrower format, batch and channel merged into one leading axis of 16. -/
def windowed (P : FVec Ideal S8x2x528384 .f32) (w : FVec Ideal S4096 .f32) : FVec Ideal S16x513x4096 .bf16 :=
  shapeCast S16x513x4096 (product P w) shapeCasts_S8x2x513x4096_S16x513x4096

/-! ## The framing read at an entry -/

/-- Row `g`, column `h` of the rows is sample `1024·g + h` of the padded signal. -/
theorem rows_apply (P : FVec Ideal S8x2x528384 .f32) (b : Fin 8) (c : Fin 2) (g : Fin 516) (h : Fin 1024)
    (p : Fin 528384) (hp : p.val = 1024 * g.val + h.val) :
    rows P (ix4 b c g h) = P (ix3 b c p) :=
  shapeCast_apply P shapeCasts_S8x2x528384_S8x2x516x1024 (ix4 b c g h) (ix3 b c p) (by
    rw [Shape.rowMajor_val_three, Shape.rowMajor_val_four]
    show (b.val * 2 + c.val) * 528384 + p.val = ((b.val * 2 + c.val) * 516 + g.val) * 1024 + h.val
    omega)

/-- A copy of the rows shifted by `o` rows, with the unit axis added: entry (t, ·, h) is row `o + t`, column `h`. -/
theorem shifted_apply (P : FVec Ideal S8x2x528384 .f32) (o : Nat)
    (hsl : S8x2x516x1024.Slices ![0, 0, o, 0] S8x2x513x1024)
    (b : Fin 8) (c : Fin 2) (t : Fin 513) (z : Fin 1) (h : Fin 1024) (g : Fin 516) (hg : g.val = o + t.val) :
    broadcastInDim S8x2x513x1x1024 ![0, 1, 2, 4] bcast_S8x2x513x1024_S8x2x513x1x1024_0_1_2_4
        (extractStridedSlice S8x2x513x1024 ![0, 0, o, 0] (rows P) hsl) (ix5 b c t z h)
      = rows P (ix4 b c g h) := by
  refine (broadcastInDim_apply _ _ _ (ix5 b c t z h) (ix4 b c t h) ?_).trans ?_
  · intro a
    match a with
    | ⟨0, _⟩ => rfl
    | ⟨1, _⟩ => rfl
    | ⟨2, _⟩ => rfl
    | ⟨3, _⟩ => rfl
  · refine extractStridedSlice_apply _ _ _ (ix4 b c t h) (ix4 b c g h) ?_
    intro a
    match a with
    | ⟨0, _⟩ => show b.val = 0 + b.val; omega
    | ⟨1, _⟩ => show c.val = 0 + c.val; omega
    | ⟨2, _⟩ => show g.val = o + t.val; exact hg
    | ⟨3, _⟩ => show h.val = 0 + h.val; omega

/-- The stack at (t, o, h) is copy `o` at (t, h): row `o + t`, column `h`. -/
theorem stacked_apply (P : FVec Ideal S8x2x528384 .f32) (b : Fin 8) (c : Fin 2) (t : Fin 513) (o : Fin 4)
    (h : Fin 1024) (g : Fin 516) (hg : g.val = o.val + t.val) :
    stacked P (ix5 b c t o h) = rows P (ix4 b c g h) := by
  refine (concatenate_ofFn_unit_apply (t := S8x2x513x4x1024) (s₁ := S8x2x513x1x1024) 3
    ![piece0 P, piece1 P, piece2 P, piece3 P]
    concatenates_S8x2x513x1x1024_S8x2x513x1x1024_S8x2x513x1x1024_S8x2x513x1x1024_S8x2x513x4x1024_d3
    rfl rfl (ix5 b c t o h) o rfl (ix5 b c t 0 h) ?_).trans ?_
  · intro a ha
    match a, ha with
    | ⟨0, _⟩, _ => rfl
    | ⟨1, _⟩, _ => rfl
    | ⟨2, _⟩, _ => rfl
    | ⟨3, _⟩, ha => exact absurd rfl ha
    | ⟨4, _⟩, _ => rfl
  · match o, hg with
    | ⟨0, _⟩, hg => exact shifted_apply P 0 slices_S8x2x516x1024_S8x2x513x1024_0_0_0_0 b c t 0 h g hg
    | ⟨1, _⟩, hg => exact shifted_apply P 1 slices_S8x2x516x1024_S8x2x513x1024_0_0_1_0 b c t 0 h g hg
    | ⟨2, _⟩, hg => exact shifted_apply P 2 slices_S8x2x516x1024_S8x2x513x1024_0_0_2_0 b c t 0 h g hg
    | ⟨3, _⟩, hg => exact shifted_apply P 3 slices_S8x2x516x1024_S8x2x513x1024_0_0_3_0 b c t 0 h g hg

/-- Sample `n = 1024·o + h` of frame `t` is read from copy `o` of the stack, row `t`, column `h`. -/
theorem frames_eq_stacked (P : FVec Ideal S8x2x528384 .f32) (b : Fin 8) (c : Fin 2) (t : Fin 513) (n : Fin 4096)
    (o : Fin 4) (h : Fin 1024) (hn : n.val = 1024 * o.val + h.val) :
    frames P (ix4 b c t n) = stacked P (ix5 b c t o h) :=
  shapeCast_apply (stacked P) shapeCasts_S8x2x513x4x1024_S8x2x513x4096 (ix4 b c t n) (ix5 b c t o h) (by
    rw [Shape.rowMajor_val_five, Shape.rowMajor_val_four]
    show (((b.val * 2 + c.val) * 513 + t.val) * 4 + o.val) * 1024 + h.val = ((b.val * 2 + c.val) * 513 + t.val) * 4096 + n.val
    omega)

/-- Sample `n` of frame `t` is sample `1024·t + n` of the padded signal: with `n = 1024·o + h` it is read from
    copy `o`, row `t`, column `h`, which is row `o + t`, column `h` of the rows. -/
theorem frames_apply (P : FVec Ideal S8x2x528384 .f32) (b : Fin 8) (c : Fin 2) (t : Fin 513) (n : Fin 4096) :
    frames P (ix4 b c t n) = P (ix3 b c (Cert.Stft.pos t n)) := by
  have ho : n.val / 1024 < 4 := by omega
  have hh : n.val % 1024 < 1024 := by omega
  have hg : n.val / 1024 + t.val < 516 := by omega
  have hn : n.val = 1024 * (n.val / 1024) + n.val % 1024 := by omega
  have hp : 1024 * t.val + n.val = 1024 * (n.val / 1024 + t.val) + n.val % 1024 := by omega
  refine (frames_eq_stacked P b c t n ⟨n.val / 1024, ho⟩ ⟨n.val % 1024, hh⟩ hn).trans ?_
  refine (stacked_apply P b c t ⟨n.val / 1024, ho⟩ ⟨n.val % 1024, hh⟩ ⟨n.val / 1024 + t.val, hg⟩ rfl).trans ?_
  exact rows_apply P b c ⟨n.val / 1024 + t.val, hg⟩ ⟨n.val % 1024, hh⟩ (Cert.Stft.pos t n) hp

/-- The repeated window at (b, c, t, n) is the window at `n`. -/
theorem windowAll_apply (w : FVec Ideal S4096 .f32) (b : Fin 8) (c : Fin 2) (t : Fin 513) (n : Fin 4096) :
    windowAll w (ix4 b c t n) = w (ix1 n) := by
  refine (broadcastInDim_apply _ _ _ (ix4 b c t n) (ix4 (0 : Fin 1) (0 : Fin 1) (0 : Fin 1) n) ?_).trans ?_
  · intro a
    match a with
    | ⟨0, _⟩ => rfl
    | ⟨1, _⟩ => rfl
    | ⟨2, _⟩ => rfl
    | ⟨3, _⟩ => rfl
  · refine broadcastInDim_apply _ _ _ (ix4 (0 : Fin 1) (0 : Fin 1) (0 : Fin 1) n) (ix1 n) ?_
    intro a
    match a with
    | ⟨0, _⟩ => rfl

/-- The product at an entry: the frame's sample times the window's (the change of format is the identity). -/
theorem product_apply (P : FVec Ideal S8x2x528384 .f32) (w : FVec Ideal S4096 .f32) (i : S8x2x513x4096.Idx) :
    product P w i = frames P i * windowAll w i := by
  unfold product
  generalize frames P = x
  generalize windowAll w = y
  exact (truncf_apply (mulf (F := Ideal) (s := S8x2x513x4096) (φ := .f32) x y) bitsLt_bf16_f32 i).trans (mulf_apply x y i)

/-- Entry (s, t, n) of the windowed frames, for s = 2·b + c: sample `1024·t + n` of the padded signal of batch `b`,
    channel `c`, times the window at `n`. -/
theorem windowed_apply (P : FVec Ideal S8x2x528384 .f32) (w : FVec Ideal S4096 .f32) (s : Fin 16) (b : Fin 8)
    (c : Fin 2) (t : Fin 513) (n : Fin 4096) (hs : s.val = b.val * 2 + c.val) :
    windowed P w (ix3 s t n) = P (ix3 b c (Cert.Stft.pos t n)) * w (ix1 n) := by
  have e1 : windowed P w (ix3 s t n) = product P w (ix4 b c t n) :=
    Cert.Lib.MergeLead.merge_apply (n0 := 8) (n1 := 2) (n2 := 513) (n3 := 4096) (N := 16) (product P w)
      shapeCasts_S8x2x513x4096_S16x513x4096 s b c t n hs
  rw [e1, product_apply, frames_apply, windowAll_apply]

end Cert.Stft.Frames

end
-- ==== Proof.KernelIdeal.Running.lean ====
/-
  The two accumulators as partial sums. For batch-channel pair s, frequency f and frame r, write the n-th term of the
  transform as basis(f, n) · windowed(s, r, n). Tile k of the grid adds the 256 terms n = 256·k … 256·k + 255 to each
  accumulator entry (f, r); the first tile starts from zero. So after point 16·s + k an accumulator entry is the sum of
  the terms of tiles 0 … k, by induction on the point.
-/
import proofs.«152170_j48576080118713_1_alg».proof.Proof.KernelIdeal.Pieces
import proofs.«152170_j48576080118713_1_alg».proof.Proof.KernelIdeal.Payloads
import proofs.«152170_j48576080118713_1_alg».proof.Proof.KernelIdeal.Blocks
import proofs.«152170_j48576080118713_1_alg».proof.Proof.Frames

-- membership in a rectangle of these extents recurses once per coordinate of the long axes
set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.Stft.Frames (partialSum partialSum_succ partialSum_all)

variable (m : (ℓ : Loc nD τ sig) → Buf (Elt Ideal) ℓ)

/-- The region's three operands as it finds them, read as arrays of extended reals. -/
abbrev frames16 (c : Dev nD) : S16x513x4096.Idx → EReal := V m c main_v16
abbrev basis0 (c : Dev nD) : S2049x4096.Idx → EReal := V m c main_v17
abbrev basis1 (c : Dev nD) : S2049x4096.Idx → EReal := V m c main_v18

/-- One term of the real part's sum: the first basis at (f, n) times the windowed sample (s, r, n). -/
def term0 (c : Dev nD) (s : Fin 16) (f : Fin 2049) (r : Fin 513) (n : Fin 4096) : EReal :=
  basis0 m c (ix2 f n) * frames16 m c (ix3 s r n)
/-- One term of the imaginary part's sum: the second basis. -/
def term1 (c : Dev nD) (s : Fin 16) (f : Fin 2049) (r : Fin 513) (n : Fin 4096) : EReal :=
  basis1 m c (ix2 f n) * frames16 m c (ix3 s r n)

/-- Adding one tile, over plain variables: if the 256 products of this tile are the values `g q`, the first
    accumulator's entry grows by their sum. -/
theorem add_tile0 (x0 : Vec Ideal S1x513x256 .bf16) (x1 : Vec Ideal S2049x256 .bf16) (acc : Vec Ideal S2049x513 .f32)
    (f : Fin 2049) (r : Fin 513) (g : Fin 256 → EReal)
    (h : ∀ q : Fin 256, x1 (ix2 f q) * x0 (ix3 (0 : Fin 1) r q) = g q) :
    k0_pay4 (F := Ideal) x0 x1 acc (ix2 f r) = acc (ix2 f r) + ∑ q : Fin 256, g q := by
  rw [pay4_apply]
  congr 1
  exact Finset.sum_congr rfl fun q _ => h q

/-- The same for the second accumulator. -/
theorem add_tile1 (x0 : Vec Ideal S1x513x256 .bf16) (x2 : Vec Ideal S2049x256 .bf16) (acc : Vec Ideal S2049x513 .f32)
    (f : Fin 2049) (r : Fin 513) (g : Fin 256 → EReal)
    (h : ∀ q : Fin 256, x2 (ix2 f q) * x0 (ix3 (0 : Fin 1) r q) = g q) :
    k0_pay5 (F := Ideal) x0 x2 acc (ix2 f r) = acc (ix2 f r) + ∑ q : Fin 256, g q := by
  rw [pay5_apply]
  congr 1
  exact Finset.sum_congr rfl fun q _ => h q

/-- A product of block entries is a term of the sum: the blocks of point t sit at samples 256·(t mod 16) + q. (Stated for
    vectors of the literal types that ARE the point's blocks, so that the product is taken at the extended reals.) -/
theorem block_term0 (c : Dev nD) (t : Fin cfg0.N) (s : Fin 16) (hs : s.val = t.val / 16) (f : Fin 2049) (r : Fin 513) (q : Fin 256)
    (x1 : Vec Ideal S2049x256 .bf16) (x0 : Vec Ideal S1x513x256 .bf16) (h1 : x1 = iblk m c 1 t) (h0 : x0 = iblk m c 0 t) :
    x1 (ix2 f q) * x0 (ix3 (0 : Fin 1) r q)
      = term0 m c s f r ⟨256 * (t.val % 16) + q.val, by have := q.isLt; omega⟩ := by
  subst h1 h0
  rw [iblk1_apply m c t f q ⟨256 * (t.val % 16) + q.val, by have := q.isLt; omega⟩ rfl,
    iblk0_apply m c t r q s ⟨256 * (t.val % 16) + q.val, by have := q.isLt; omega⟩ hs rfl]
  rfl

theorem block_term1 (c : Dev nD) (t : Fin cfg0.N) (s : Fin 16) (hs : s.val = t.val / 16) (f : Fin 2049) (r : Fin 513) (q : Fin 256)
    (x2 : Vec Ideal S2049x256 .bf16) (x0 : Vec Ideal S1x513x256 .bf16) (h2 : x2 = iblk m c 2 t) (h0 : x0 = iblk m c 0 t) :
    x2 (ix2 f q) * x0 (ix3 (0 : Fin 1) r q)
      = term1 m c s f r ⟨256 * (t.val % 16) + q.val, by have := q.isLt; omega⟩ := by
  subst h2 h0
  rw [iblk2_apply m c t f q ⟨256 * (t.val % 16) + q.val, by have := q.isLt; omega⟩ rfl,
    iblk0_apply m c t r q s ⟨256 * (t.val % 16) + q.val, by have := q.isLt; omega⟩ hs rfl]
  rfl

/-- One point adds its tile's 256 terms to an entry of the first accumulator. -/
theorem step0 (c : Dev nD) (t : Fin cfg0.N) (s : Fin 16) (hs : s.val = t.val / 16) (acc : Vec Ideal S2049x513 .f32)
    (f : Fin 2049) (r : Fin 513) :
    k0_pay4 (F := Ideal) (iblk m c 0 t) (iblk m c 1 t) acc (ix2 f r)
      = acc (ix2 f r) + ∑ q : Fin 256, term0 m c s f r ⟨256 * (t.val % 16) + q.val, by have := q.isLt; omega⟩ :=
  add_tile0 (iblk m c 0 t) (iblk m c 1 t) acc f r
    (fun q => term0 m c s f r ⟨256 * (t.val % 16) + q.val, by have := q.isLt; omega⟩) (fun q => block_term0 m c t s hs f r q _ _ rfl rfl)

/-- And to an entry of the second. -/
theorem step1 (c : Dev nD) (t : Fin cfg0.N) (s : Fin 16) (hs : s.val = t.val / 16) (acc : Vec Ideal S2049x513 .f32)
    (f : Fin 2049) (r : Fin 513) :
    k0_pay5 (F := Ideal) (iblk m c 0 t) (iblk m c 2 t) acc (ix2 f r)
      = acc (ix2 f r) + ∑ q : Fin 256, term1 m c s f r ⟨256 * (t.val % 16) + q.val, by have := q.isLt; omega⟩ :=
  add_tile1 (iblk m c 0 t) (iblk m c 2 t) acc f r
    (fun q => term1 m c s f r ⟨256 * (t.val % 16) + q.val, by have := q.isLt; omega⟩) (fun q => block_term1 m c t s hs f r q _ _ rfl rfl)

/-- One point: if the point before (when this is not a pair's first tile) left the partial sums over the earlier tiles,
    this point leaves the partial sums including its own tile. -/
theorem running_at (c : Dev nD) (t : Fin cfg0.N) (s : Fin 16) (hs : s.val = t.val / 16) (f : Fin 2049) (r : Fin 513)
    (prev : t.val % 16 ≠ 0 → ∀ hp : t.val - 1 < cfg0.N,
      (outsAt0 m c (t.val - 1) hp).2.2.1 (ix2 f r) = partialSum (term0 m c s f r) (t.val % 16)
      ∧ (outsAt0 m c (t.val - 1) hp).2.2.2 (ix2 f r) = partialSum (term1 m c s f r) (t.val % 16)) :
    (outsAt0 m c t.val t.isLt).2.2.1 (ix2 f r) = partialSum (term0 m c s f r) (t.val % 16 + 1)
    ∧ (outsAt0 m c t.val t.isLt).2.2.2 (ix2 f r) = partialSum (term1 m c s f r) (t.val % 16 + 1) := by
  have hk : t.val % 16 < 16 := Nat.mod_lt _ (by norm_num)
  rw [partialSum_succ _ _ hk, partialSum_succ _ _ hk]
  by_cases h0 : t.val % 16 = 0
  · have h1 : ¬t.val % 16 = 15 := by omega
    have z0 : partialSum (term0 m c s f r) (t.val % 16) = 0 := by rw [h0]; rfl
    have z1 : partialSum (term1 m c s f r) (t.val % 16) = 0 := by rw [h0]; rfl
    rw [outsAt0_A m c t h0 h1, first_acc0, first_acc1, step0 m c t s hs, step1 m c t s hs, pay1_apply, pay2_apply, z0, z1]
    exact ⟨rfl, rfl⟩
  · obtain ⟨p0, p1⟩ := prev h0 (Nat.lt_of_le_of_lt (Nat.sub_le _ _) t.isLt)
    by_cases h1 : t.val % 16 = 15
    · rw [outsAt0_C m c t h0 h1, last_acc0, last_acc1, step0 m c t s hs, step1 m c t s hs, p0, p1]
      exact ⟨rfl, rfl⟩
    · rw [outsAt0_B m c t h0 h1, mid_acc0, mid_acc1, step0 m c t s hs, step1 m c t s hs, p0, p1]
      exact ⟨rfl, rfl⟩

/-- After every point, both accumulators hold the partial sums over the tiles so far. -/
theorem running (c : Dev nD) : ∀ (n : ℕ) (hn : n < cfg0.N) (s : Fin 16) (hs : s.val = n / 16) (f : Fin 2049) (r : Fin 513),
    (outsAt0 m c n hn).2.2.1 (ix2 f r) = partialSum (term0 m c s f r) (n % 16 + 1)
    ∧ (outsAt0 m c n hn).2.2.2 (ix2 f r) = partialSum (term1 m c s f r) (n % 16 + 1)
  | 0, hn, s, hs, f, r => running_at m c ⟨0, hn⟩ s hs f r (fun h => absurd (Nat.zero_mod 16) h)
  | n + 1, hn, s, hs, f, r => running_at m c ⟨n + 1, hn⟩ s hs f r (fun h hp => by
      dsimp only at h hp ⊢
      have e : (n + 1) % 16 = n % 16 + 1 := by omega
      have hs' : s.val = n / 16 := by omega
      rw [e]
      exact running c n (Nat.lt_of_succ_lt hn) s hs' f r)

/-- At a pair's last tile the output blocks hold the whole sums. -/
theorem last_outs (c : Dev nD) (t : Fin cfg0.N) (h15 : t.val % 16 = 15) (s : Fin 16) (hs : s.val = t.val / 16)
    (f : Fin 2049) (r : Fin 513) :
    (outsAt0 m c t.val t.isLt).1 (ix3 (0 : Fin 1) f r) = ∑ n : Fin 4096, term0 m c s f r n
    ∧ (outsAt0 m c t.val t.isLt).2.1 (ix3 (0 : Fin 1) f r) = ∑ n : Fin 4096, term1 m c s f r n := by
  have h0 : ¬t.val % 16 = 0 := by omega
  obtain ⟨q0, q1⟩ := running m c t.val t.isLt s hs f r
  rw [h15] at q0 q1
  rw [outsAt0_C m c t h0 h15] at q0 q1 ⊢
  rw [last_acc0] at q0
  rw [last_acc1] at q1
  rw [last_out3, last_out4, pay6_apply, pay7_apply, q0, q1]
  exact ⟨partialSum_all _, partialSum_all _⟩

end Cert.KernelIdeal.Val

end
-- ==== Proof.KernelIdeal.Entry.lean ====
/-
  The arrays the region finds, as functions of the program's arguments. Before the region the host pads the signal by
  reflection, cuts it into overlapping frames, multiplies by the window and narrows the format; the two bases are only
  narrowed. At the ideal values narrowing is the identity, so the region's first operand is the windowed frames of the
  padded signal and its other two operands are the two bases themselves.
-/
import proofs.«152170_j48576080118713_1_alg».proof.Proof.KernelIdeal.Kit
import proofs.«152170_j48576080118713_1_alg».proof.Proof.Frames
import Idealize.ShloMosaic.Lib.StableHlo.Run

set_option maxRecDepth 16384

noncomputable section

namespace Cert.KernelIdeal.Val

open Cert.KernelIdeal Cert.KernelIdeal.Fr
open Idealize.ShloMosaic Idealize.ShloMosaic.TcCoe Idealize.SL.Sem
open Cert.KernelIdeal.Facts₀ Cert.KernelIdeal.Facts

/-! ## The host lines of the framing, cut in two at the stack of the four shifted copies -/

section Split
variable {F : FTy → Type} [FloatOps F]

/-- The lines up to the four shifted copies. -/
abbrev hostOps0_2a : List (HloOp τ sig (Elt F)) :=
  [ StableHlo.reshape main_v0 main_v1 rfl shapeCasts_S8x2x528384_S8x2x516x1024,
    StableHlo.unary main_v1 main_v2 ((extractStridedSlice S8x2x513x1024 ![0, 0, 0, 0] · slices_S8x2x516x1024_S8x2x513x1024_0_0_0_0) : (⟨S8x2x516x1024, .f32⟩ : BufTy).Contents (Elt F) → (⟨S8x2x513x1024, .f32⟩ : BufTy).Contents (Elt F)),
    StableHlo.unary main_v1 main_v3 ((extractStridedSlice S8x2x513x1024 ![0, 0, 1, 0] · slices_S8x2x516x1024_S8x2x513x1024_0_0_1_0) : (⟨S8x2x516x1024, .f32⟩ : BufTy).Contents (Elt F) → (⟨S8x2x513x1024, .f32⟩ : BufTy).Contents (Elt F)),
    StableHlo.unary main_v1 main_v4 ((extractStridedSlice S8x2x513x1024 ![0, 0, 2, 0] · slices_S8x2x516x1024_S8x2x513x1024_0_0_2_0) : (⟨S8x2x516x1024, .f32⟩ : BufTy).Contents (Elt F) → (⟨S8x2x513x1024, .f32⟩ : BufTy).Contents (Elt F)),
    StableHlo.unary main_v1 main_v5 ((extractStridedSlice S8x2x513x1024 ![0, 0, 3, 0] · slices_S8x2x516x1024_S8x2x513x1024_0_0_3_0) : (⟨S8x2x516x1024, .f32⟩ : BufTy).Contents (Elt F) → (⟨S8x2x513x1024, .f32⟩ : BufTy).Contents (Elt F)),
    StableHlo.unary main_v2 main_v6 (broadcastInDim S8x2x513x1x1024 ![0, 1, 2, 4] bcast_S8x2x513x1024_S8x2x513x1x1024_0_1_2_4 : (⟨S8x2x513x1024, .f32⟩ : BufTy).Contents (Elt F) → (⟨S8x2x513x1x1024, .f32⟩ : BufTy).Contents (Elt F)),
    StableHlo.unary main_v3 main_v7 (broadcastInDim S8x2x513x1x1024 ![0, 1, 2, 4] bcast_S8x2x513x1024_S8x2x513x1x1024_0_1_2_4 : (⟨S8x2x513x1024, .f32⟩ : BufTy).Contents (Elt F) → (⟨S8x2x513x1x1024, .f32⟩ : BufTy).Contents (Elt F)),
    StableHlo.unary main_v4 main_v8 (broadcastInDim S8x2x513x1x1024 ![0, 1, 2, 4] bcast_S8x2x513x1024_S8x2x513x1x1024_0_1_2_4 : (⟨S8x2x513x1024, .f32⟩ : BufTy).Contents (Elt F) → (⟨S8x2x513x1x1024, .f32⟩ : BufTy).Contents (Elt F)),
    StableHlo.unary main_v5 main_v9 (broadcastInDim S8x2x513x1x1024 ![0, 1, 2, 4] bcast_S8x2x513x1024_S8x2x513x1x1024_0_1_2_4 : (⟨S8x2x513x1024, .f32⟩ : BufTy).Contents (Elt F) → (⟨S8x2x513x1x1024, .f32⟩ : BufTy).Contents (Elt F)) ]

/-- The lines from the stack of the four copies on. -/
abbrev hostOps0_2b : List (HloOp τ sig (Elt F)) :=
  [ StableHlo.nary ![main_v6, main_v7, main_v8, main_v9] main_v10 (fun u => concatenate S8x2x513x4x1024 3 [⟨S8x2x513x1x1024, u 0⟩, ⟨S8x2x513x1x1024, u 1⟩, ⟨S8x2x513x1x1024, u 2⟩, ⟨S8x2x513x1x1024, u 3⟩] concatenates_S8x2x513x1x1024_S8x2x513x1x1024_S8x2x513x1x1024_S8x2x513x1x1024_S8x2x513x4x1024_d3),
    StableHlo.reshape main_v10 main_v11 rfl shapeCasts_S8x2x513x4x1024_S8x2x513x4096,
    StableHlo.unary main_arg1 main_v12 (broadcastInDim S1x1x1x4096 ![3] bcast_S4096_S1x1x1x4096_3 : (⟨S4096, .f32⟩ : BufTy).Contents (Elt F) → (⟨S1x1x1x4096, .f32⟩ : BufTy).Contents (Elt F)),
    StableHlo.unary main_v12 main_v13 (broadcastInDim S8x2x513x4096 ![0, 1, 2, 3] bcast_S1x1x1x4096_S8x2x513x4096_0_1_2_3 : (⟨S1x1x1x4096, .f32⟩ : BufTy).Contents (Elt F) → (⟨S8x2x513x4096, .f32⟩ : BufTy).Contents (Elt F)),
    StableHlo.binary main_v11 main_v13 main_v14 (mulf : (⟨S8x2x513x4096, .f32⟩ : BufTy).Contents (Elt F) → (⟨S8x2x513x4096, .f32⟩ : BufTy).Contents (Elt F) → (⟨S8x2x513x4096, .f32⟩ : BufTy).Contents (Elt F)),
    StableHlo.unary main_v14 main_v15 ((truncf .bf16 · bitsLt_bf16_f32) : (⟨S8x2x513x4096, .f32⟩ : BufTy).Contents (Elt F) → (⟨S8x2x513x4096, .bf16⟩ : BufTy).Contents (Elt F)),
    StableHlo.reshape main_v15 main_v16 rfl shapeCasts_S8x2x513x4096_S16x513x4096,
    StableHlo.unary main_arg2 main_v17 ((truncf .bf16 · bitsLt_bf16_f32) : (⟨S2049x4096, .f32⟩ : BufTy).Contents (Elt F) → (⟨S2049x4096, .bf16⟩ : BufTy).Contents (Elt F)),
    StableHlo.unary main_arg3 main_v18 ((truncf .bf16 · bitsLt_bf16_f32) : (⟨S2049x4096, .f32⟩ : BufTy).Contents (Elt F) → (⟨S2049x4096, .bf16⟩ : BufTy).Contents (Elt F)) ]

/-- The framing's lines are the first nine followed by the last nine. -/
theorem hostOps0_2_split : (Gen.hostOps0_2 : List (HloOp τ sig (Elt F))) = hostOps0_2a ++ hostOps0_2b := rfl

end Split

variable (m : (ℓ : Loc nD τ sig) → Buf (Elt Ideal) ℓ)

def padded (x : FVec Ideal S8x2x524288 .f32) : FVec Ideal S8x2x528384 .f32 :=
  concatenate S8x2x528384 2
    [⟨S8x2x526336, concatenate S8x2x526336 2
        [⟨S8x2x2048, Host.reverse [2] (extractStridedSlice S8x2x2048 ![0, 0, 1] x slices_S8x2x524288_S8x2x2048_0_0_1)⟩,
         ⟨S8x2x524288, x⟩] concatenates_S8x2x2048_S8x2x524288_S8x2x526336_d2⟩,
     ⟨S8x2x2048, Host.reverse [2] (extractStridedSlice S8x2x2048 ![0, 0, 524287]
        (concatenate S8x2x526336 2
          [⟨S8x2x2048, Host.reverse [2] (extractStridedSlice S8x2x2048 ![0, 0, 1] x slices_S8x2x524288_S8x2x2048_0_0_1)⟩,
           ⟨S8x2x524288, x⟩] concatenates_S8x2x2048_S8x2x524288_S8x2x526336_d2)
        slices_S8x2x526336_S8x2x2048_0_0_524287)⟩]
    concatenates_S8x2x526336_S8x2x2048_S8x2x528384_d2

/-- From the stack on, with the contents before it arbitrary: the result is the printed composition of the four
    copies and the window found there. -/
theorem tail_v16 (W : Valuation τ sig (Elt Ideal))
    (u6 u7 u8 u9 : FVec Ideal S8x2x513x1x1024 .f32) (a1 : FVec Ideal S4096 .f32)
    (h6 : W (Proc.devRef .tc main_v6) = u6) (h7 : W (Proc.devRef .tc main_v7) = u7)
    (h8 : W (Proc.devRef .tc main_v8) = u8) (h9 : W (Proc.devRef .tc main_v9) = u9)
    (h1 : W (Proc.devRef .tc main_arg1) = a1) :
    (StableHlo.after (hostOps0_2b (F := Ideal)) W (Proc.devRef .tc main_v16) : S16x513x4096.Idx → EReal)
      = shapeCast S16x513x4096
          (truncf (F := Ideal) (s := S8x2x513x4096) (φ := .f32) .bf16
            (mulf (F := Ideal) (s := S8x2x513x4096) (φ := .f32)
              (shapeCast S8x2x513x4096
                (concatenate S8x2x513x4x1024 3
                  [⟨S8x2x513x1x1024, u6⟩, ⟨S8x2x513x1x1024, u7⟩, ⟨S8x2x513x1x1024, u8⟩, ⟨S8x2x513x1x1024, u9⟩]
                  concatenates_S8x2x513x1x1024_S8x2x513x1x1024_S8x2x513x1x1024_S8x2x513x1x1024_S8x2x513x4x1024_d3)
                shapeCasts_S8x2x513x4x1024_S8x2x513x4096)
              (Cert.Stft.Frames.windowAll a1)) bitsLt_bf16_f32)
          shapeCasts_S8x2x513x4096_S16x513x4096 := by
  subst h6 h7 h8 h9 h1
  after_results
  rfl

/-- The padding lines, with the contents before them arbitrary: the padded signal of what is found at the signal's place. -/
theorem pad_v0 (W : Valuation τ sig (Elt Ideal)) (x : FVec Ideal S8x2x524288 .f32)
    (hx : W (Proc.devRef .tc main_arg0) = x) :
    (StableHlo.after (Gen.hostOps0_1 (F := Ideal)) W (Proc.devRef .tc main_v0) : S8x2x528384.Idx → EReal) = padded x := by
  subst hx
  after_results
  all_goals rfl

/-- The framing's first nine lines, with the contents before them arbitrary: copy 0 of the rows of what is found at the
    padded signal's place. -/
theorem frame_v6 (W : Valuation τ sig (Elt Ideal)) (P : FVec Ideal S8x2x528384 .f32)
    (hP : W (Proc.devRef .tc main_v0) = P) :
    (StableHlo.after (hostOps0_2a (F := Ideal)) W (Proc.devRef .tc main_v6) : S8x2x513x1x1024.Idx → EReal)
      = Cert.Stft.Frames.piece0 P := by
  subst hP
  after_results
  all_goals rfl

/-- The framing's first nine lines, with the contents before them arbitrary: copy 1 of the rows of what is found at the
    padded signal's place. -/
theorem frame_v7 (W : Valuation τ sig (Elt Ideal)) (P : FVec Ideal S8x2x528384 .f32)
    (hP : W (Proc.devRef .tc main_v0) = P) :
    (StableHlo.after (hostOps0_2a (F := Ideal)) W (Proc.devRef .tc main_v7) : S8x2x513x1x1024.Idx → EReal)
      = Cert.Stft.Frames.piece1 P := by
  subst hP
  after_results
  all_goals rfl

/-- The framing's first nine lines, with the contents before them arbitrary: copy 2 of the rows of what is found at the
    padded signal's place. -/
theorem frame_v8 (W : Valuation τ sig (Elt Ideal)) (P : FVec Ideal S8x2x528384 .f32)
    (hP : W (Proc.devRef .tc main_v0) = P) :
    (StableHlo.after (hostOps0_2a (F := Ideal)) W (Proc.devRef .tc main_v8) : S8x2x513x1x1024.Idx → EReal)
      = Cert.Stft.Frames.piece2 P := by
  subst hP
  after_results
  all_goals rfl

/-- The framing's first nine lines, with the contents before them arbitrary: copy 3 of the rows of what is found at the
    padded signal's place. -/
theorem frame_v9 (W : Valuation τ sig (Elt Ideal)) (P : FVec Ideal S8x2x528384 .f32)
    (hP : W (Proc.devRef .tc main_v0) = P) :
    (StableHlo.after (hostOps0_2a (F := Ideal)) W (Proc.devRef .tc main_v9) : S8x2x513x1x1024.Idx → EReal)
      = Cert.Stft.Frames.piece3 P := by
  subst hP
  after_results
  all_goals rfl

/-- These lines do not write this array. -/
theorem keep0_arg0 (W : Valuation τ sig (Elt Ideal)) :
    StableHlo.after (Gen.hostOps0 (F := Ideal)) W (Proc.devRef .tc main_arg0) = W (Proc.devRef .tc main_arg0) := by
  after_results
  all_goals rfl

/-- These lines do not write this array. -/
theorem keep0_arg1 (W : Valuation τ sig (Elt Ideal)) :
    StableHlo.after (Gen.hostOps0 (F := Ideal)) W (Proc.devRef .tc main_arg1) = W (Proc.devRef .tc main_arg1) := by
  after_results
  all_goals rfl

/-- These lines do not write this array. -/
theorem keep1_arg1 (W : Valuation τ sig (Elt Ideal)) :
    StableHlo.after (Gen.hostOps0_1 (F := Ideal)) W (Proc.devRef .tc main_arg1) = W (Proc.devRef .tc main_arg1) := by
  after_results
  all_goals rfl

/-- These lines do not write this array. -/
theorem keep2a_arg1 (W : Valuation τ sig (Elt Ideal)) :
    StableHlo.after (hostOps0_2a (F := Ideal)) W (Proc.devRef .tc main_arg1) = W (Proc.devRef .tc main_arg1) := by
  after_results
  all_goals rfl

/-- The contents when the region is entered, stretch by stretch. -/
theorem V0_split4 (c : Dev nD) :
    V0 m c = StableHlo.after (hostOps0_2b (F := Ideal)) (StableHlo.after (hostOps0_2a (F := Ideal))
      (StableHlo.after (Gen.hostOps0_1 (F := Ideal)) (StableHlo.after (Gen.hostOps0 (F := Ideal)) (fun b => m (c, b))))) := by
  have e : List.flatten [Gen.hostOps0, Gen.hostOps0_1, (Gen.hostOps0_2 : List (HloOp τ sig (Elt Ideal)))]
      = Gen.hostOps0 ++ (Gen.hostOps0_1 ++ (hostOps0_2a ++ hostOps0_2b)) := rfl
  show StableHlo.after (List.flatten [Gen.hostOps0, Gen.hostOps0_1, Gen.hostOps0_2]) _ = _
  rw [e, StableHlo.after_append, StableHlo.after_append, StableHlo.after_append]

/-- The region's first operand: the windowed frames of the padded signal. -/
theorem entry_v16 (c : Dev nD) :
    (V m c main_v16 : S16x513x4096.Idx → EReal)
      = Cert.Stft.Frames.windowed (padded (m ((c : Thread nD τ).loc main_arg0))) (m ((c : Thread nD τ).loc main_arg1)) := by
  show V0 m c (Proc.devRef .tc main_v16) = _
  rw [V0_split4]
  have hx : StableHlo.after (Gen.hostOps0 (F := Ideal)) (fun b => m (c, b)) (Proc.devRef .tc main_arg0)
      = m ((c : Thread nD τ).loc main_arg0) := keep0_arg0 _
  have hP := pad_v0 _ _ hx
  have hw : StableHlo.after (hostOps0_2a (F := Ideal)) (StableHlo.after (Gen.hostOps0_1 (F := Ideal))
      (StableHlo.after (Gen.hostOps0 (F := Ideal)) (fun b => m (c, b)))) (Proc.devRef .tc main_arg1)
      = m ((c : Thread nD τ).loc main_arg1) := (keep2a_arg1 _).trans ((keep1_arg1 _).trans (keep0_arg1 _))
  exact tail_v16 _ _ _ _ _ _ (frame_v6 _ _ hP) (frame_v7 _ _ hP) (frame_v8 _ _ hP) (frame_v9 _ _ hP) hw

/-- Its second operand: the first basis. -/
theorem entry_v17 (c : Dev nD) :
    (V m c main_v17 : S2049x4096.Idx → EReal) = m ((c : Thread nD τ).loc main_arg2) := by
  refine Eq.trans ?_ (Cert.Stft.Frames.basis_apply (m ((c : Thread nD τ).loc main_arg2)))
  dsimp only [V, V0]
  simp only [Gen.hostOps0, Gen.hostOps0_1, Gen.hostOps0_2, List.flatten_cons, List.flatten_nil, List.append_nil, List.cons_append,
    List.nil_append]
  after_results

/-- Its third operand: the second basis. -/
theorem entry_v18 (c : Dev nD) :
    (V m c main_v18 : S2049x4096.Idx → EReal) = m ((c : Thread nD τ).loc main_arg3) := by
  refine Eq.trans ?_ (Cert.Stft.Frames.basis_apply (m ((c : Thread nD τ).loc main_arg3)))
  dsimp only [V, V0]
  simp only [Gen.hostOps0, Gen.hostOps0_1, Gen.hostOps0_2, List.flatten_cons, List.flatten_nil, List.append_nil, List.cons_append,
    List.nil_append]
  after_results

end Cert.KernelIdeal.Val

end
-- ==== Proof.KernelIdeal.Final.lean ====
/-
  The kernel's two results. The output arrays are written back once per batch-channel pair, at its last tile, and the
  block written there holds the whole sums; those blocks tile the arrays, so each array ends holding, at (s, f, r), the
  sum over all 4096 samples of basis(f, n) · windowed(s, r, n). The two reshapes after the region split s back into
  batch and channel, the windowed frames are the padded signal at 1024·r + n times the window, and the bases are the
  arguments themselves: each result is the transform of the specification.
-/
import proofs.«152170_j48576080118713_1_alg».proof.Proof.KernelIdeal.Running
import proofs.«152170_j48576080118713_1_alg».proof.Proof.KernelIdeal.Entry
import Idealize.ShloMosaic.Lib.Pipeline.Value
import Idealize.ShloMosaic.Lib.StableHlo.Run

-- membership in a rectangle of these extents recurses once per coordinate of the long axes
set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- Entry (s, f, r) of the real part before the last reshape: the whole sum. -/
def total0 (c : Dev nD) (s : Fin 16) (f : Fin 2049) (r : Fin 513) : EReal := ∑ n : Fin 4096, term0 m c s f r n
/-- And of the imaginary part. -/
def total1 (c : Dev nD) (s : Fin 16) (f : Fin 2049) (r : Fin 513) : EReal := ∑ n : Fin 4096, term1 m c s f r n

/-- The real part as an array [16, 2049, 513]. -/
def G3 (c : Dev nD) : Buf (Elt Ideal) ((c : Thread nD τ).loc main_v19_0) := fun i => total0 m c (i 0) (i 1) (i 2)
/-- The imaginary part. -/
def G4 (c : Dev nD) : Buf (Elt Ideal) ((c : Thread nD τ).loc main_v19_1) := fun i => total1 m c (i 0) (i 1) (i 2)

theorem G3_apply (c : Dev nD) (s : Fin 16) (f : Fin 2049) (r : Fin 513) : G3 m c (ix3 s f r) = total0 m c s f r := rfl
theorem G4_apply (c : Dev nD) (s : Fin 16) (f : Fin 2049) (r : Fin 513) : G4 m c (ix3 s f r) = total1 m c s f r := rfl

/-! ## What a pair's last tile writes back -/

theorem out3_eq (c : Dev nD) (t : Fin cfg0.N) (h15 : t.val % 16 = 15) :
    ((outsAt0 m c t.val t.isLt).1 : S1x2049x513.Idx → EReal)
      = (((cfg0.win 3).blk t).view.read (Elt Ideal) (G3 m c) : S1x2049x513.Idx → EReal) := by
  have hN : t.val < 256 := lt_of_lt_of_eq t.isLt (show cfg0.N = 256 from N_0)
  funext y
  obtain ⟨z, f, r, rfl⟩ : ∃ (z : Fin 1) (f : Fin 2049) (r : Fin 513), y = ix3 z f r := ⟨y 0, y 1, y 2, eq_ix3 y⟩
  obtain rfl : z = 0 := Subsingleton.elim _ _
  refine ((last_outs m c t h15 ⟨t.val / 16, by omega⟩ rfl f r).1).trans ?_
  exact ((oblk3_apply c t (G3 m c) f r ⟨t.val / 16, by omega⟩ rfl).trans (G3_apply m c _ f r)).symm

theorem out4_eq (c : Dev nD) (t : Fin cfg0.N) (h15 : t.val % 16 = 15) :
    ((outsAt0 m c t.val t.isLt).2.1 : S1x2049x513.Idx → EReal)
      = (((cfg0.win 4).blk t).view.read (Elt Ideal) (G4 m c) : S1x2049x513.Idx → EReal) := by
  have hN : t.val < 256 := lt_of_lt_of_eq t.isLt (show cfg0.N = 256 from N_0)
  funext y
  obtain ⟨z, f, r, rfl⟩ : ∃ (z : Fin 1) (f : Fin 2049) (r : Fin 513), y = ix3 z f r := ⟨y 0, y 1, y 2, eq_ix3 y⟩
  obtain rfl : z = 0 := Subsingleton.elim _ _
  refine ((last_outs m c t h15 ⟨t.val / 16, by omega⟩ rfl f r).2).trans ?_
  exact ((oblk4_apply c t (G4 m c) f r ⟨t.val / 16, by omega⟩ rfl).trans (G4_apply m c _ f r)).symm

theorem flushed_eq3 (c : Dev nD) (t : Fin cfg0.N) (hf : (cfg0.win 3).flush t = true) :
    (dats m 0 c).flushed 3 t = ((cfg0.win 3).blk t).view.read (Elt Ideal) (G3 m c) := by
  have h15 : t.val % 16 = 15 := (flush0_3 t).mp hf
  show (cfg0.win 3).cut (grid0.coords t) ((dats m 0 c).after 3 t) = _
  rw [after0_3]
  exact out3_eq m c t h15

theorem flushed_eq4 (c : Dev nD) (t : Fin cfg0.N) (hf : (cfg0.win 4).flush t = true) :
    (dats m 0 c).flushed 4 t = ((cfg0.win 4).blk t).view.read (Elt Ideal) (G4 m c) := by
  have h15 : t.val % 16 = 15 := (flush0_4 t).mp hf
  show (cfg0.win 4).cut (grid0.coords t) ((dats m 0 c).after 4 t) = _
  rw [after0_4]
  exact out4_eq m c t h15

/-! ## The blocks written back tile the arrays -/

theorem final3 (c : Dev nD) : (dats m 0 c).arrAt 3 cfg0.N = G3 m c :=
  (dats m 0 c).arrAt_eq_of_cover 3 (G3 m c) (flushed_eq3 m c) fun i => by
    have hi : (i 0).val < 16 := (i 0).isLt
    exact ⟨⟨16 * (i 0).val + 15, by rw [show cfg0.N = 256 from N_0]; omega⟩,
      (flush0_3 _).mpr (by show (16 * (i 0).val + 15) % 16 = 15; omega),
      mem_blk3 c _ i (by show (i 0).val = (16 * (i 0).val + 15) / 16; omega)⟩

theorem final4 (c : Dev nD) : (dats m 0 c).arrAt 4 cfg0.N = G4 m c :=
  (dats m 0 c).arrAt_eq_of_cover 4 (G4 m c) (flushed_eq4 m c) fun i => by
    have hi : (i 0).val < 16 := (i 0).isLt
    exact ⟨⟨16 * (i 0).val + 15, by rw [show cfg0.N = 256 from N_0]; omega⟩,
      (flush0_4 _).mpr (by show (16 * (i 0).val + 15) % 16 = 15; omega),
      mem_blk4 c _ i (by show (i 0).val = (16 * (i 0).val + 15) / 16; omega)⟩

/-! ## The whole sums are the transform -/

theorem total0_eq (c : Dev nD) (s : Fin 16) (b : Fin 8) (c' : Fin 2) (hs : s.val = b.val * 2 + c'.val) (f : Fin 2049) (r : Fin 513) :
    total0 m c s f r = Cert.Stft.spectrumAt (padded (m ((c : Thread nD τ).loc main_arg0))) (m ((c : Thread nD τ).loc main_arg1)) (m ((c : Thread nD τ).loc main_arg2)) b c' f r := by
  unfold total0 Cert.Stft.spectrumAt
  refine Finset.sum_congr rfl fun n _ => ?_
  have e1 : basis0 m c (ix2 f n) = m ((c : Thread nD τ).loc main_arg2) (ix2 f n) := congrFun (entry_v17 m c) (ix2 f n)
  have e2 : frames16 m c (ix3 s r n)
      = padded (m ((c : Thread nD τ).loc main_arg0)) (ix3 b c' (Cert.Stft.pos r n)) * m ((c : Thread nD τ).loc main_arg1) (ix1 n) :=
    (congrFun (entry_v16 m c) (ix3 s r n)).trans (Cert.Stft.Frames.windowed_apply _ _ s b c' r n hs)
  show basis0 m c (ix2 f n) * frames16 m c (ix3 s r n) = _
  rw [e1, e2]

theorem total1_eq (c : Dev nD) (s : Fin 16) (b : Fin 8) (c' : Fin 2) (hs : s.val = b.val * 2 + c'.val) (f : Fin 2049) (r : Fin 513) :
    total1 m c s f r = Cert.Stft.spectrumAt (padded (m ((c : Thread nD τ).loc main_arg0))) (m ((c : Thread nD τ).loc main_arg1)) (m ((c : Thread nD τ).loc main_arg3)) b c' f r := by
  unfold total1 Cert.Stft.spectrumAt
  refine Finset.sum_congr rfl fun n _ => ?_
  have e1 : basis1 m c (ix2 f n) = m ((c : Thread nD τ).loc main_arg3) (ix2 f n) := congrFun (entry_v18 m c) (ix2 f n)
  have e2 : frames16 m c (ix3 s r n)
      = padded (m ((c : Thread nD τ).loc main_arg0)) (ix3 b c' (Cert.Stft.pos r n)) * m ((c : Thread nD τ).loc main_arg1) (ix1 n) :=
    (congrFun (entry_v16 m c) (ix3 s r n)).trans (Cert.Stft.Frames.windowed_apply _ _ s b c' r n hs)
  show basis1 m c (ix2 f n) * frames16 m c (ix3 s r n) = _
  rw [e1, e2]

/-! ## The two reshapes after the region -/

/-- After the region, result 0 is the array the region left, with its leading axis split into batch and channel. -/
theorem tail_v20_whole (c : Dev nD) :
    Pipeline.afterTail₀ cfgs (dats m) 0 (V0 m) [hostOps1] c main_v20
      = shapeCast S8x2x2049x513 (G3 m c) shapeCasts_S16x2049x513_S8x2x2049x513 := by
  unfold Pipeline.afterTail₀
  show StableHlo.after hostOps1 _ (Proc.devRef .tc main_v20) = _
  after_results
  rw [Pipeline.withArrays_arr spec0 launch0.win.arr_inj c _ _ 3, final3 m c]
  rfl

theorem tail_v20 (c : Dev nD) :
    Pipeline.afterTail₀ cfgs (dats m) 0 (V0 m) [hostOps1] c main_v20
      = Cert.Stft.spectrum (padded (m ((c : Thread nD τ).loc main_arg0))) (m ((c : Thread nD τ).loc main_arg1)) (m ((c : Thread nD τ).loc main_arg2)) := by
  rw [tail_v20_whole]
  funext i
  obtain ⟨b, c', f, r, rfl⟩ : ∃ (b : Fin 8) (c' : Fin 2) (f : Fin 2049) (r : Fin 513), i = ix4 b c' f r := ⟨i 0, i 1, i 2, i 3, eq_ix4 i⟩
  have hb := b.isLt; have hc := c'.isLt
  refine (Cert.Stft.Frames.unmerged_apply (G3 m c) ⟨b.val * 2 + c'.val, by omega⟩ b c' f r rfl).trans ?_
  exact (total0_eq m c _ b c' rfl f r)

/-- After the region, result 1 is the array the region left, with its leading axis split into batch and channel. -/
theorem tail_v21_whole (c : Dev nD) :
    Pipeline.afterTail₀ cfgs (dats m) 0 (V0 m) [hostOps1] c main_v21
      = shapeCast S8x2x2049x513 (G4 m c) shapeCasts_S16x2049x513_S8x2x2049x513 := by
  unfold Pipeline.afterTail₀
  show StableHlo.after hostOps1 _ (Proc.devRef .tc main_v21) = _
  after_results
  rw [Pipeline.withArrays_arr spec0 launch0.win.arr_inj c _ _ 4, final4 m c]
  rfl

theorem tail_v21 (c : Dev nD) :
    Pipeline.afterTail₀ cfgs (dats m) 0 (V0 m) [hostOps1] c main_v21
      = Cert.Stft.spectrum (padded (m ((c : Thread nD τ).loc main_arg0))) (m ((c : Thread nD τ).loc main_arg1)) (m ((c : Thread nD τ).loc main_arg3)) := by
  rw [tail_v21_whole]
  funext i
  obtain ⟨b, c', f, r, rfl⟩ : ∃ (b : Fin 8) (c' : Fin 2) (f : Fin 2049) (r : Fin 513), i = ix4 b c' f r := ⟨i 0, i 1, i 2, i 3, eq_ix4 i⟩
  have hb := b.isLt; have hc := c'.isLt
  refine (Cert.Stft.Frames.unmerged_apply (G4 m c) ⟨b.val * 2 + c'.val, by omega⟩ b c' f r rfl).trans ?_
  exact (total1_eq m c _ b c' rfl f r)

/-! ## The run, read -/

/-- At the ideal values the kernel runs to its end; its two results are the transforms of the padded signal against the
    two bases, and its four arguments end as launched. -/
theorem run : θ_run (defs (F := Ideal)) (onTc (τ := τ) (main (F := Ideal))) ⟨m, fun _ => 0, ρ⟩ (fun r => ∀ c : Dev nD,
      r.2.mem ((c.tc : Thread nD τ).loc main_v20) = Cert.Stft.spectrum (padded (m ((c.tc : Thread nD τ).loc main_arg0))) (m ((c.tc : Thread nD τ).loc main_arg1)) (m ((c.tc : Thread nD τ).loc main_arg2))
      ∧ r.2.mem ((c.tc : Thread nD τ).loc main_v21) = Cert.Stft.spectrum (padded (m ((c.tc : Thread nD τ).loc main_arg0))) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v20 (Pipeline.mem_restRefs_of main_v20 (by decide) (by decide))).trans (tail_v20 m c),
      ((h c).2 main_v21 (Pipeline.mem_restRefs_of main_v21 (by decide) (by decide))).trans (tail_v21 m c),
      ((h c).2 main_arg0 (Pipeline.mem_restRefs_of main_arg0 (by decide) (by decide))).trans (tail_main_arg0 m (dats m) c),
      ((h c).2 main_arg1 (Pipeline.mem_restRefs_of main_arg1 (by decide) (by decide))).trans (tail_main_arg1 m (dats m) c),
      ((h c).2 main_arg2 (Pipeline.mem_restRefs_of main_arg2 (by decide) (by decide))).trans (tail_main_arg2 m (dats m) c),
      ((h c).2 main_arg3 (Pipeline.mem_restRefs_of main_arg3 (by decide) (by decide))).trans (tail_main_arg3 m (dats m) c)⟩)
    (run_main (F := Ideal) m ρ)

end Cert.KernelIdeal.Val

end
-- ==== Proof.RefRun.lean ====
/-
  The reference program as a straight line of host operations, and what it leaves in its two result arrays.

  The program pads each (batch, channel) signal of 524288 samples by reflection (2048 samples on each side, built from
  two slices, two reversals and two concatenations), gathers 513 overlapping frames of 4096 samples (frame t starting at
  sample 1024·t of the padded signal), multiplies every frame by the window, contracts the 4096 samples of a frame
  against the rows of a basis (once for the cosine basis, once for the sine basis), and transposes the result to
  [batch, channel, frequency, frame]. Here the run is read back: both results are named functions of the three
  arrays they depend on, and the four argument arrays end as they started.
-/
import proofs.«152170_j48576080118713_1_alg».proof.ReferenceIdeal
import proofs.«152170_j48576080118713_1_alg».proof.Proof.Gen.ReferenceIdeal
import proofs.«152170_j48576080118713_1_alg».proof.Proof.Spec
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable [Facts]
open Facts₀ Facts

/-! ## The pure terms -/

/-- The reflect-padded signal: 2048 mirrored samples, the signal, 2048 mirrored samples. The left margin is samples
    1 … 2048 reversed; the right margin is the last 2048 samples before the final one, reversed. -/
def padded (x : FVec Ideal S8x2x524288 .f32) : FVec Ideal S8x2x528384 .f32 :=
  concatenate S8x2x528384 2
    [⟨S8x2x526336, concatenate S8x2x526336 2
        [⟨S8x2x2048, Host.reverse [2] (extractStridedSlice S8x2x2048 ![0, 0, 1] x slices_S8x2x524288_S8x2x2048_0_0_1)⟩,
         ⟨S8x2x524288, x⟩] concatenates_S8x2x2048_S8x2x524288_S8x2x526336_d2⟩,
     ⟨S8x2x2048, Host.reverse [2] (extractStridedSlice S8x2x2048 ![0, 0, 524287]
        (concatenate S8x2x526336 2
          [⟨S8x2x2048, Host.reverse [2] (extractStridedSlice S8x2x2048 ![0, 0, 1] x slices_S8x2x524288_S8x2x2048_0_0_1)⟩,
           ⟨S8x2x524288, x⟩] concatenates_S8x2x2048_S8x2x524288_S8x2x526336_d2)
        slices_S8x2x526336_S8x2x2048_0_0_524287)⟩]
    concatenates_S8x2x526336_S8x2x2048_S8x2x528384_d2

/-- The sample position of (frame, sample) as the program computes it, in 32-bit integers: frame · 1024 + sample. -/
def framePos : IVec S513x4096 32 :=
  addi
    (broadcastInDim S513x4096 ![0, 1] bcast_S513x1_S513x4096_0_1
      (muli (broadcastInDim S513x1 ![0] bcast_S513_S513x1_0 (iotaInDim S513 32 0))
        (broadcastInDim S513x1 ![] bcast_S_S513x1 (constantI S_ 32 1024#32))))
    (broadcastInDim S513x4096 ![0, 1] bcast_S1x4096_S513x4096_0_1
      (broadcastInDim S1x4096 ![1] bcast_S4096_S1x4096_1 (iotaInDim S4096 32 0)))

/-- The start indices handed to the gather: a negative position is wrapped by the axis length (none is), and a trailing
    unit axis is added. -/
def startIdx : IVec S513x4096x1 32 :=
  broadcastInDim S513x4096x1 ![0, 1] bcast_S513x4096_S513x4096x1_0_1
    (select (cmpi .slt framePos (broadcastInDim S513x4096 ![] bcast_S_S513x4096 (constantI S_ 32 0#32)))
      (addi framePos (broadcastInDim S513x4096 ![] bcast_S_S513x4096 (constantI S_ 32 528384#32)))
      framePos)

/-- The windowed frames of a padded signal \`P\`: entry (b, c, t, n) is sample n of frame t, times the window at n. -/
def windowed (P : FVec Ideal S8x2x528384 .f32) (w : FVec Ideal S4096 .f32) : FVec Ideal S8x2x513x4096 .f32 :=
  mulf (Host.gather gather_S8x2x528384_S513x4096x1_S8x2x513x4096_01_2_n_n_2_2_821 P startIdx)
    (broadcastInDim S8x2x513x4096 ![0, 1, 2, 3] bcast_S1x1x1x4096_S8x2x513x4096_0_1_2_3
      (broadcastInDim S1x1x1x4096 ![3] bcast_S4096_S1x1x1x4096_3 w))

/-- One result of the program: the windowed frames contracted against a basis over the sample axis, laid out
    [batch, channel, frequency, frame]. -/
def result (x : FVec Ideal S8x2x524288 .f32) (w : FVec Ideal S4096 .f32) (B : FVec Ideal S2049x4096 .f32) :
    FVec Ideal S8x2x2049x513 .f32 :=
  transpose S8x2x2049x513 [1, 2, 0, 3]
    (Host.dotGeneral (F := Ideal) dot_S2049x4096_S8x2x513x4096_S2049x8x2x513_1_3_0_012_n_n none B (windowed (padded x) w))
    transposes_S2049x8x2x513_S8x2x2049x513_1_2_0_3

/-! ## The program as a list of operations -/

variable {F : FTy → Type} [FloatOps F]

/-- The program's 35 operations in order, the padding function's eight written out at its call over the call's own
    buffers (each reversal is the flip function's one operation). -/
abbrev ops : List (HloOp τ sig (Elt F)) :=
  [ nullary main_c (constantI S_ 32 0#32),
    TRef.unary (.of main_arg0 : TRef sig ⟨S8x2x524288, .f32⟩) main_call0.v0 (extractStridedSlice S8x2x1 ![0, 0, 0] · slices_S8x2x524288_S8x2x1_0_0_0),
    TRef.unary (.of main_arg0 : TRef sig ⟨S8x2x524288, .f32⟩) main_call0.v1 (extractStridedSlice S8x2x2048 ![0, 0, 1] · slices_S8x2x524288_S8x2x2048_0_0_1),
    TRef.unary main_call0.v1 main_call0.call0.v0 (Host.reverse [2]),
    TRef.binary main_call0.call0.v0 (.of main_arg0 : TRef sig ⟨S8x2x524288, .f32⟩) main_call0.v3 (fun a b => concatenate S8x2x526336 2 [⟨S8x2x2048, a⟩, ⟨S8x2x524288, b⟩] concatenates_S8x2x2048_S8x2x524288_S8x2x526336_d2),
    TRef.unary main_call0.v3 main_call0.v4 (extractStridedSlice S8x2x1 ![0, 0, 526335] · slices_S8x2x526336_S8x2x1_0_0_526335),
    TRef.unary main_call0.v3 main_call0.v5 (extractStridedSlice S8x2x2048 ![0, 0, 524287] · slices_S8x2x526336_S8x2x2048_0_0_524287),
    TRef.unary main_call0.v5 main_call0.call1.v0 (Host.reverse [2]),
    TRef.binary main_call0.v3 main_call0.call1.v0 main_call0.v7 (fun a b => concatenate S8x2x528384 2 [⟨S8x2x526336, a⟩, ⟨S8x2x2048, b⟩] concatenates_S8x2x526336_S8x2x2048_S8x2x528384_d2),
    nullary main_v1 (iotaInDim S513 32 0),
    unary main_v1 main_v2 (broadcastInDim S513x1 ![0] bcast_S513_S513x1_0 : (⟨S513, .i32⟩ : BufTy).Contents (Elt F) → (⟨S513x1, .i32⟩ : BufTy).Contents (Elt F)),
    nullary main_c_0 (constantI S_ 32 1024#32),
    unary main_c_0 main_v3 (broadcastInDim S513x1 ![] bcast_S_S513x1 : (⟨S_, .i32⟩ : BufTy).Contents (Elt F) → (⟨S513x1, .i32⟩ : BufTy).Contents (Elt F)),
    binary main_v2 main_v3 main_v4 (muli : (⟨S513x1, .i32⟩ : BufTy).Contents (Elt F) → (⟨S513x1, .i32⟩ : BufTy).Contents (Elt F) → (⟨S513x1, .i32⟩ : BufTy).Contents (Elt F)),
    nullary main_v5 (iotaInDim S4096 32 0),
    unary main_v5 main_v6 (broadcastInDim S1x4096 ![1] bcast_S4096_S1x4096_1 : (⟨S4096, .i32⟩ : BufTy).Contents (Elt F) → (⟨S1x4096, .i32⟩ : BufTy).Contents (Elt F)),
    unary main_v4 main_v7 (broadcastInDim S513x4096 ![0, 1] bcast_S513x1_S513x4096_0_1 : (⟨S513x1, .i32⟩ : BufTy).Contents (Elt F) → (⟨S513x4096, .i32⟩ : BufTy).Contents (Elt F)),
    unary main_v6 main_v8 (broadcastInDim S513x4096 ![0, 1] bcast_S1x4096_S513x4096_0_1 : (⟨S1x4096, .i32⟩ : BufTy).Contents (Elt F) → (⟨S513x4096, .i32⟩ : BufTy).Contents (Elt F)),
    binary main_v7 main_v8 main_v9 (addi : (⟨S513x4096, .i32⟩ : BufTy).Contents (Elt F) → (⟨S513x4096, .i32⟩ : BufTy).Contents (Elt F) → (⟨S513x4096, .i32⟩ : BufTy).Contents (Elt F)),
    nullary main_c_1 (constantI S_ 32 0#32),
    unary main_c_1 main_v10 (broadcastInDim S513x4096 ![] bcast_S_S513x4096 : (⟨S_, .i32⟩ : BufTy).Contents (Elt F) → (⟨S513x4096, .i32⟩ : BufTy).Contents (Elt F)),
    binary main_v9 main_v10 main_v11 (cmpi .slt : (⟨S513x4096, .i32⟩ : BufTy).Contents (Elt F) → (⟨S513x4096, .i32⟩ : BufTy).Contents (Elt F) → (⟨S513x4096, .i1⟩ : BufTy).Contents (Elt F)),
    nullary main_c_2 (constantI S_ 32 528384#32),
    unary main_c_2 main_v12 (broadcastInDim S513x4096 ![] bcast_S_S513x4096 : (⟨S_, .i32⟩ : BufTy).Contents (Elt F) → (⟨S513x4096, .i32⟩ : BufTy).Contents (Elt F)),
    binary main_v9 main_v12 main_v13 (addi : (⟨S513x4096, .i32⟩ : BufTy).Contents (Elt F) → (⟨S513x4096, .i32⟩ : BufTy).Contents (Elt F) → (⟨S513x4096, .i32⟩ : BufTy).Contents (Elt F)),
    ternary main_v11 main_v13 main_v9 main_v14 (select : (⟨S513x4096, .i1⟩ : BufTy).Contents (Elt F) → (⟨S513x4096, .i32⟩ : BufTy).Contents (Elt F) → (⟨S513x4096, .i32⟩ : BufTy).Contents (Elt F) → (⟨S513x4096, .i32⟩ : BufTy).Contents (Elt F)),
    unary main_v14 main_v15 (broadcastInDim S513x4096x1 ![0, 1] bcast_S513x4096_S513x4096x1_0_1 : (⟨S513x4096, .i32⟩ : BufTy).Contents (Elt F) → (⟨S513x4096x1, .i32⟩ : BufTy).Contents (Elt F)),
    binary main_v0 main_v15 main_v16 ((fun x i => Host.gather gather_S8x2x528384_S513x4096x1_S8x2x513x4096_01_2_n_n_2_2_821 x i) : (⟨S8x2x528384, .f32⟩ : BufTy).Contents (Elt F) → (⟨S513x4096x1, .i32⟩ : BufTy).Contents (Elt F) → (⟨S8x2x513x4096, .f32⟩ : BufTy).Contents (Elt F)),
    unary main_arg1 main_v17 (broadcastInDim S1x1x1x4096 ![3] bcast_S4096_S1x1x1x4096_3 : (⟨S4096, .f32⟩ : BufTy).Contents (Elt F) → (⟨S1x1x1x4096, .f32⟩ : BufTy).Contents (Elt F)),
    unary main_v17 main_v18 (broadcastInDim S8x2x513x4096 ![0, 1, 2, 3] bcast_S1x1x1x4096_S8x2x513x4096_0_1_2_3 : (⟨S1x1x1x4096, .f32⟩ : BufTy).Contents (Elt F) → (⟨S8x2x513x4096, .f32⟩ : BufTy).Contents (Elt F)),
    binary main_v16 main_v18 main_v19 (mulf : (⟨S8x2x513x4096, .f32⟩ : BufTy).Contents (Elt F) → (⟨S8x2x513x4096, .f32⟩ : BufTy).Contents (Elt F) → (⟨S8x2x513x4096, .f32⟩ : BufTy).Contents (Elt F)),
    binary main_arg2 main_v19 main_v20 ((fun l r => Host.dotGeneral dot_S2049x4096_S8x2x513x4096_S2049x8x2x513_1_3_0_012_n_n none l r) : (⟨S2049x4096, .f32⟩ : BufTy).Contents (Elt F) → (⟨S8x2x513x4096, .f32⟩ : BufTy).Contents (Elt F) → (⟨S2049x8x2x513, .f32⟩ : BufTy).Contents (Elt F)),
    unary main_v20 main_v21 ((transpose S8x2x2049x513 [1, 2, 0, 3] · transposes_S2049x8x2x513_S8x2x2049x513_1_2_0_3) : (⟨S2049x8x2x513, .f32⟩ : BufTy).Contents (Elt F) → (⟨S8x2x2049x513, .f32⟩ : BufTy).Contents (Elt F)),
    binary main_arg3 main_v19 main_v22 ((fun l r => Host.dotGeneral dot_S2049x4096_S8x2x513x4096_S2049x8x2x513_1_3_0_012_n_n none l r) : (⟨S2049x4096, .f32⟩ : BufTy).Contents (Elt F) → (⟨S8x2x513x4096, .f32⟩ : BufTy).Contents (Elt F) → (⟨S2049x8x2x513, .f32⟩ : BufTy).Contents (Elt F)),
    unary main_v22 main_v23 ((transpose S8x2x2049x513 [1, 2, 0, 3] · transposes_S2049x8x2x513_S8x2x2049x513_1_2_0_3) : (⟨S2049x8x2x513, .f32⟩ : BufTy).Contents (Elt F) → (⟨S8x2x2049x513, .f32⟩ : BufTy).Contents (Elt F)) ]

-- thirty-five binds re-associated, the two functions' bodies opened at their calls
set_option maxRecDepth 2048 in
/-- The program is that straight line: the functions' definitions unfolded at their calls, both sides are one chain of
    steps once sequencing is reassociated. -/
theorem main_eq (c : Dev nD) : main (F := F) c = seq ops := by
  simp only [main, fn_pad.body, fn_flip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub ..,
    nullary_bufs_sub .., unary_bufs_sub .., nullary_bufs_sub .., unary_bufs_sub .., binary_bufs_sub .., nullary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., binary_bufs_sub .., unary_bufs_sub ..,
    binary_bufs_sub .., unary_bufs_sub ..⟩

/-- Every weakly fair execution terminates with each buffer at the fold of the operations over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the results hold -/

section Results

/-- The first result array after the line: the cosine-basis contraction of the windowed frames of the padded input. -/
theorem v21_eq (V : Valuation τ sig (Elt Ideal)) :
    after ops V (main_v21 : DevRef τ sig)
      = result (V (main_arg0 : DevRef τ sig)) (V (main_arg1 : DevRef τ sig)) (V (main_arg2 : DevRef τ sig)) := by
  after_results_simp
  rfl

/-- The second result array after the line: the same with the sine basis. -/
theorem v23_eq (V : Valuation τ sig (Elt Ideal)) :
    after ops V (main_v23 : DevRef τ sig)
      = result (V (main_arg0 : DevRef τ sig)) (V (main_arg1 : DevRef τ sig)) (V (main_arg3 : DevRef τ sig)) := by
  after_results_simp
  rfl

/-- No operation writes an argument array. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- At the ideal values, from any memory with zero counters: every weakly fair execution of the program terminates with
    its two results at \`result\` of the padded-and-framed input, the window and the respective basis, and the four
    argument arrays unchanged. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21)
          = result (m ((c.tc : Thread nD τ).loc main_arg0)) (m ((c.tc : Thread nD τ).loc main_arg1)) (m ((c.tc : Thread nD τ).loc main_arg2))
      ∧ r.2.mem ((c.tc : Thread nD τ).loc main_v23)
          = result (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v21).trans (v21_eq _), (h c main_v23).trans (v23_eq _),
        (h c main_arg0).trans (arg0_eq _), (h c main_arg1).trans (arg1_eq _),
        (h c main_arg2).trans (arg2_eq _), (h c main_arg3).trans (arg3_eq _)⟩)
    (run_main m ρ)

end Results

end Cert.ReferenceIdeal.Hand

end
-- ==== Proof.RefValue.lean ====
/-
  The reference program's results, read index by index, are the short-time Fourier sum of the padded signal.

  Entry (b, c, f, t) of a result is, reading the operations from the last to the first: the transpose moves it to
  entry (f, b, c, t) of the contraction, which is the sum over the 4096 samples n of basis(f, n) times the windowed
  frame entry (b, c, t, n); that entry is the gathered sample times the window at n; the gathered sample is the padded
  signal at the start index computed for (t, n), clamped into the axis. The start index is computed in 32-bit integers
  as t · 1024 + n, which is at most 528383, so the arithmetic does not wrap, the index is not negative (the wrap-around
  branch of the select is not taken) and the clamp does nothing: the sample read is the padded signal at 1024·t + n.
-/
import proofs.«152170_j48576080118713_1_alg».proof.Proof.RefRun
import Idealize.ShloMosaic.Lib.ValueIdx
import Idealize.ShloMosaic.Lib.Pipeline.Value
import Idealize.ShloMosaic.PureOps.Ideal.Laws
import Idealize.ShloMosaic.Lib.ValueLayout

noncomputable section

namespace Cert.ReferenceIdeal.Hand

open Cert.ReferenceIdeal Idealize.ShloMosaic Idealize.ShloMosaic.ValueIdx Idealize.SL.Sem

variable [Facts]
open Facts₀ Facts

/-! ## The start index -/

/-- The position computed for (frame t, sample n) is the 32-bit word of 1024·t + n: the two products and the sum are
    taken modulo 2³², and a word of a sum or product is the sum or product of the words. -/
theorem framePos_apply (t : Fin 513) (n : Fin 4096) :
    framePos (ix2 t n) = BitVec.ofNat 32 (1024 * t.val + n.val) := by
  show BitVec.ofNat 32 t.val * 1024#32 + BitVec.ofNat 32 n.val = _
  rw [← BitVec.ofNat_mul, ← BitVec.ofNat_add, Nat.mul_comm]

/-- A natural number below 528384 (far below 2³¹) read as a signed 32-bit word is itself. -/
theorem word_toInt (p : Nat) (hp : p < 528384) : (BitVec.ofNat 32 p).toInt = (p : Int) := by
  rw [BitVec.toInt_eq_toNat_cond, BitVec.toNat_ofNat]
  have : p % 2 ^ 32 = p := Nat.mod_eq_of_lt (by omega)
  rw [this, if_pos (by omega)]

/-- The start index of (t, n): the position is not negative as a signed word, so the select keeps it. -/
theorem startIdx_apply (t : Fin 513) (n : Fin 4096) :
    startIdx (ix3 t n (0 : Fin 1)) = BitVec.ofNat 32 (1024 * t.val + n.val) := by
  show Scalar.select (IntOp.cmpi .slt (framePos (ix2 t n)) 0#32) (IntOp.addi (framePos (ix2 t n)) 528384#32) (framePos (ix2 t n)) = _
  rw [framePos_apply]
  have h : IntOp.cmpi .slt (BitVec.ofNat 32 (1024 * t.val + n.val)) 0#32 = 0#1 := by
    show BitVec.ofBool (BitVec.slt _ _) = _
    have hp : 1024 * t.val + n.val < 528384 := by omega
    have h0 : (0#32 : BitVec 32).toInt = 0 := by decide
    rw [BitVec.slt, word_toInt _ hp, h0, decide_eq_false (by omega)]
    rfl
  rw [h, select_zero]

/-! ## The gather -/

/-- The gather's dimension numbers, under a short name. -/
abbrev gd := gather_S8x2x528384_S513x4096x1_S8x2x513x4096_01_2_n_n_2_2_821

/-- The gathered array at (b, c, t, n) is the padded signal at (b, c, 1024·t + n): on the two leading axes the operand
    index is the result's offset coordinate (no start index, no batching); on the sample axis it is the start index of
    (t, n) read signed and clamped into [0, 528383], and 1024·t + n is already in that range. -/
theorem gather_apply (P : FVec Ideal S8x2x528384 .f32) (b : Fin 8) (c : Fin 2) (t : Fin 513) (n : Fin 4096) :
    Host.gather gather_S8x2x528384_S513x4096x1_S8x2x513x4096_01_2_n_n_2_2_821 P startIdx (ix4 b c t n)
      = P (ix3 b c (Cert.Stft.pos t n)) := by
  unfold Host.gather
  refine congrArg P (funext fun a => Fin.ext ?_)
  show gd.start (ix4 b c t n) startIdx a + gd.batchCoord (ix4 b c t n) a + gd.offCoord (ix4 b c t n) a = _
  rw [GatherDims.batchCoord_eq_zero _ _ _ List.not_mem_nil]
  match a with
  | ⟨0, _⟩ =>
    have h1 : gd.start (ix4 b c t n) startIdx ⟨0, by decide⟩ = 0 := by
      unfold GatherDims.start; rw [dif_neg (by decide)]
    have h2 : gd.offCoord (ix4 b c t n) ⟨0, by decide⟩ = b.val := rfl
    rw [h1, h2]; show 0 + 0 + b.val = b.val; omega
  | ⟨1, _⟩ =>
    have h1 : gd.start (ix4 b c t n) startIdx ⟨1, by decide⟩ = 0 := by
      unfold GatherDims.start; rw [dif_neg (by decide)]
    have h2 : gd.offCoord (ix4 b c t n) ⟨1, by decide⟩ = c.val := rfl
    rw [h1, h2]; show 0 + 0 + c.val = c.val; omega
  | ⟨2, _⟩ =>
    have h2 : gd.offCoord (ix4 b c t n) ⟨2, by decide⟩ = 0 := rfl
    rw [h2, Nat.add_zero]
    unfold GatherDims.start
    rw [dif_pos (show (⟨2, by decide⟩ : Fin 3) ∈ gd.startIndexMap from List.mem_singleton.mpr rfl)]
    have hsi : gd.siIdx (ix4 b c t n) ⟨List.idxOf (⟨2, by decide⟩ : Fin 3) gd.startIndexMap,
        List.idxOf_lt_length_iff.2 (List.mem_singleton.mpr rfl)⟩ = ix3 t n (0 : Fin 1) := by
      funext d; refine Fin.ext ?_
      match d with
      | ⟨0, _⟩ => rfl
      | ⟨1, _⟩ => rfl
      | ⟨2, _⟩ => rfl
    rw [hsi, startIdx_apply, word_toInt _ (by omega)]
    show min ((1024 * t.val + n.val : Nat) : Int).toNat (528384 - 1) = 1024 * t.val + n.val
    omega

/-! ## The window, the frames -/

/-- The window broadcast to the frames' shape reads the window at the sample coordinate. -/
theorem window_apply (w : FVec Ideal S4096 .f32) (b : Fin 8) (c : Fin 2) (t : Fin 513) (n : Fin 4096) :
    broadcastInDim S8x2x513x4096 ![0, 1, 2, 3] bcast_S1x1x1x4096_S8x2x513x4096_0_1_2_3
      (broadcastInDim S1x1x1x4096 ![3] bcast_S4096_S1x1x1x4096_3 w) (ix4 b c t n) = w (ix1 n) := by
  refine (broadcastInDim_apply _ _ _ (ix4 b c t n) (ix4 (0 : Fin 1) (0 : Fin 1) (0 : Fin 1) n) fun a => ?_).trans ?_
  · match a with
    | ⟨0, _⟩ => rfl
    | ⟨1, _⟩ => rfl
    | ⟨2, _⟩ => rfl
    | ⟨3, _⟩ => rfl
  · exact broadcastInDim_apply _ _ _ _ (ix1 n) fun a => by
      match a with
      | ⟨0, _⟩ => rfl

/-- The windowed frames at (b, c, t, n): sample 1024·t + n of the signal times the window at n. -/
theorem windowed_apply (P : FVec Ideal S8x2x528384 .f32) (w : FVec Ideal S4096 .f32)
    (b : Fin 8) (c : Fin 2) (t : Fin 513) (n : Fin 4096) :
    windowed P w (ix4 b c t n) = P (ix3 b c (Cert.Stft.pos t n)) * w (ix1 n) := by
  show Host.gather gather_S8x2x528384_S513x4096x1_S8x2x513x4096_01_2_n_n_2_2_821 P startIdx (ix4 b c t n)
      * broadcastInDim S8x2x513x4096 ![0, 1, 2, 3] bcast_S1x1x1x4096_S8x2x513x4096_0_1_2_3
          (broadcastInDim S1x1x1x4096 ![3] bcast_S4096_S1x1x1x4096_3 w) (ix4 b c t n) = _
  rw [gather_apply, window_apply]

/-! ## The contraction -/

/-- The contraction's dimension numbers, under a short name. -/
abbrev dd := dot_S2049x4096_S8x2x513x4096_S2049x8x2x513_1_3_0_012_n_n

/-- The contraction at (f, b, c, t): the sum over the sample coordinate of basis(f, n) · frames(b, c, t, n). The one
    contracted axis has 4096 positions; the sum over the contraction's index set is re-indexed along the bijection with
    them, and the two operand indices are read off coordinate by coordinate. -/
theorem dot_apply (B : FVec Ideal S2049x4096 .f32) (W : FVec Ideal S8x2x513x4096 .f32)
    (f : Fin 2049) (b : Fin 8) (c : Fin 2) (t : Fin 513) :
    Host.dotGeneral (F := Ideal) dot_S2049x4096_S8x2x513x4096_S2049x8x2x513_1_3_0_012_n_n none B W (ix4 f b c t)
      = ∑ n : Fin 4096, B (ix2 f n) * W (ix4 b c t n) := by
  show FloatOps.dotGeneral dd none _ B W (ix4 f b c t) = _
  rw [Ideal.dotGeneral_apply, ← Equiv.sum_comp (contrEquiv1 dd 4096 rfl rfl).symm]
  refine Finset.sum_congr rfl fun n _ => ?_
  have c1 := contrEquiv1_symm_val dd 4096 rfl rfl n
  have l : dd.lhsIdx (ix4 f b c t) ((contrEquiv1 dd 4096 rfl rfl).symm n) = ix2 f n := by
    funext ax; apply Fin.ext
    match ax with
    | ⟨0, _⟩ => simp [DotDims.lhsIdx, dot_S2049x4096_S8x2x513x4096_S2049x8x2x513_1_3_0_012_n_n]; rfl
    | ⟨1, _⟩ => simp [DotDims.lhsIdx, dot_S2049x4096_S8x2x513x4096_S2049x8x2x513_1_3_0_012_n_n]; exact c1
  have r : dd.rhsIdx (ix4 f b c t) ((contrEquiv1 dd 4096 rfl rfl).symm n) = ix4 b c t n := by
    funext ax; apply Fin.ext
    match ax with
    | ⟨0, _⟩ => simp [DotDims.rhsIdx, dot_S2049x4096_S8x2x513x4096_S2049x8x2x513_1_3_0_012_n_n]; rfl
    | ⟨1, _⟩ => simp [DotDims.rhsIdx, dot_S2049x4096_S8x2x513x4096_S2049x8x2x513_1_3_0_012_n_n]; rfl
    | ⟨2, _⟩ => simp [DotDims.rhsIdx, dot_S2049x4096_S8x2x513x4096_S2049x8x2x513_1_3_0_012_n_n]; rfl
    | ⟨3, _⟩ => simp [DotDims.rhsIdx, dot_S2049x4096_S8x2x513x4096_S2049x8x2x513_1_3_0_012_n_n]; exact c1
  rw [l, r]

/-! ## The result -/

/-- One entry of a result is the Fourier sum's entry: the transpose read at (b, c, f, t) is the contraction at
    (f, b, c, t), whose summand at n is basis(f, n) · (signal(b, c, 1024·t + n) · window(n)). -/
theorem result_apply (x : FVec Ideal S8x2x524288 .f32) (w : FVec Ideal S4096 .f32) (B : FVec Ideal S2049x4096 .f32)
    (b : Fin 8) (c : Fin 2) (f : Fin 2049) (t : Fin 513) :
    result x w B (ix4 b c f t) = Cert.Stft.spectrumAt (padded x) w B b c f t := by
  unfold result
  refine (transpose_apply _ _ _ (ix4 b c f t) (ix4 f b c t) fun a => ?_).trans ?_
  · match a with
    | ⟨0, _⟩ => rfl
    | ⟨1, _⟩ => rfl
    | ⟨2, _⟩ => rfl
    | ⟨3, _⟩ => rfl
  · rw [dot_apply]
    unfold Cert.Stft.spectrumAt
    exact Finset.sum_congr rfl fun n _ => by rw [windowed_apply]

/-- A result of the program is the short-time Fourier sum of the padded signal against its basis. -/
theorem result_eq (x : FVec Ideal S8x2x524288 .f32) (w : FVec Ideal S4096 .f32) (B : FVec Ideal S2049x4096 .f32) :
    result x w B = Cert.Stft.spectrum (padded x) w B := by
  funext i
  obtain ⟨b, c, f, t, rfl⟩ : ∃ (b : Fin 8) (c : Fin 2) (f : Fin 2049) (t : Fin 513), i = ix4 b c f t :=
    ⟨i 0, i 1, i 2, i 3, eq_ix4 i⟩
  rw [Cert.Stft.spectrum_apply]
  exact result_apply x w B b c f t

/-! ## The run -/

/-- At the ideal values, from any memory with zero counters: every weakly fair execution of the reference program
    terminates; its first result is the Fourier sum of the padded first argument, windowed by the second, against the
    third; its second result the same against the fourth; and the four argument arrays end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21)
          = Cert.Stft.spectrum (padded (m ((c.tc : Thread nD τ).loc main_arg0))) (m ((c.tc : Thread nD τ).loc main_arg1)) (m ((c.tc : Thread nD τ).loc main_arg2))
      ∧ r.2.mem ((c.tc : Thread nD τ).loc main_v23)
          = Cert.Stft.spectrum (padded (m ((c.tc : Thread nD τ).loc main_arg0))) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c).1.trans (result_eq _ _ _), (h c).2.1.trans (result_eq _ _ _), (h c).2.2⟩)
    (run_result m ρ)

end Cert.ReferenceIdeal.Hand

end
-- ==== Proof.lean ====
/-
  A short-time Fourier transform computed two ways.

  Both programs pad a signal of 524288 samples per (batch, channel) by reflection to 528384 samples, cut it into 513
  frames of 4096 samples with hop 1024, multiply each frame by a window, and take the sums
      real(b, c, f, t) = ∑ₙ cos_basis(f, n) · (padded(b, c, 1024·t + n) · window(n)),
      imag(b, c, f, t) = ∑ₙ sin_basis(f, n) · (padded(b, c, 1024·t + n) · window(n)),   n = 0 … 4095.
  The reference gathers the frames by computed sample positions and takes each sum as one contraction. The kernel builds
  the frames from four shifted copies of the signal laid out in rows of 1024, narrows the float format, and accumulates
  the sums in 16 tiles of 256 samples over a grid of (batch·channel) × tile, starting each accumulator from zero.

  Over the extended reals a change of float format is the identity and addition is commutative and associative, so a sum
  may be taken tile by tile and 0 + s = s: the two results agree entry by entry, with no use of finiteness. The padded
  signal is never read at an index: both programs compute it by the same operations on the same argument.

  The three frames: the kernel (at the word level and at the ideal values) runs point by point, its two accumulators
  carried from one grid point to the next, and writes no argument; the reference is a straight line of host operations.
  The idealization rewrote nothing, so it preserves the kernel trivially.
-/
import proofs.«152170_j48576080118713_1_alg».proof.Defs
import proofs.«152170_j48576080118713_1_alg».proof.Proof.Gen.Kernel
import proofs.«152170_j48576080118713_1_alg».proof.Proof.Gen.KernelIdeal
import proofs.«152170_j48576080118713_1_alg».proof.Proof.Gen.ReferenceIdeal
import proofs.«152170_j48576080118713_1_alg».proof.Proof.Gen.Pre_finite_inputs
import proofs.«152170_j48576080118713_1_alg».proof.Proof.Kernel.Frame
import proofs.«152170_j48576080118713_1_alg».proof.Proof.KernelIdeal.Final
import proofs.«152170_j48576080118713_1_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel (hKernel := Cert.Kernel.Gen.facts) (hPre_finite_inputs := Cert.Pre_finite_inputs.Gen.facts) :=
  fun m ρ _ => Cert.Kernel.Fr.frame (F := Bits) m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- And the reference: its run with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Hand.run m ρ)

/-- Both programs end with the two transforms of the same padded signal against the same window and bases. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Val.run m ρ, ?_⟩
  refine (θ_run Cert.ReferenceIdeal.defs _ _).mono (fun _ h c => ?_) (Cert.ReferenceIdeal.Hand.run m' ρ')
  obtain ⟨h1, h2, h3⟩ := h c
  refine ⟨h1.trans ?_, h2.trans ?_, h3⟩
  · rw [(hagree c).1, (hagree c).2.1, (hagree c).2.2.1]; rfl
  · rw [(hagree c).1, (hagree c).2.1, (hagree c).2.2.2]; rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
